-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_cst_15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x1024 : Shape := ⟨3, ![1024, 1, 1024]⟩
abbrev S1024x64x768 : Shape := ⟨3, ![1024, 64, 768]⟩
abbrev S1024x64 : Shape := ⟨2, ![1024, 64]⟩
abbrev S768x1024 : Shape := ⟨2, ![768, 1024]⟩
abbrev S768 : Shape := ⟨1, ![768]⟩
abbrev S16384x768 : Shape := ⟨2, ![16384, 768]⟩
abbrev S_ : Shape := ⟨0, ![]⟩

class Facts : Prop where
  bcast_S_S1024x1x1024 : S_.BroadcastsInDim S1024x1x1024 (![] : Fin 0 → Fin S1024x1x1024.rank)
  reducesTo_S1024x1x1024_S_d0_1_2 : S1024x1x1024.ReducesTo [0, 1, 2] S_
  h_S_ : 0 < S_.numel
  bcast_S_S1024x64x768 : S_.BroadcastsInDim S1024x64x768 (![] : Fin 0 → Fin S1024x64x768.rank)
  reducesTo_S1024x64x768_S_d0_1_2 : S1024x64x768.ReducesTo [0, 1, 2] S_
  bcast_S_S768x1024 : S_.BroadcastsInDim S768x1024 (![] : Fin 0 → Fin S768x1024.rank)
  reducesTo_S768x1024_S_d0_1 : S768x1024.ReducesTo [0, 1] S_
  bcast_S_S768 : S_.BroadcastsInDim S768 (![] : Fin 0 → Fin S768.rank)
  reducesTo_S768_S_d0 : S768.ReducesTo [0] S_
  bcast_S_S16384x768 : S_.BroadcastsInDim S16384x768 (![] : Fin 0 → Fin S16384x768.rank)
  reducesTo_S16384x768_S_d0_1 : S16384x768.ReducesTo [0, 1] S_

variable [Facts]

def fn_part1 {F : FTy → Type} [FloatOps F] (main_arg5 : FVec F S16384x768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S16384x768 .f32 := Host.absf main_arg5
  let main_cst_6 : FVec F S_ .f32 := constant S_ .f32 0x7F800000#32
  let main_v20 : FVec F S16384x768 .f32 := broadcastInDim S16384x768 ![] bcast_S_S16384x768 main_cst_6
  let main_v21 : IVec S16384x768 1 := cmpf .olt main_v19 main_v20
  let main_c_7 : IVec S_ 1 := constantI S_ 1 1#1
  let main_v22 : IVec S_ 1 := (fun x v => Host.reduce IntOp.andi x v reducesTo_S16384x768_S_d0_1 h_S_) main_v21 main_c_7
  let main_v23 : IVec S_ 1 := andi main_v18 main_v22
  main_v23

def fn {F : FTy → Type} [FloatOps F] (main_arg0 : FVec F S1024x1x1024 .f32) (main_arg1 : FVec F S1024x64x768 .f32) (main_arg2 : IVec S1024x64 1) (main_arg3 : FVec F S768x1024 .f32) (main_arg4 : FVec F S768 .f32) (main_arg5 : FVec F S16384x768 .f32) : IVec S_ 1 :=
  let main_v0 : FVec F S1024x1x1024 .f32 := Host.absf main_arg0
  let main_cst : FVec F S_ .f32 := constant S_ .f32 0x7F800000#32
  let main_v1 : FVec F S1024x1x1024 .f32 := broadcastInDim S1024x1x1024 ![] bcast_S_S1024x1x1024 main_cst
  let main_v2 : IVec S1024x1x1024 1 := cmpf .olt main_v0 main_v1
  let main_c : IVec S_ 1 := constantI S_ 1 1#1
  let main_v3 : IVec S_ 1 := (fun x v => Host.reduce IntOp.andi x v reducesTo_S1024x1x1024_S_d0_1_2 h_S_) main_v2 main_c
  let main_v4 : FVec F S1024x64x768 .f32 := Host.absf main_arg1
  let main_cst_0 : FVec F S_ .f32 := constant S_ .f32 0x7F800000#32
  let main_v5 : FVec F S1024x64x768 .f32 := broadcastInDim S1024x64x768 ![] bcast_S_S1024x64x768 main_cst_0
  let main_v6 : IVec S1024x64x768 1 := cmpf .olt main_v4 main_v5
  let main_c_1 : IVec S_ 1 := constantI S_ 1 1#1
  let main_v7 : IVec S_ 1 := (fun x v => Host.reduce IntOp.andi x v reducesTo_S1024x64x768_S_d0_1_2 h_S_) main_v6 main_c_1
  let main_v8 : IVec S_ 1 := andi main_v3 main_v7
  let main_v9 : FVec F S768x1024 .f32 := Host.absf main_arg3
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_v13 main_v16
-- ==== Kernel.lean ====
abbrev S1024x1x1024 : Shape := ⟨3, ![1024, 1, 1024]⟩
abbrev S1024x64x768 : Shape := ⟨3, ![1024, 64, 768]⟩
abbrev S1024x64 : Shape := ⟨2, ![1024, 64]⟩
abbrev S768x1024 : Shape := ⟨2, ![768, 1024]⟩
abbrev S768 : Shape := ⟨1, ![768]⟩
abbrev S16384x768 : Shape := ⟨2, ![16384, 768]⟩
abbrev S1024x1024 : Shape := ⟨2, ![1024, 1024]⟩
abbrev S1x768 : Shape := ⟨2, ![1, 768]⟩
abbrev S1024x768 : Shape := ⟨2, ![1024, 768]⟩
abbrev S512x1024 : Shape := ⟨2, ![512, 1024]⟩
abbrev S512x768 : Shape := ⟨2, ![512, 768]⟩
abbrev S512x1 : Shape := ⟨2, ![512, 1]⟩
abbrev S512 : Shape := ⟨1, ![512]⟩
abbrev S1024 : Shape := ⟨1, ![1024]⟩
abbrev S1024x1 : Shape := ⟨2, ![1024, 1]⟩
abbrev S_ : Shape := ⟨0, ![]⟩
abbrev S64 : Shape := ⟨1, ![64]⟩
abbrev S1x64 : Shape := ⟨2, ![1, 64]⟩
abbrev S1024x2 : Shape := ⟨2, ![1024, 2]⟩
abbrev S1024x64x1 : Shape := ⟨3, ![1024, 64, 1]⟩
abbrev S1024x1x768 : Shape := ⟨3, ![1024, 1, 768]⟩

abbrev nBuf : Space → Nat
  | .hbm => 84
  | .vmem => 12
  | .smem => 0
  | _ => 0

abbrev bufTy : (tb : Table) → Fin (tcTables nBuf tb) → BufTy
  | .hbm, ⟨0, _⟩ => ⟨S1024x1x1024, .f32⟩
  | .hbm, ⟨1, _⟩ => ⟨S1024x64x768, .f32⟩
  | .hbm, ⟨2, _⟩ => ⟨S1024x64, .i1⟩
  | .hbm, ⟨3, _⟩ => ⟨S768x1024, .f32⟩
  | .hbm, ⟨4, _⟩ => ⟨S768, .f32⟩
  | .hbm, ⟨5, _⟩ => ⟨S16384x768, .f32⟩
  | .hbm, ⟨6, _⟩ => ⟨S1024x1024, .f32⟩
  | .hbm, ⟨7, _⟩ => ⟨S1x768, .f32⟩
  | .hbm, ⟨8, _⟩ => ⟨S1024x768, .f32⟩
  | .hbm, ⟨9, _⟩ => ⟨S1024x64, .i32⟩
  | .hbm, ⟨10, _⟩ => ⟨S_, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S64, .i32⟩
  | .hbm, ⟨19, _⟩ => ⟨S1x64, .i32⟩
  | .hbm, ⟨20, _⟩ => ⟨S1024x1, .i32⟩
  | .hbm, ⟨21, _⟩ => ⟨S1024x64, .i32⟩
  | .hbm, ⟨22, _⟩ => ⟨S1024x64, .i32⟩
  | .hbm, ⟨23, _⟩ => ⟨S1024x64, .i1⟩
  | .hbm, ⟨24, _⟩ => ⟨S1x64, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x64, .i32⟩
  | .hbm, ⟨30, _⟩ => ⟨S1024x64, .i32⟩
  | .hbm, ⟨31, _⟩ => ⟨S1024x64, .i1⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x1, .i32⟩
  | .hbm, ⟨60, _⟩ => ⟨S1024x2, .i32⟩
  | .hbm, ⟨61, _⟩ => ⟨S1024x768, .f32⟩
  | .hbm, ⟨62, _⟩ => ⟨S1024x1, .i1⟩
  | .hbm, ⟨63, _⟩ => ⟨S1024x64, .i1⟩
  | .hbm, ⟨64, _⟩ => ⟨S1024x64, .i1⟩
  | .hbm, ⟨65, _⟩ => ⟨S1024x64x1, .i1⟩
  | .hbm, ⟨66, _⟩ => ⟨S1024x1, .i1⟩
  | .hbm, ⟨67, _⟩ => ⟨S1024x64, .i1⟩
  | .hbm, ⟨68, _⟩ => ⟨S1024x64, .i1⟩
  | .hbm, ⟨69, _⟩ => ⟨S1024x64x1, .i1⟩
  | .hbm, ⟨70, _⟩ => ⟨S1024x1x768, .f32⟩
  | .hbm, ⟨71, _⟩ => ⟨S1024x64x768, .i1⟩
  | .hbm, ⟨72, _⟩ => ⟨S1024x64x768, .f32⟩
  | .hbm, ⟨73, _⟩ => ⟨S1024x64x768, .f32⟩
  | .hbm, ⟨74, _⟩ => ⟨S1024x1x768, .f32⟩
  | .hbm, ⟨75, _⟩ => ⟨S1024x64x768, .i1⟩
  | .hbm, ⟨76, _⟩ => ⟨S1024x64x768, .f32⟩
  | .hbm, ⟨77, _⟩ => ⟨S1024x64x768, .f32⟩
  | .hbm, ⟨78, _⟩ => ⟨S1024x1, .i1⟩
  | .hbm, ⟨79, _⟩ => ⟨S1024x64, .i1⟩
  | .hbm, ⟨80, _⟩ => ⟨S1024x64, .i1⟩
  | .hbm, ⟨81, _⟩ => ⟨S1024x64, .i1⟩
  | .hbm, ⟨82, _⟩ => ⟨S1024x64, .i1⟩
  | .hbm, ⟨83, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S768x1024, .f32⟩
  | .local _ .vmem, ⟨3, _⟩ => ⟨S1x768, .f32⟩
  | .local _ .vmem, ⟨4, _⟩ => ⟨S1024x768, .f32⟩
  | .local _ .vmem, ⟨5, _⟩ => ⟨S1024x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x1, .f32⟩
  | .local _ .vmem, ⟨10, _⟩ => ⟨S512x1, .f32⟩
  | .local _ .vmem, ⟨11, _⟩ => ⟨S512x768, .f32⟩
  | _, _ => ⟨S1024x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_c_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_v0 : Ref sig .tc := ⟨.hbm, 71, rfl⟩
abbrev main_call1_v1 : Ref sig .tc := ⟨.hbm, 72, rfl⟩
abbrev main_v49 : Ref sig .tc := ⟨.hbm, 73, rfl⟩
abbrev main_v50 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1024x1x1024_S1024x1024 : S1024x1x1024.ShapeCasts S1024x1024
  shapeCasts_S768_S1x768 : S768.ShapeCasts S1x768
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S768x1024_S768x1024_0_0 : ∀ a, (![0, 0] : Fin 2 → Nat) a + S768x1024.size a ≤ S768x1024.size a
  h_S768x1024 : 0 < S768x1024.numel
  transposes_S768x1024_p1_0_S1024x768 : S768x1024.Transposes [1, 0] S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x768_S1024x768_0_0 : ∀ a, (![0, 0] : Fin 2 → Nat) a + S1024x768.size a ≤ S1024x768.size a
  h_S1024x768 : 0 < S1024x768.numel
  reduces_S512x768_S512 : S512x768.Reduces [1] S512
  shapeCasts_S512_S512x1 : S512.ShapeCasts S512x1
  broadcasts_S512x1_S512x768 : S512x1.Broadcasts S512x768
  reduces_S1024x768_S1024 : S1024x768.Reduces [1] S1024
  shapeCasts_S1024_S1024x1 : S1024.ShapeCasts S1024x1
  broadcasts_S1024x1_S1024x768 : S1024x1.Broadcasts S1024x768
  bitsLt_bf16_f32 : FTy.bits .bf16 < FTy.bits .f32
  transposes_S1024x768_p1_0_S768x1024 : S1024x768.Transposes [1, 0] S768x1024
  reduces_S512x1024_S512 : S512x1024.Reduces [1] S512
  broadcasts_S512x1_S512x1024 : S512x1.Broadcasts S512x1024
  natLt_1_32 : 1 < 32
  reducesTo_S1024x64_S1024_d1 : S1024x64.ReducesTo [1] S1024
  h_S_ : 0 < S_.numel
  bcast_S_S1024 : S_.BroadcastsInDim S1024 (![] : Fin 0 → Fin S1024.rank)
  bcast_S64_S1x64_1 : S64.BroadcastsInDim S1x64 (![1] : Fin 1 → Fin S1x64.rank)
  bcast_S1024_S1024x1_0 : S1024.BroadcastsInDim S1024x1 (![0] : Fin 1 → Fin S1024x1.rank)
  bcast_S1x64_S1024x64_0_1 : S1x64.BroadcastsInDim S1024x64 (![0, 1] : Fin 2 → Fin S1024x64.rank)
  bcast_S1024x1_S1024x64_0_1 : S1024x1.BroadcastsInDim S1024x64 (![0, 1] : Fin 2 → Fin S1024x64.rank)
  concatenates_S1024x1_S1024x1_S1024x2_d1 : Shape.Concatenates [S1024x1, S1024x1] S1024x2 1
  bcast_S1024x64_S1024x64x1_0_1 : S1024x64.BroadcastsInDim S1024x64x1 (![0, 1] : Fin 2 → Fin S1024x64x1.rank)
  bcast_S1024x768_S1024x1x768_0_2 : S1024x768.BroadcastsInDim S1024x1x768 (![0, 2] : Fin 2 → Fin S1024x1x768.rank)
  bcast_S1024x64x1_S1024x64x768_0_1_2 : S1024x64x1.BroadcastsInDim S1024x64x768 (![0, 1, 2] : Fin 3 → Fin S1024x64x768.rank)
  bcast_S1024x1x768_S1024x64x768_0_1_2 : S1024x1x768.BroadcastsInDim S1024x64x768 (![0, 1, 2] : Fin 3 → Fin S1024x64x768.rank)
  dot_S512x1024_S1024x768_S512x768_1_0_0_1_n_n_wf : DotDims.WF S512x1024 S1024x768 S512x768 [1] [0] [0] [1] [] []
  dot_S512x768_S768x1024_S512x1024_1_0_0_1_n_n_wf : DotDims.WF S512x768 S768x1024 S512x1024 [1] [0] [0] [1] [] []
  gather_S1024x64x768_S1024x2_S1024x768_1_01_n_n_01_1_11768_wf : GatherDims.WF S1024x64x768 S1024x2 S1024x768 [1] [0, 1] [] [0, 1] [] 1 ![1, 1, 768]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .f32 = 32 ∨ (Rect.block (s := S768x1024) S768x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S16384x768.size a
  hwx0_3 : ∀ i : grid0.Coords, EltTy.bits .f32 = 32 ∨ (Rect.block (s := S16384x768) S1024x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S1024x768.size a
  hwx0_4 : ∀ i : grid0.Coords, EltTy.bits .f32 = 32 ∨ (Rect.block (s := S1024x768) S512x768.size (cc0_transform_4 i) (hinb0_4 i)).WholeWords (EltTy.packing .f32)

variable [Facts₀]

def dot_S512x1024_S1024x768_S512x768_1_0_0_1_n_n : DotDims S512x1024 S1024x768 S512x768 where
  lhsContracting := [1]
  rhsContracting := [0]
  lhsNonContracting := [0]
  rhsNonContracting := [1]
  lhsBatch := []
  rhsBatch := []
  wf := dot_S512x1024_S1024x768_S512x768_1_0_0_1_n_n_wf
def dot_S512x768_S768x1024_S512x1024_1_0_0_1_n_n : DotDims S512x768 S768x1024 S512x1024 where
  lhsContracting := [1]
  rhsContracting := [0]
  lhsNonContracting := [0]
  rhsNonContracting := [1]
  lhsBatch := []
  rhsBatch := []
  wf := dot_S512x768_S768x1024_S512x1024_1_0_0_1_n_n_wf
def gather_S1024x64x768_S1024x2_S1024x768_1_01_n_n_01_1_11768 : GatherDims S1024x64x768 S1024x2 S1024x768 where
  offsetDims := [1]
  collapsedSliceDims := [0, 1]
  operandBatchingDims := []
  startIndicesBatchingDims := []
  startIndexMap := [0, 1]
  indexVectorDim := 1
  sliceSizes := ![1, 1, 768]
  wf := gather_S1024x64x768_S1024x2_S1024x768_1_01_n_n_01_1_11768_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x1x1024 : Shape := ⟨3, ![1024, 1, 1024]⟩
abbrev S1024x64x768 : Shape := ⟨3, ![1024, 64, 768]⟩
abbrev S1024x64 : Shape := ⟨2, ![1024, 64]⟩
abbrev S768x1024 : Shape := ⟨2, ![768, 1024]⟩
abbrev S768 : Shape := ⟨1, ![768]⟩
abbrev S16384x768 : Shape := ⟨2, ![16384, 768]⟩
abbrev S1024x1x768 : Shape := ⟨3, ![1024, 1, 768]⟩
abbrev S1x1x768 : Shape := ⟨3, ![1, 1, 768]⟩
abbrev S_ : Shape := ⟨0, ![]⟩
abbrev S1024x1 : Shape := ⟨2, ![1024, 1]⟩
abbrev S1024x1x1 : Shape := ⟨3, ![1024, 1, 1]⟩
abbrev S16384 : Shape := ⟨1, ![16384]⟩
abbrev S16384x1 : Shape := ⟨2, ![16384, 1]⟩
abbrev S1024x1x16384 : Shape := ⟨3, ![1024, 1, 16384]⟩
abbrev S1024 : Shape := ⟨1, ![1024]⟩
abbrev S64 : Shape := ⟨1, ![64]⟩
abbrev S1x64 : Shape := ⟨2, ![1, 64]⟩
abbrev S1024x2 : Shape := ⟨2, ![1024, 2]⟩
abbrev S1024x768 : Shape := ⟨2, ![1024, 768]⟩
abbrev S1024x64x1 : Shape := ⟨3, ![1024, 64, 1]⟩

abbrev nBuf : Space → Nat
  | .hbm => 125
  | .vmem => 0
  | .smem => 0
  | _ => 0

abbrev bufTy : (tb : Table) → Fin (tcTables nBuf tb) → BufTy
  | .hbm, ⟨0, _⟩ => ⟨S1024x1x1024, .f32⟩
  | .hbm, ⟨1, _⟩ => ⟨S1024x64x768, .f32⟩
  | .hbm, ⟨2, _⟩ => ⟨S1024x64, .i1⟩
  | .hbm, ⟨3, _⟩ => ⟨S768x1024, .f32⟩
  | .hbm, ⟨4, _⟩ => ⟨S768, .f32⟩
  | .hbm, ⟨5, _⟩ => ⟨S16384x768, .f32⟩
  | .hbm, ⟨6, _⟩ => ⟨S1024x1x768, .f32⟩
  | .hbm, ⟨7, _⟩ => ⟨S1x1x768, .f32⟩
  | .hbm, ⟨8, _⟩ => ⟨S1024x1x768, .f32⟩
  | .hbm, ⟨9, _⟩ => ⟨S1024x1x768, .f32⟩
  | .hbm, ⟨10, _⟩ => ⟨S1024x1x768, .f32⟩
  | .hbm, ⟨11, _⟩ => ⟨S_, .f32⟩
  | .hbm, ⟨12, _⟩ => ⟨S1024x1, .f32⟩
  | .hbm, ⟨13, _⟩ => ⟨S1024x1x1, .f32⟩
  | .hbm, ⟨14, _⟩ => ⟨S1024x1x1, .f32⟩
  | .hbm, ⟨15, _⟩ => ⟨S_, .f32⟩
  | .hbm, ⟨16, _⟩ => ⟨S1024x1x1, .f32⟩
  | .hbm, ⟨17, _⟩ => ⟨S1024x1x1, .f32⟩
  | .hbm, ⟨18, _⟩ => ⟨S1024x1x768, .f32⟩
  | .hbm, ⟨19, _⟩ => ⟨S1024x1x768, .f32⟩
  | .hbm, ⟨20, _⟩ => ⟨S16384x768, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x768, .f32⟩
  | .hbm, ⟨29, _⟩ => ⟨S16384x768, .f32⟩
  | .hbm, ⟨30, _⟩ => ⟨S1024x1x16384, .f32⟩
  | .hbm, ⟨31, _⟩ => ⟨S_, .f32⟩
  | .hbm, ⟨32, _⟩ => ⟨S1024x1x16384, .f32⟩
  | .hbm, ⟨33, _⟩ => ⟨S1024x1x16384, .f32⟩
  | .hbm, ⟨34, _⟩ => ⟨S_, .f32⟩
  | .hbm, ⟨35, _⟩ => ⟨S1024x1, .f32⟩
  | .hbm, ⟨36, _⟩ => ⟨S_, .f32⟩
  | .hbm, ⟨37, _⟩ => ⟨S1024x1, .f32⟩
  | .hbm, ⟨38, _⟩ => ⟨S1024x1, .f32⟩
  | .hbm, ⟨39, _⟩ => ⟨S1024x1x1, .f32⟩
  | .hbm, ⟨40, _⟩ => ⟨S1024x1x16384, .f32⟩
  | .hbm, ⟨41, _⟩ => ⟨S1024x1x16384, .f32⟩
  | .hbm, ⟨42, _⟩ => ⟨S1024x1x16384, .f32⟩
  | .hbm, ⟨43, _⟩ => ⟨S_, .f32⟩
  | .hbm, ⟨44, _⟩ => ⟨S1024x1, .f32⟩
  | .hbm, ⟨45, _⟩ => ⟨S1024x1x1, .f32⟩
  | .hbm, ⟨46, _⟩ => ⟨S1024x1x16384, .f32⟩
  | .hbm, ⟨47, _⟩ => ⟨S1024x1x16384, .f32⟩
  | .hbm, ⟨48, _⟩ => ⟨S1024x1x768, .f32⟩
  | .hbm, ⟨49, _⟩ => ⟨S1024x64, .i32⟩
  | .hbm, ⟨50, _⟩ => ⟨S_, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S64, .i32⟩
  | .hbm, ⟨59, _⟩ => ⟨S1x64, .i32⟩
  | .hbm, ⟨60, _⟩ => ⟨S1024x1, .i32⟩
  | .hbm, ⟨61, _⟩ => ⟨S1024x64, .i32⟩
  | .hbm, ⟨62, _⟩ => ⟨S1024x64, .i32⟩
  | .hbm, ⟨63, _⟩ => ⟨S1024x64, .i1⟩
  | .hbm, ⟨64, _⟩ => ⟨S1x64, .i32⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x64, .i32⟩
  | .hbm, ⟨70, _⟩ => ⟨S1024x64, .i32⟩
  | .hbm, ⟨71, _⟩ => ⟨S1024x64, .i1⟩
  | .hbm, ⟨72, _⟩ => ⟨S1024, .i32⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1024, .i32⟩
  | .hbm, ⟨80, _⟩ => ⟨S1024, .i32⟩
  | .hbm, ⟨81, _⟩ => ⟨S_, .i32⟩
  | .hbm, ⟨82, _⟩ => ⟨S1024, .i32⟩
  | .hbm, ⟨83, _⟩ => ⟨S1024, .i32⟩
  | .hbm, ⟨84, _⟩ => ⟨S_, .i32⟩
  | .hbm, ⟨85, _⟩ => ⟨S1024, .i32⟩
  | .hbm, ⟨86, _⟩ => ⟨S1024, .i1⟩
  | .hbm, ⟨87, _⟩ => ⟨S_, .i32⟩
  | .hbm, ⟨88, _⟩ => ⟨S1024, .i32⟩
  | .hbm, ⟨89, _⟩ => ⟨S1024, .i32⟩
  | .hbm, ⟨90, _⟩ => ⟨S1024, .i32⟩
  | .hbm, ⟨91, _⟩ => ⟨S_, .i32⟩
  | .hbm, ⟨92, _⟩ => ⟨S1024, .i32⟩
  | .hbm, ⟨93, _⟩ => ⟨S1024, .i1⟩
  | .hbm, ⟨94, _⟩ => ⟨S_, .i32⟩
  | .hbm, ⟨95, _⟩ => ⟨S1024, .i32⟩
  | .hbm, ⟨96, _⟩ => ⟨S1024, .i32⟩
  | .hbm, ⟨97, _⟩ => ⟨S1024, .i32⟩
  | .hbm, ⟨98, _⟩ => ⟨S1024x1, .i32⟩
  | .hbm, ⟨99, _⟩ => ⟨S1024x1, .i32⟩
  | .hbm, ⟨100, _⟩ => ⟨S1024x2, .i32⟩
  | .hbm, ⟨101, _⟩ => ⟨S1024x768, .f32⟩
  | .hbm, ⟨102, _⟩ => ⟨S1024x1, .i1⟩
  | .hbm, ⟨103, _⟩ => ⟨S1024x64, .i1⟩
  | .hbm, ⟨104, _⟩ => ⟨S1024x64, .i1⟩
  | .hbm, ⟨105, _⟩ => ⟨S1024x64x1, .i1⟩
  | .hbm, ⟨106, _⟩ => ⟨S1024x1, .i1⟩
  | .hbm, ⟨107, _⟩ => ⟨S1024x64, .i1⟩
  | .hbm, ⟨108, _⟩ => ⟨S1024x64, .i1⟩
  | .hbm, ⟨109, _⟩ => ⟨S1024x64x1, .i1⟩
  | .hbm, ⟨110, _⟩ => ⟨S1024x1x768, .f32⟩
  | .hbm, ⟨111, _⟩ => ⟨S1024x64x768, .i1⟩
  | .hbm, ⟨112, _⟩ => ⟨S1024x64x768, .f32⟩
  | .hbm, ⟨113, _⟩ => ⟨S1024x64x768, .f32⟩
  | .hbm, ⟨114, _⟩ => ⟨S1024x768, .f32⟩
  | .hbm, ⟨115, _⟩ => ⟨S1024x1x768, .f32⟩
  | .hbm, ⟨116, _⟩ => ⟨S1024x64x768, .i1⟩
  | .hbm, ⟨117, _⟩ => ⟨S1024x64x768, .f32⟩
  | .hbm, ⟨118, _⟩ => ⟨S1024x64x768, .f32⟩
  | .hbm, ⟨119, _⟩ => ⟨S1024x1, .i1⟩
  | .hbm, ⟨120, _⟩ => ⟨S1024x64, .i1⟩
  | .hbm, ⟨121, _⟩ => ⟨S1024x64, .i1⟩
  | .hbm, ⟨122, _⟩ => ⟨S1024x64, .i1⟩
  | .hbm, ⟨123, _⟩ => ⟨S1024x64, .i1⟩
  | .hbm, ⟨124, _⟩ => ⟨S_, .f32⟩
  | _, _ => ⟨S1024x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_c_10 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v51 : Ref sig .tc := ⟨.hbm, 83, rfl⟩
abbrev main_c_11 : Ref sig .tc := ⟨.hbm, 84, rfl⟩
abbrev main_v52 : Ref sig .tc := ⟨.hbm, 85, rfl⟩
abbrev main_v53 : Ref sig .tc := ⟨.hbm, 86, rfl⟩
abbrev main_c_12 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_13 : Ref sig .tc := ⟨.hbm, 91, rfl⟩
abbrev main_v57 : Ref sig .tc := ⟨.hbm, 92, rfl⟩
abbrev main_v58 : Ref sig .tc := ⟨.hbm, 93, rfl⟩
abbrev main_c_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call3_v0 : Ref sig .tc := ⟨.hbm, 111, rfl⟩
abbrev main_call3_v1 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call4_v0 : Ref sig .tc := ⟨.hbm, 116, rfl⟩
abbrev main_call4_v1 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S1024x1x768_0_1_2 : S1x1x768.BroadcastsInDim S1024x1x768 (![0, 1, 2] : Fin 3 → Fin S1024x1x768.rank)
  reducesTo_S1024x1x768_S1024x1_d2 : S1024x1x768.ReducesTo [2] S1024x1
  h_S_ : 0 < S_.numel
  bcast_S1024x1_S1024x1x1_0_1 : S1024x1.BroadcastsInDim S1024x1x1 (![0, 1] : Fin 2 → Fin S1024x1x1.rank)
  bcast_S_S1024x1x1 : S_.BroadcastsInDim S1024x1x1 (![] : Fin 0 → Fin S1024x1x1.rank)
  bcast_S1024x1x1_S1024x1x768_0_1_2 : S1024x1x1.BroadcastsInDim S1024x1x768 (![0, 1, 2] : Fin 3 → Fin S1024x1x768.rank)
  reducesTo_S16384x768_S16384_d1 : S16384x768.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x768_0_1 : S16384x1.BroadcastsInDim S16384x768 (![0, 1] : Fin 2 → Fin S16384x768.rank)
  bcast_S_S1024x1x16384 : S_.BroadcastsInDim S1024x1x16384 (![] : Fin 0 → Fin S1024x1x16384.rank)
  reducesTo_S1024x1x16384_S1024x1_d2 : S1024x1x16384.ReducesTo [2] S1024x1
  bcast_S_S1024x1 : S_.BroadcastsInDim S1024x1 (![] : Fin 0 → Fin S1024x1.rank)
  bcast_S1024x1x1_S1024x1x16384_0_1_2 : S1024x1x1.BroadcastsInDim S1024x1x16384 (![0, 1, 2] : Fin 3 → Fin S1024x1x16384.rank)
  natLt_1_32 : 1 < 32
  reducesTo_S1024x64_S1024_d1 : S1024x64.ReducesTo [1] S1024
  bcast_S_S1024 : S_.BroadcastsInDim S1024 (![] : Fin 0 → Fin S1024.rank)
  bcast_S64_S1x64_1 : S64.BroadcastsInDim S1x64 (![1] : Fin 1 → Fin S1x64.rank)
  bcast_S1024_S1024x1_0 : S1024.BroadcastsInDim S1024x1 (![0] : Fin 1 → Fin S1024x1.rank)
  bcast_S1x64_S1024x64_0_1 : S1x64.BroadcastsInDim S1024x64 (![0, 1] : Fin 2 → Fin S1024x64.rank)
  bcast_S1024x1_S1024x64_0_1 : S1024x1.BroadcastsInDim S1024x64 (![0, 1] : Fin 2 → Fin S1024x64.rank)
  concatenates_S1024x1_S1024x1_S1024x2_d1 : Shape.Concatenates [S1024x1, S1024x1] S1024x2 1
  bcast_S1024x64_S1024x64x1_0_1 : S1024x64.BroadcastsInDim S1024x64x1 (![0, 1] : Fin 2 → Fin S1024x64x1.rank)
  bcast_S1024x768_S1024x1x768_0_2 : S1024x768.BroadcastsInDim S1024x1x768 (![0, 2] : Fin 2 → Fin S1024x1x768.rank)
  bcast_S1024x64x1_S1024x64x768_0_1_2 : S1024x64x1.BroadcastsInDim S1024x64x768 (![0, 1, 2] : Fin 3 → Fin S1024x64x768.rank)
  bcast_S1024x1x768_S1024x64x768_0_1_2 : S1024x1x768.BroadcastsInDim S1024x64x768 (![0, 1, 2] : Fin 3 → Fin S1024x64x768.rank)
  shapeCasts_S1024x1x768_S1024x768 : S1024x1x768.ShapeCasts S1024x768
  dot_S1024x1x1024_S768x1024_S1024x1x768_2_1_01_0_n_n_wf : DotDims.WF S1024x1x1024 S768x1024 S1024x1x768 [2] [1] [0, 1] [0] [] []
  dot_S1024x1x768_S16384x768_S1024x1x16384_2_1_01_0_n_n_wf : DotDims.WF S1024x1x768 S16384x768 S1024x1x16384 [2] [1] [0, 1] [0] [] []
  dot_S1024x1x16384_S16384x768_S1024x1x768_2_0_01_1_n_n_wf : DotDims.WF S1024x1x16384 S16384x768 S1024x1x768 [2] [0] [0, 1] [1] [] []
  gather_S1024x64x768_S1024x2_S1024x768_1_01_n_n_01_1_11768_wf : GatherDims.WF S1024x64x768 S1024x2 S1024x768 [1] [0, 1] [] [0, 1] [] 1 ![1, 1, 768]

variable [Facts₀]

def dot_S1024x1x1024_S768x1024_S1024x1x768_2_1_01_0_n_n : DotDims S1024x1x1024 S768x1024 S1024x1x768 where
  lhsContracting := [2]
  rhsContracting := [1]
  lhsNonContracting := [0, 1]
  rhsNonContracting := [0]
  lhsBatch := []
  rhsBatch := []
  wf := dot_S1024x1x1024_S768x1024_S1024x1x768_2_1_01_0_n_n_wf
def dot_S1024x1x768_S16384x768_S1024x1x16384_2_1_01_0_n_n : DotDims S1024x1x768 S16384x768 S1024x1x16384 where
  lhsContracting := [2]
  rhsContracting := [1]
  lhsNonContracting := [0, 1]
  rhsNonContracting := [0]
  lhsBatch := []
  rhsBatch := []
  wf := dot_S1024x1x768_S16384x768_S1024x1x16384_2_1_01_0_n_n_wf
def dot_S1024x1x16384_S16384x768_S1024x1x768_2_0_01_1_n_n : DotDims S1024x1x16384 S16384x768 S1024x1x768 where
  lhsContracting := [2]
  rhsContracting := [0]
  lhsNonContracting := [0, 1]
  rhsNonContracting := [1]
  lhsBatch := []
  rhsBatch := []
  wf := dot_S1024x1x16384_S16384x768_S1024x1x768_2_0_01_1_n_n_wf
def gather_S1024x64x768_S1024x2_S1024x768_1_01_n_n_01_1_11768 : GatherDims S1024x64x768 S1024x2 S1024x768 where
  offsetDims := [1]
  collapsedSliceDims := [0, 1]
  operandBatchingDims := []
  startIndicesBatchingDims := []
  startIndexMap := [0, 1]
  indexVectorDim := 1
  sliceSizes := ![1, 1, 768]
  wf := gather_S1024x64x768_S1024x2_S1024x768_1_01_n_n_01_1_11768_wf

class Facts : Prop extends Facts₀ where

variable [Facts]
-- ==== Proof.WordRegion.lean ====
/-
  The region of the program's one pallas_call, as the launch library needs it: the host lines before the call (two
  reshapes), the call, and the host lines after it; the arrays as the call finds them; each window's block at a grid
  point; the two conditions of the body (first codebook tile, last codebook tile) in closed form over the 2 x 16 grid;
  where the output window is idle; and the memrefs the body is called with.
-/
import proofs.«155410_j47107201302664_1_alg».proof.Proof.Gen.Kernel.Launch
import proofs.«155410_j47107201302664_1_alg».proof.Proof.Gen.Kernel.Skeleton
import proofs.«155410_j47107201302664_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- The host lines after the call, stretch by stretch. -/
abbrev tailOps : List (List (HloOp τ sig (Elt F))) :=
  [hostOps1, hostOps1_1, hostOps1_2, hostOps1_3, hostOps1_4, hostOps1_5, hostOps1_6]

/-- The buffers of core c when the call is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is: the two reshapes, the call, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- None of them writes an array the call's windows stage: each writes its own result buffer only. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The arguments, as the call and the later lines leave them -/

/-- The two reshapes write neither argument 0 nor anything it depends on. -/
theorem V_main_arg0 (c : Dev nD) : V m c main_arg0 = m ((c : Thread nD τ).loc main_arg0) := by
  refine (StableHlo.after_of_forall_not_mem (b := Proc.devRef .tc main_arg0) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 1 nor anything it depends on. -/
theorem V_main_arg1 (c : Dev nD) : V m c main_arg1 = m ((c : Thread nD τ).loc main_arg1) := by
  refine (StableHlo.after_of_forall_not_mem (b := Proc.devRef .tc main_arg1) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 2 nor anything it depends on. -/
theorem V_main_arg2 (c : Dev nD) : V m c main_arg2 = m ((c : Thread nD τ).loc main_arg2) := by
  refine (StableHlo.after_of_forall_not_mem (b := Proc.devRef .tc main_arg2) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 3 nor anything it depends on. -/
theorem V_main_arg3 (c : Dev nD) : V m c main_arg3 = m ((c : Thread nD τ).loc main_arg3) := by
  refine (StableHlo.after_of_forall_not_mem (b := Proc.devRef .tc main_arg3) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 4 nor anything it depends on. -/
theorem V_main_arg4 (c : Dev nD) : V m c main_arg4 = m ((c : Thread nD τ).loc main_arg4) := by
  refine (StableHlo.after_of_forall_not_mem (b := Proc.devRef .tc main_arg4) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 5 nor anything it depends on. -/
theorem V_main_arg5 (c : Dev nD) : V m c main_arg5 = m ((c : Thread nD τ).loc main_arg5) := by
  refine (StableHlo.after_of_forall_not_mem (b := Proc.devRef .tc main_arg5) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)

/-- The later lines write none of the arguments no window stages. -/
theorem tail_args : ∀ b ∈ ([main_arg0, main_arg1, main_arg2, main_arg4] : List (Ref sig .tc)),
    ∀ ops ∈ (tailOps : List (List (HloOp τ sig (Elt F)))), ∀ op ∈ ops, Proc.devRef .tc b ∉ op.writes := by
  intro b hb ops hops op hop
  simp only [List.mem_cons, List.mem_nil_iff, or_false] at hb hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the entry contents, a run ending in the library's post over the later lines
    leaves all six arguments as they were: the two a window stages are inputs of the call, the other four are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have rest : ∀ (c : Dev nD) (b : Ref sig .tc), b ∈ ([main_arg0, main_arg1, main_arg2, main_arg4] : List (Ref sig .tc)) →
      (∀ w, Pipeline.arrRef spec0 w ≠ b) →
      Pipeline.afterTail₀ cfgs dats 0 (V0 m) tailOps c b = V m c b := fun c b hb hne => by
    unfold Pipeline.afterTail₀
    refine (StableHlo.after_of_forall_not_mem _ _ fun op hop => ?_).trans (Pipeline.withArrays_of_ne _ c (V0 m c) _ b hne)
    obtain ⟨ops, hops, hop'⟩ := List.mem_flatten.mp hop
    exact tail_args b hb ops hops op hop'
  refine (θ_run defs _ _).mono (fun _ h c => ⟨?_, ?_, ?_, ?_, ?_, ?_⟩) h
  · exact ((h c).2 main_arg0 (Pipeline.mem_restRefs_of main_arg0 rfl (by decide))).trans ((rest c main_arg0 (by simp) (by decide)).trans (V_main_arg0 m c))
  · exact ((h c).2 main_arg1 (Pipeline.mem_restRefs_of main_arg1 rfl (by decide))).trans ((rest c main_arg1 (by simp) (by decide)).trans (V_main_arg1 m c))
  · exact ((h c).2 main_arg2 (Pipeline.mem_restRefs_of main_arg2 rfl (by decide))).trans ((rest c main_arg2 (by simp) (by decide)).trans (V_main_arg2 m c))
  · exact ((h c).1 1).trans (((dats 0 c).arrAt_in 1 rfl _).trans ((hA c 1).trans (V_main_arg3 m c)))
  · exact ((h c).2 main_arg4 (Pipeline.mem_restRefs_of main_arg4 rfl (by decide))).trans ((rest c main_arg4 (by simp) (by decide)).trans (V_main_arg4 m c))
  · exact ((h c).1 3).trans (((dats 0 c).arrAt_in 3 rfl _).trans ((hA c 3).trans (V_main_arg5 m c)))

/-! ## The body's two conditions -/

/-- "This is the first codebook tile": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last codebook tile": the body's second conditional. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last codebook tile the body stores nothing into the output window and the pipeline does not write it back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the last codebook tile it stores the quotient. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S512x768 .f32 := (Memref.whole cc0_stg4_0 : Memref sig .tc .vmem S512x768 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x768 .f32 := win0_4.stage (cfg0.slots t 4)
abbrev hs0_4 (t : Fin cfg0.N) : (ms0_4 t).IsWhole := hstage0_4 ((cfg0.slots t 4).cast nbuf0_4)
/-- The four scratch operands: the projected rows, the running maximum, the running weight sum, the running weighted sum. -/
abbrev scM0_0 : Memref sig .tc .vmem S512x768 .f32 := Memref.whole cc0_scratch0
abbrev VS0_0 : View sig .tc .vmem S512x768 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view
abbrev scM0_3 : Memref sig .tc .vmem S512x768 .f32 := Memref.whole cc0_scratch3
abbrev VS0_3 : View sig .tc .vmem S512x768 .f32 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Region

end
-- ==== Proof.WordCaseFirst.lean ====
/-
  The kernel body run once, whole, at the first codebook tile of a batch tile: the rows are projected and stored, the running maximum, weight sum and weighted sum are reset, then updated with this tile; the output window is left alone. On whole memrefs, each input at its contents, the body runs
  to its end without a fault and hands every memref back: the inputs as they were, each buffer it stored into with its
  stores written as pieces (last first). The pieces are found by running the body.
-/
import proofs.«155410_j47107201302664_1_alg».proof.Proof.WordRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_First (c : Dev nD) (i : grid0.Coords) (arg2 : Memref sig .tc .vmem S512x1024 .f32) (harg2 : arg2.IsWhole) (arg3 : Memref sig .tc .vmem S768x1024 .f32) (harg3 : arg3.IsWhole) (arg4 : Memref sig .tc .vmem S1x768 .f32) (harg4 : arg4.IsWhole) (arg5 : Memref sig .tc .vmem S1024x768 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x768 .f32) (harg10 : arg10.IsWhole) (hc0 : cond0_0 i) (hc1 : ¬cond0_1 i)
    (x0 : Vec F S512x1024 .f32) (x1 : Vec F S768x1024 .f32) (x2 : Vec F S1x768 .f32) (x3 : Vec F S1024x768 .f32) :
    Σ' (LS0 : List (View.Piece (Elt F) S512x768 .f32)) (LS1 : List (View.Piece (Elt F) S512x1 .f32)) (LS2 : List (View.Piece (Elt F) S512x1 .f32)), { LS3 : List (View.Piece (Elt F) S512x768 .f32) //
      ∀ (xi4 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__vq_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__vq_kernel_eq_skeleton]; unfold cc0__vq_kernel_skel
    simp only [k0_part1_eq_skeleton]
    unfold owns
    iintro ⟨⟨%f2, %hf2, H0⟩, ⟨%f3, %hf3, H1⟩, ⟨%f4, %hf4, H2⟩, ⟨%f5, %hf5, H3⟩, ⟨%f6, %hf6, H4⟩, ⟨%d7, %f7, -, HS0⟩, ⟨%d8, %f8, -, HS1⟩, ⟨%d9, %f9, -, HS2⟩, ⟨%d10, %f10, -, HS3⟩, Hk⟩
    obtain rfl := harg2.eq_unread hf2; obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Region

end
-- ==== Proof.WordCaseMiddle.lean ====
/-
  The kernel body run once, whole, at a codebook tile that is neither the first nor the last: the projected rows are read, the three running quantities are updated; the output window is left alone. On whole memrefs, each input at its contents, the body runs
  to its end without a fault and hands every memref back: the inputs as they were, each buffer it stored into with its
  stores written as pieces (last first). The pieces are found by running the body.
-/
import proofs.«155410_j47107201302664_1_alg».proof.Proof.WordCaseFirst

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_Middle (c : Dev nD) (i : grid0.Coords) (arg2 : Memref sig .tc .vmem S512x1024 .f32) (harg2 : arg2.IsWhole) (arg3 : Memref sig .tc .vmem S768x1024 .f32) (harg3 : arg3.IsWhole) (arg4 : Memref sig .tc .vmem S1x768 .f32) (harg4 : arg4.IsWhole) (arg5 : Memref sig .tc .vmem S1024x768 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x768 .f32) (harg10 : arg10.IsWhole) (hc0 : ¬cond0_0 i) (hc1 : ¬cond0_1 i)
    (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    Σ' (LS1 : List (View.Piece (Elt F) S512x1 .f32)) (LS2 : List (View.Piece (Elt F) S512x1 .f32)), { LS3 : List (View.Piece (Elt F) S512x768 .f32) //
      ∀ (xi4 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__vq_kernel i arg2 harg2 arg3 harg3 arg4 harg4 arg5 harg5 arg6 harg6 arg7 harg7 arg8 harg8 arg9 harg9 arg10 harg10) K } := by
  refine ⟨?_, ?_, ?_, fun xi4 E K => ?run⟩
  case run =>
    simp only [cc0__vq_kernel_eq_skeleton]; unfold cc0__vq_kernel_skel
    simp only [k0_part1_eq_skeleton]
    unfold owns
    iintro ⟨⟨%f2, %hf2, H0⟩, ⟨%f3, %hf3, H1⟩, ⟨%f4, %hf4, H2⟩, ⟨%f5, %hf5, H3⟩, ⟨%f6, %hf6, H4⟩, ⟨%f7, %hf7, HS0⟩, ⟨%f8, %hf8, HS1⟩, ⟨%f9, %hf9, HS2⟩, ⟨%f10, %hf10, HS3⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    isplitl [HS1]; · iexists _; iexact HS1
    isplitl [HS2]; · iexists _; iexact HS2
    iexists _; iexact HS3

end Cert.Kernel.Region

end
-- ==== Proof.WordCaseLast.lean ====
/-
  The kernel body run once, whole, at the last codebook tile: the three running quantities are updated and their quotient is stored into the output window. On whole memrefs, each input at its contents, the body runs
  to its end without a fault and hands every memref back: the inputs as they were, each buffer it stored into with its
  stores written as pieces (last first). The pieces are found by running the body.
-/
import proofs.«155410_j47107201302664_1_alg».proof.Proof.WordCaseMiddle

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_Last (c : Dev nD) (i : grid0.Coords) (arg2 : Memref sig .tc .vmem S512x1024 .f32) (harg2 : arg2.IsWhole) (arg3 : Memref sig .tc .vmem S768x1024 .f32) (harg3 : arg3.IsWhole) (arg4 : Memref sig .tc .vmem S1x768 .f32) (harg4 : arg4.IsWhole) (arg5 : Memref sig .tc .vmem S1024x768 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x768 .f32) (harg10 : arg10.IsWhole) (hc0 : ¬cond0_0 i) (hc1 : cond0_1 i)
    (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    Σ' (L4 : List (View.Piece (Elt F) S512x768 .f32)) (LS1 : List (View.Piece (Elt F) S512x1 .f32)) (LS2 : List (View.Piece (Elt F) S512x1 .f32)), { LS3 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__vq_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__vq_kernel_eq_skeleton]; unfold cc0__vq_kernel_skel
    simp only [k0_part1_eq_skeleton]
    unfold owns
    iintro ⟨⟨%f2, %hf2, H0⟩, ⟨%f3, %hf3, H1⟩, ⟨%f4, %hf4, H2⟩, ⟨%f5, %hf5, H3⟩, ⟨%d6, %f6, -, H4⟩, ⟨%f7, %hf7, HS0⟩, ⟨%f8, %hf8, HS1⟩, ⟨%f9, %hf9, HS2⟩, ⟨%f10, %hf10, HS3⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]; · iexists _; iexact HS1
    isplitl [HS2]; · iexists _; iexact HS2
    iexists _; iexact HS3

end Cert.Kernel.Region

end
-- ==== Proof.WordFrame.lean ====
/-
  The call's frame: what the output window and the four scratch buffers hold after each of the 32 grid points, by
  recursion on the point (the first codebook tile of a batch tile resets and projects, every tile updates the running
  maximum, weight sum and weighted sum, the last tile stores their quotient); the invariant that carries the scratch
  contents from one point to the next; the proof data; the body obligation, case by case; the run of the whole program;
  and the frame: every argument array ends as it began.
-/
import proofs.«155410_j47107201302664_1_alg».proof.Proof.WordCaseLast

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, case by case -/

/-- A placeholder for the output window's buffer at a point that stores nothing into it (never consulted: the window is idle and not written back there). -/
def outIdle : Vec F S512x768 .f32 := VO0_4.read (Elt F) (VO0_4.writes (Elt F) VO0_4.junk [])

/-- The first codebook tile: (output placeholder, projected rows, running maximum, weight sum, weighted sum). -/
def stepFirst (c : Dev nD) (t : Fin cfg0.N) (hc0 : cond0_0 (grid0.coords t)) (hc1 : ¬cond0_1 (grid0.coords t)) : Vec F S512x768 .f32 × Vec F S512x768 .f32 × Vec F S512x1 .f32 × Vec F S512x1 .f32 × Vec F S512x768 .f32 :=
  (outIdle, VS0_0.read (Elt F) (VS0_0.writes (Elt F) VS0_0.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1), VS0_1.read (Elt F) (VS0_1.writes (Elt F) VS0_1.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1), VS0_2.read (Elt F) (VS0_2.writes (Elt F) VS0_2.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1), VS0_3.read (Elt F) (VS0_3.writes (Elt F) VS0_3.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1))

/-- A middle tile, over what the point before left. -/
def stepMiddle (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) : Vec F S512x768 .f32 × Vec F S512x768 .f32 × Vec F S512x1 .f32 × Vec F S512x1 .f32 × Vec F S512x768 .f32 :=
  (outIdle, pv.2.1, VS0_1.read (Elt F) (VS0_1.writes (Elt F) VS0_1.junk (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1), VS0_2.read (Elt F) (VS0_2.writes (Elt F) VS0_2.junk (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1), VS0_3.read (Elt F) (VS0_3.writes (Elt F) VS0_3.junk (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1))

/-- The last tile, over what the point before left: the output window now holds the quotient. -/
def stepLast (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) : Vec F S512x768 .f32 × Vec F S512x768 .f32 × Vec F S512x1 .f32 × Vec F S512x1 .f32 × Vec F S512x768 .f32 :=
  (VO0_4.read (Elt F) (VO0_4.writes (Elt F) VO0_4.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1), pv.2.1, VS0_1.read (Elt F) (VS0_1.writes (Elt F) VS0_1.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1), VS0_2.read (Elt F) (VS0_2.writes (Elt F) VS0_2.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1), VS0_3.read (Elt F) (VS0_3.writes (Elt F) VS0_3.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.2.1))

/-! ## The stores of each case cover the buffer they go to (each store is the whole buffer) -/

theorem scover_First_0 (c : Dev nD) (t : Fin cfg0.N) (hc0 : cond0_0 (grid0.coords t)) (hc1 : ¬cond0_1 (grid0.coords t)) (y : S512x768.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1 S512x768.size (by sl_kernel_rfl) y
theorem scover_First_1 (c : Dev nD) (t : Fin cfg0.N) (hc0 : cond0_0 (grid0.coords t)) (hc1 : ¬cond0_1 (grid0.coords t)) (y : S512x1.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1 S512x1.size (by sl_kernel_rfl) y
theorem scover_First_2 (c : Dev nD) (t : Fin cfg0.N) (hc0 : cond0_0 (grid0.coords t)) (hc1 : ¬cond0_1 (grid0.coords t)) (y : S512x1.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1 S512x1.size (by sl_kernel_rfl) y
theorem scover_First_3 (c : Dev nD) (t : Fin cfg0.N) (hc0 : cond0_0 (grid0.coords t)) (hc1 : ¬cond0_1 (grid0.coords t)) (y : S512x768.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1 S512x768.size (by sl_kernel_rfl) y
theorem scover_Middle_1 (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) (y : S512x1.Idx) :
    ∃ pc ∈ (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1, y ∈ pc.1.set :=
  View.cover_of_tiledL (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1 S512x1.size (by sl_kernel_rfl) y
theorem scover_Middle_2 (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) (y : S512x1.Idx) :
    ∃ pc ∈ (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1, y ∈ pc.1.set :=
  View.cover_of_tiledL (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1 S512x1.size (by sl_kernel_rfl) y
theorem scover_Middle_3 (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) (y : S512x768.Idx) :
    ∃ pc ∈ (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1, y ∈ pc.1.set :=
  View.cover_of_tiledL (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1 S512x768.size (by sl_kernel_rfl) y
theorem cover_Last_4 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x768.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1 S512x768.size (by sl_kernel_rfl) y
theorem scover_Last_1 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x1.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1 S512x1.size (by sl_kernel_rfl) y
theorem scover_Last_2 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x1.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1 S512x1.size (by sl_kernel_rfl) y
theorem scover_Last_3 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x768.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.2.1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.2.1 S512x768.size (by sl_kernel_rfl) y

/-! ## What the buffers hold after each point -/

/-- After point n: the case the closed forms select, over what point n - 1 left. -/
def outsAt0 (c : Dev nD) : (n : ℕ) → n < cfg0.N → Vec F S512x768 .f32 × Vec F S512x768 .f32 × Vec F S512x1 .f32 × Vec F S512x1 .f32 × Vec F S512x768 .f32
  | 0, hn => stepFirst m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        stepFirst m c ⟨n + 1, hn⟩ ((hcond0_0 ⟨n + 1, hn⟩).mpr h0) (fun h => h1 ((hcond0_1 ⟨n + 1, hn⟩).mp h))
    else
      if h1 : (n + 1) % 16 = 15 then
        stepLast m c ⟨n + 1, hn⟩ (fun h => h0 ((hcond0_0 ⟨n + 1, hn⟩).mp h)) ((hcond0_1 ⟨n + 1, hn⟩).mpr h1) (outsAt0 c n (Nat.lt_of_succ_lt hn))
      else
        stepMiddle m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_First (c : Dev nD) (t : Fin cfg0.N) (h0 : t.val % 16 = 0) (h1 : ¬t.val % 16 = 15) :
    outsAt0 m c t.val t.isLt = stepFirst m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_Middle (c : Dev nD) (t : Fin cfg0.N) (h0 : ¬t.val % 16 = 0) (h1 : ¬t.val % 16 = 15) :
    outsAt0 m c t.val t.isLt = stepMiddle m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_Last (c : Dev nD) (t : Fin cfg0.N) (h0 : ¬t.val % 16 = 0) (h1 : t.val % 16 = 15) :
    outsAt0 m c t.val t.isLt = stepLast m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The invariant before position n: before the first point the class's (every scratch at anything); afterwards the four
    scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 16000000 in
/-- The body at any point: the inputs' memrefs hold their blocks; the closed forms say which case the point is in; that
    case's run applies; the invariant hands the body the scratch buffers at what the point before left (at anything before
    the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dats m 0 c) 4 t (idleAt0_4_A t hc0 hc1) (noFlush0_4_A t hc0 hc1)]
      rw [outsAt0_First m c t h0 h1]
      unfold stepFirst; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover_First_0 m c t hc0 hc1)
            isplitl [HS1]
            · unfold owns; iexists _; isplitr
              swap; · iexact HS1
              ipureintro; exact View.read_writes_of_cover _ _ _ _ _ (scover_First_1 m c t hc0 hc1)
            isplitl [HS2]
            · unfold owns; iexists _; isplitr
              swap; · iexact HS2
              ipureintro; exact View.read_writes_of_cover _ _ _ _ _ (scover_First_2 m c t hc0 hc1)
            unfold owns; iexists _; isplitr
            swap; · iexact HS3
            ipureintro; exact View.read_writes_of_cover _ _ _ _ _ (scover_First_3 m c t hc0 hc1)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover_First_0 m c t hc0 hc1)
            isplitl [HS1]
            · unfold owns; iexists _; isplitr
              swap; · iexact HS1
              ipureintro; exact View.read_writes_of_cover _ _ _ _ _ (scover_First_1 m c t hc0 hc1)
            isplitl [HS2]
            · unfold owns; iexists _; isplitr
              swap; · iexact HS2
              ipureintro; exact View.read_writes_of_cover _ _ _ _ _ (scover_First_2 m c t hc0 hc1)
            unfold owns; iexists _; isplitr
            swap; · iexact HS3
            ipureintro; exact View.read_writes_of_cover _ _ _ _ _ (scover_First_3 m c t hc0 hc1)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    have hc0 : ¬cond0_0 (grid0.coords t) := fun h => h0 ((hcond0_0 t).mp h)
    by_cases h1 : t.val % 16 = 15
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4_C t hc0 hc1], after0_4]
      rw [outsAt0_Last m c t h0 h1]
      unfold stepLast; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [HS0 HS1 HS2 HS3 Hg]
      · isplitl [HS0 HS1 HS2 HS3]
        · isplitl [HS0]; · iexact HS0
          isplitl [HS1]
          · unfold owns; iexists _; isplitr
            swap; · iexact HS1
            ipureintro; exact View.read_writes_of_cover _ _ _ _ _ (scover_Last_1 m c t hc0 hc1 _)
          isplitl [HS2]
          · unfold owns; iexists _; isplitr
            swap; · iexact HS2
            ipureintro; exact View.read_writes_of_cover _ _ _ _ _ (scover_Last_2 m c t hc0 hc1 _)
          unfold owns; iexists _; isplitr
          swap; · iexact HS3
          ipureintro; exact View.read_writes_of_cover _ _ _ _ _ (scover_Last_3 m c t hc0 hc1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_Last_4 m c t hc0 hc1 _)
    · have hc1 : ¬cond0_1 (grid0.coords t) := fun h => h1 ((hcond0_1 t).mp h)
      rw [Dat.leavesExact_idle (dats m 0 c) 4 t (idleAt0_4_B t hc0 hc1) (noFlush0_4_B t hc0 hc1)]
      rw [outsAt0_Middle m c t h0 h1]
      unfold stepMiddle; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [HS0 HS1 HS2 HS3 Hg]
      · isplitl [HS0 HS1 HS2 HS3]
        · isplitl [HS0]; · iexact HS0
          isplitl [HS1]
          · unfold owns; iexists _; isplitr
            swap; · iexact HS1
            ipureintro; exact View.read_writes_of_cover _ _ _ _ _ (scover_Middle_1 m c t hc0 hc1 _)
          isplitl [HS2]
          · unfold owns; iexists _; isplitr
            swap; · iexact HS2
            ipureintro; exact View.read_writes_of_cover _ _ _ _ _ (scover_Middle_2 m c t hc0 hc1 _)
          unfold owns; iexists _; isplitr
          swap; · iexact HS3
          ipureintro; exact View.read_writes_of_cover _ _ _ _ _ (scover_Middle_3 m c t hc0 hc1 _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates without a fault; at the end every array a window stages holds what
    the library computes from the proof data, and every other unscoped buffer what the lines after the call leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: the program runs to its end and its six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Region

end
-- ==== Proof.IdealRegion.lean ====
/-
  The region of the program's one pallas_call, as the launch library needs it: the host lines before the call (two
  reshapes), the call, and the host lines after it; the arrays as the call finds them; each window's block at a grid
  point; the two conditions of the body (first codebook tile, last codebook tile) in closed form over the 2 x 16 grid;
  where the output window is idle; and the memrefs the body is called with.
-/
import proofs.«155410_j47107201302664_1_alg».proof.Proof.Gen.KernelIdeal.Launch
import proofs.«155410_j47107201302664_1_alg».proof.Proof.Gen.KernelIdeal.Skeleton
import proofs.«155410_j47107201302664_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- The host lines after the call, stretch by stretch. -/
abbrev tailOps : List (List (HloOp τ sig (Elt F))) :=
  [hostOps1, hostOps1_1, hostOps1_2, hostOps1_3, hostOps1_4, hostOps1_5, hostOps1_6]

/-- The buffers of core c when the call is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is: the two reshapes, the call, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- None of them writes an array the call's windows stage: each writes its own result buffer only. -/
theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The arguments, as the call and the later lines leave them -/

/-- The two reshapes write neither argument 0 nor anything it depends on. -/
theorem V_main_arg0 (c : Dev nD) : V m c main_arg0 = m ((c : Thread nD τ).loc main_arg0) := by
  refine (StableHlo.after_of_forall_not_mem (b := Proc.devRef .tc main_arg0) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 1 nor anything it depends on. -/
theorem V_main_arg1 (c : Dev nD) : V m c main_arg1 = m ((c : Thread nD τ).loc main_arg1) := by
  refine (StableHlo.after_of_forall_not_mem (b := Proc.devRef .tc main_arg1) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 2 nor anything it depends on. -/
theorem V_main_arg2 (c : Dev nD) : V m c main_arg2 = m ((c : Thread nD τ).loc main_arg2) := by
  refine (StableHlo.after_of_forall_not_mem (b := Proc.devRef .tc main_arg2) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 3 nor anything it depends on. -/
theorem V_main_arg3 (c : Dev nD) : V m c main_arg3 = m ((c : Thread nD τ).loc main_arg3) := by
  refine (StableHlo.after_of_forall_not_mem (b := Proc.devRef .tc main_arg3) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 4 nor anything it depends on. -/
theorem V_main_arg4 (c : Dev nD) : V m c main_arg4 = m ((c : Thread nD τ).loc main_arg4) := by
  refine (StableHlo.after_of_forall_not_mem (b := Proc.devRef .tc main_arg4) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)
/-- The two reshapes write neither argument 5 nor anything it depends on. -/
theorem V_main_arg5 (c : Dev nD) : V m c main_arg5 = m ((c : Thread nD τ).loc main_arg5) := by
  refine (StableHlo.after_of_forall_not_mem (b := Proc.devRef .tc main_arg5) (List.flatten [hostOps0]) (fun b => m (c, b)) ?_).trans rfl
  intro op hop
  simp only [hostOps0, List.flatten_cons, List.flatten_nil, List.append_nil, List.mem_cons, List.mem_nil_iff, or_false] at hop
  rcases hop with rfl | rfl <;> simp only [StableHlo.reshape_writes, Finset.mem_singleton] <;> exact StableHlo.devRef_ne_of_ne (by decide)

/-- The later lines write none of the arguments no window stages. -/
theorem tail_args : ∀ b ∈ ([main_arg0, main_arg1, main_arg2, main_arg4] : List (Ref sig .tc)),
    ∀ ops ∈ (tailOps : List (List (HloOp τ sig (Elt F)))), ∀ op ∈ ops, Proc.devRef .tc b ∉ op.writes := by
  intro b hb ops hops op hop
  simp only [List.mem_cons, List.mem_nil_iff, or_false] at hb hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl
    all_goals rcases hb with rfl | rfl | rfl | rfl <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the entry contents, a run ending in the library's post over the later lines
    leaves all six arguments as they were: the two a window stages are inputs of the call, the other four are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have rest : ∀ (c : Dev nD) (b : Ref sig .tc), b ∈ ([main_arg0, main_arg1, main_arg2, main_arg4] : List (Ref sig .tc)) →
      (∀ w, Pipeline.arrRef spec0 w ≠ b) →
      Pipeline.afterTail₀ cfgs dats 0 (V0 m) tailOps c b = V m c b := fun c b hb hne => by
    unfold Pipeline.afterTail₀
    refine (StableHlo.after_of_forall_not_mem _ _ fun op hop => ?_).trans (Pipeline.withArrays_of_ne _ c (V0 m c) _ b hne)
    obtain ⟨ops, hops, hop'⟩ := List.mem_flatten.mp hop
    exact tail_args b hb ops hops op hop'
  refine (θ_run defs _ _).mono (fun _ h c => ⟨?_, ?_, ?_, ?_, ?_, ?_⟩) h
  · exact ((h c).2 main_arg0 (Pipeline.mem_restRefs_of main_arg0 rfl (by decide))).trans ((rest c main_arg0 (by simp) (by decide)).trans (V_main_arg0 m c))
  · exact ((h c).2 main_arg1 (Pipeline.mem_restRefs_of main_arg1 rfl (by decide))).trans ((rest c main_arg1 (by simp) (by decide)).trans (V_main_arg1 m c))
  · exact ((h c).2 main_arg2 (Pipeline.mem_restRefs_of main_arg2 rfl (by decide))).trans ((rest c main_arg2 (by simp) (by decide)).trans (V_main_arg2 m c))
  · exact ((h c).1 1).trans (((dats 0 c).arrAt_in 1 rfl _).trans ((hA c 1).trans (V_main_arg3 m c)))
  · exact ((h c).2 main_arg4 (Pipeline.mem_restRefs_of main_arg4 rfl (by decide))).trans ((rest c main_arg4 (by simp) (by decide)).trans (V_main_arg4 m c))
  · exact ((h c).1 3).trans (((dats 0 c).arrAt_in 3 rfl _).trans ((hA c 3).trans (V_main_arg5 m c)))

/-! ## The body's two conditions -/

/-- "This is the first codebook tile": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last codebook tile": the body's second conditional. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last codebook tile the body stores nothing into the output window and the pipeline does not write it back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the last codebook tile it stores the quotient. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S512x768 .f32 := (Memref.whole cc0_stg4_0 : Memref sig .tc .vmem S512x768 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x768 .f32 := win0_4.stage (cfg0.slots t 4)
abbrev hs0_4 (t : Fin cfg0.N) : (ms0_4 t).IsWhole := hstage0_4 ((cfg0.slots t 4).cast nbuf0_4)
/-- The four scratch operands: the projected rows, the running maximum, the running weight sum, the running weighted sum. -/
abbrev scM0_0 : Memref sig .tc .vmem S512x768 .f32 := Memref.whole cc0_scratch0
abbrev VS0_0 : View sig .tc .vmem S512x768 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view
abbrev scM0_3 : Memref sig .tc .vmem S512x768 .f32 := Memref.whole cc0_scratch3
abbrev VS0_3 : View sig .tc .vmem S512x768 .f32 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Region

end
-- ==== Proof.IdealCaseFirst.lean ====
/-
  The kernel body run once, whole, at the first codebook tile of a batch tile: the rows are projected and stored, the running maximum, weight sum and weighted sum are reset, then updated with this tile; the output window is left alone. On whole memrefs, each input at its contents, the body runs
  to its end without a fault and hands every memref back: the inputs as they were, each buffer it stored into with its
  stores written as pieces (last first). The pieces are found by running the body.
-/
import proofs.«155410_j47107201302664_1_alg».proof.Proof.IdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_First (c : Dev nD) (i : grid0.Coords) (arg2 : Memref sig .tc .vmem S512x1024 .f32) (harg2 : arg2.IsWhole) (arg3 : Memref sig .tc .vmem S768x1024 .f32) (harg3 : arg3.IsWhole) (arg4 : Memref sig .tc .vmem S1x768 .f32) (harg4 : arg4.IsWhole) (arg5 : Memref sig .tc .vmem S1024x768 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x768 .f32) (harg10 : arg10.IsWhole) (hc0 : cond0_0 i) (hc1 : ¬cond0_1 i)
    (x0 : Vec F S512x1024 .f32) (x1 : Vec F S768x1024 .f32) (x2 : Vec F S1x768 .f32) (x3 : Vec F S1024x768 .f32) :
    Σ' (LS0 : List (View.Piece (Elt F) S512x768 .f32)) (LS1 : List (View.Piece (Elt F) S512x1 .f32)) (LS2 : List (View.Piece (Elt F) S512x1 .f32)), { LS3 : List (View.Piece (Elt F) S512x768 .f32) //
      ∀ (xi4 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__vq_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__vq_kernel_eq_skeleton]; unfold cc0__vq_kernel_skel
    simp only [k0_part1_eq_skeleton]
    unfold owns
    iintro ⟨⟨%f2, %hf2, H0⟩, ⟨%f3, %hf3, H1⟩, ⟨%f4, %hf4, H2⟩, ⟨%f5, %hf5, H3⟩, ⟨%f6, %hf6, H4⟩, ⟨%d7, %f7, -, HS0⟩, ⟨%d8, %f8, -, HS1⟩, ⟨%d9, %f9, -, HS2⟩, ⟨%d10, %f10, -, HS3⟩, Hk⟩
    obtain rfl := harg2.eq_unread hf2; obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Region

end
-- ==== Proof.IdealCaseMiddle.lean ====
/-
  The kernel body run once, whole, at a codebook tile that is neither the first nor the last: the projected rows are read, the three running quantities are updated; the output window is left alone. On whole memrefs, each input at its contents, the body runs
  to its end without a fault and hands every memref back: the inputs as they were, each buffer it stored into with its
  stores written as pieces (last first). The pieces are found by running the body.
-/
import proofs.«155410_j47107201302664_1_alg».proof.Proof.IdealCaseFirst

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_Middle (c : Dev nD) (i : grid0.Coords) (arg2 : Memref sig .tc .vmem S512x1024 .f32) (harg2 : arg2.IsWhole) (arg3 : Memref sig .tc .vmem S768x1024 .f32) (harg3 : arg3.IsWhole) (arg4 : Memref sig .tc .vmem S1x768 .f32) (harg4 : arg4.IsWhole) (arg5 : Memref sig .tc .vmem S1024x768 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x768 .f32) (harg10 : arg10.IsWhole) (hc0 : ¬cond0_0 i) (hc1 : ¬cond0_1 i)
    (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    Σ' (LS1 : List (View.Piece (Elt F) S512x1 .f32)) (LS2 : List (View.Piece (Elt F) S512x1 .f32)), { LS3 : List (View.Piece (Elt F) S512x768 .f32) //
      ∀ (xi4 : Vec F S512x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__vq_kernel i arg2 harg2 arg3 harg3 arg4 harg4 arg5 harg5 arg6 harg6 arg7 harg7 arg8 harg8 arg9 harg9 arg10 harg10) K } := by
  refine ⟨?_, ?_, ?_, fun xi4 E K => ?run⟩
  case run =>
    simp only [cc0__vq_kernel_eq_skeleton]; unfold cc0__vq_kernel_skel
    simp only [k0_part1_eq_skeleton]
    unfold owns
    iintro ⟨⟨%f2, %hf2, H0⟩, ⟨%f3, %hf3, H1⟩, ⟨%f4, %hf4, H2⟩, ⟨%f5, %hf5, H3⟩, ⟨%f6, %hf6, H4⟩, ⟨%f7, %hf7, HS0⟩, ⟨%f8, %hf8, HS1⟩, ⟨%f9, %hf9, HS2⟩, ⟨%f10, %hf10, HS3⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    isplitl [HS1]; · iexists _; iexact HS1
    isplitl [HS2]; · iexists _; iexact HS2
    iexists _; iexact HS3

end Cert.KernelIdeal.Region

end
-- ==== Proof.IdealCaseLast.lean ====
/-
  The kernel body run once, whole, at the last codebook tile: the three running quantities are updated and their quotient is stored into the output window. On whole memrefs, each input at its contents, the body runs
  to its end without a fault and hands every memref back: the inputs as they were, each buffer it stored into with its
  stores written as pieces (last first). The pieces are found by running the body.
-/
import proofs.«155410_j47107201302664_1_alg».proof.Proof.IdealCaseMiddle

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_Last (c : Dev nD) (i : grid0.Coords) (arg2 : Memref sig .tc .vmem S512x1024 .f32) (harg2 : arg2.IsWhole) (arg3 : Memref sig .tc .vmem S768x1024 .f32) (harg3 : arg3.IsWhole) (arg4 : Memref sig .tc .vmem S1x768 .f32) (harg4 : arg4.IsWhole) (arg5 : Memref sig .tc .vmem S1024x768 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x768 .f32) (harg10 : arg10.IsWhole) (hc0 : ¬cond0_0 i) (hc1 : cond0_1 i)
    (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    Σ' (L4 : List (View.Piece (Elt F) S512x768 .f32)) (LS1 : List (View.Piece (Elt F) S512x1 .f32)) (LS2 : List (View.Piece (Elt F) S512x1 .f32)), { LS3 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__vq_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__vq_kernel_eq_skeleton]; unfold cc0__vq_kernel_skel
    simp only [k0_part1_eq_skeleton]
    unfold owns
    iintro ⟨⟨%f2, %hf2, H0⟩, ⟨%f3, %hf3, H1⟩, ⟨%f4, %hf4, H2⟩, ⟨%f5, %hf5, H3⟩, ⟨%d6, %f6, -, H4⟩, ⟨%f7, %hf7, HS0⟩, ⟨%f8, %hf8, HS1⟩, ⟨%f9, %hf9, HS2⟩, ⟨%f10, %hf10, HS3⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]; · iexists _; iexact HS1
    isplitl [HS2]; · iexists _; iexact HS2
    iexists _; iexact HS3

end Cert.KernelIdeal.Region

end
-- ==== Proof.IdealFrame.lean ====
/-
  The call's frame: what the output window and the four scratch buffers hold after each of the 32 grid points, by
  recursion on the point (the first codebook tile of a batch tile resets and projects, every tile updates the running
  maximum, weight sum and weighted sum, the last tile stores their quotient); the invariant that carries the scratch
  contents from one point to the next; the proof data; the body obligation, case by case; the run of the whole program;
  and the frame: every argument array ends as it began.
-/
import proofs.«155410_j47107201302664_1_alg».proof.Proof.IdealCaseLast

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, case by case -/

/-- A placeholder for the output window's buffer at a point that stores nothing into it (never consulted: the window is idle and not written back there). -/
def outIdle : Vec F S512x768 .f32 := VO0_4.read (Elt F) (VO0_4.writes (Elt F) VO0_4.junk [])

/-- The first codebook tile: (output placeholder, projected rows, running maximum, weight sum, weighted sum). -/
def stepFirst (c : Dev nD) (t : Fin cfg0.N) (hc0 : cond0_0 (grid0.coords t)) (hc1 : ¬cond0_1 (grid0.coords t)) : Vec F S512x768 .f32 × Vec F S512x768 .f32 × Vec F S512x1 .f32 × Vec F S512x1 .f32 × Vec F S512x768 .f32 :=
  (outIdle, VS0_0.read (Elt F) (VS0_0.writes (Elt F) VS0_0.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1), VS0_1.read (Elt F) (VS0_1.writes (Elt F) VS0_1.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1), VS0_2.read (Elt F) (VS0_2.writes (Elt F) VS0_2.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1), VS0_3.read (Elt F) (VS0_3.writes (Elt F) VS0_3.junk (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1))

/-- A middle tile, over what the point before left. -/
def stepMiddle (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) : Vec F S512x768 .f32 × Vec F S512x768 .f32 × Vec F S512x1 .f32 × Vec F S512x1 .f32 × Vec F S512x768 .f32 :=
  (outIdle, pv.2.1, VS0_1.read (Elt F) (VS0_1.writes (Elt F) VS0_1.junk (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1), VS0_2.read (Elt F) (VS0_2.writes (Elt F) VS0_2.junk (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1), VS0_3.read (Elt F) (VS0_3.writes (Elt F) VS0_3.junk (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1))

/-- The last tile, over what the point before left: the output window now holds the quotient. -/
def stepLast (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) : Vec F S512x768 .f32 × Vec F S512x768 .f32 × Vec F S512x1 .f32 × Vec F S512x1 .f32 × Vec F S512x768 .f32 :=
  (VO0_4.read (Elt F) (VO0_4.writes (Elt F) VO0_4.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1), pv.2.1, VS0_1.read (Elt F) (VS0_1.writes (Elt F) VS0_1.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1), VS0_2.read (Elt F) (VS0_2.writes (Elt F) VS0_2.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1), VS0_3.read (Elt F) (VS0_3.writes (Elt F) VS0_3.junk (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.2.1))

/-! ## The stores of each case cover the buffer they go to (each store is the whole buffer) -/

theorem scover_First_0 (c : Dev nD) (t : Fin cfg0.N) (hc0 : cond0_0 (grid0.coords t)) (hc1 : ¬cond0_1 (grid0.coords t)) (y : S512x768.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1 S512x768.size (by sl_kernel_rfl) y
theorem scover_First_1 (c : Dev nD) (t : Fin cfg0.N) (hc0 : cond0_0 (grid0.coords t)) (hc1 : ¬cond0_1 (grid0.coords t)) (y : S512x1.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1 S512x1.size (by sl_kernel_rfl) y
theorem scover_First_2 (c : Dev nD) (t : Fin cfg0.N) (hc0 : cond0_0 (grid0.coords t)) (hc1 : ¬cond0_1 (grid0.coords t)) (y : S512x1.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1 S512x1.size (by sl_kernel_rfl) y
theorem scover_First_3 (c : Dev nD) (t : Fin cfg0.N) (hc0 : cond0_0 (grid0.coords t)) (hc1 : ¬cond0_1 (grid0.coords t)) (y : S512x768.Idx) :
    ∃ pc ∈ (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1, y ∈ pc.1.set :=
  View.cover_of_tiledL (kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1 S512x768.size (by sl_kernel_rfl) y
theorem scover_Middle_1 (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) (y : S512x1.Idx) :
    ∃ pc ∈ (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1, y ∈ pc.1.set :=
  View.cover_of_tiledL (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1 S512x1.size (by sl_kernel_rfl) y
theorem scover_Middle_2 (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) (y : S512x1.Idx) :
    ∃ pc ∈ (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1, y ∈ pc.1.set :=
  View.cover_of_tiledL (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1 S512x1.size (by sl_kernel_rfl) y
theorem scover_Middle_3 (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) (y : S512x768.Idx) :
    ∃ pc ∈ (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1, y ∈ pc.1.set :=
  View.cover_of_tiledL (kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1 S512x768.size (by sl_kernel_rfl) y
theorem cover_Last_4 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x768.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).1 S512x768.size (by sl_kernel_rfl) y
theorem scover_Last_1 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x1.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.1 S512x1.size (by sl_kernel_rfl) y
theorem scover_Last_2 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x1.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.1 S512x1.size (by sl_kernel_rfl) y
theorem scover_Last_3 (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) (y : S512x768.Idx) :
    ∃ pc ∈ (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.2.1, y ∈ pc.1.set :=
  View.cover_of_tiledL (kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2).2.2.2.1 S512x768.size (by sl_kernel_rfl) y

/-! ## What the buffers hold after each point -/

/-- After point n: the case the closed forms select, over what point n - 1 left. -/
def outsAt0 (c : Dev nD) : (n : ℕ) → n < cfg0.N → Vec F S512x768 .f32 × Vec F S512x768 .f32 × Vec F S512x1 .f32 × Vec F S512x1 .f32 × Vec F S512x768 .f32
  | 0, hn => stepFirst m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        stepFirst m c ⟨n + 1, hn⟩ ((hcond0_0 ⟨n + 1, hn⟩).mpr h0) (fun h => h1 ((hcond0_1 ⟨n + 1, hn⟩).mp h))
    else
      if h1 : (n + 1) % 16 = 15 then
        stepLast m c ⟨n + 1, hn⟩ (fun h => h0 ((hcond0_0 ⟨n + 1, hn⟩).mp h)) ((hcond0_1 ⟨n + 1, hn⟩).mpr h1) (outsAt0 c n (Nat.lt_of_succ_lt hn))
      else
        stepMiddle m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_First (c : Dev nD) (t : Fin cfg0.N) (h0 : t.val % 16 = 0) (h1 : ¬t.val % 16 = 15) :
    outsAt0 m c t.val t.isLt = stepFirst m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_Middle (c : Dev nD) (t : Fin cfg0.N) (h0 : ¬t.val % 16 = 0) (h1 : ¬t.val % 16 = 15) :
    outsAt0 m c t.val t.isLt = stepMiddle m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_Last (c : Dev nD) (t : Fin cfg0.N) (h0 : ¬t.val % 16 = 0) (h1 : t.val % 16 = 15) :
    outsAt0 m c t.val t.isLt = stepLast m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The invariant before position n: before the first point the class's (every scratch at anything); afterwards the four
    scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 16000000 in
/-- The body at any point: the inputs' memrefs hold their blocks; the closed forms say which case the point is in; that
    case's run applies; the invariant hands the body the scratch buffers at what the point before left (at anything before
    the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dats m 0 c) 4 t (idleAt0_4_A t hc0 hc1) (noFlush0_4_A t hc0 hc1)]
      rw [outsAt0_First m c t h0 h1]
      unfold stepFirst; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover_First_0 m c t hc0 hc1)
            isplitl [HS1]
            · unfold owns; iexists _; isplitr
              swap; · iexact HS1
              ipureintro; exact View.read_writes_of_cover _ _ _ _ _ (scover_First_1 m c t hc0 hc1)
            isplitl [HS2]
            · unfold owns; iexists _; isplitr
              swap; · iexact HS2
              ipureintro; exact View.read_writes_of_cover _ _ _ _ _ (scover_First_2 m c t hc0 hc1)
            unfold owns; iexists _; isplitr
            swap; · iexact HS3
            ipureintro; exact View.read_writes_of_cover _ _ _ _ _ (scover_First_3 m c t hc0 hc1)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_First c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover_First_0 m c t hc0 hc1)
            isplitl [HS1]
            · unfold owns; iexists _; isplitr
              swap; · iexact HS1
              ipureintro; exact View.read_writes_of_cover _ _ _ _ _ (scover_First_1 m c t hc0 hc1)
            isplitl [HS2]
            · unfold owns; iexists _; isplitr
              swap; · iexact HS2
              ipureintro; exact View.read_writes_of_cover _ _ _ _ _ (scover_First_2 m c t hc0 hc1)
            unfold owns; iexists _; isplitr
            swap; · iexact HS3
            ipureintro; exact View.read_writes_of_cover _ _ _ _ _ (scover_First_3 m c t hc0 hc1)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    have hc0 : ¬cond0_0 (grid0.coords t) := fun h => h0 ((hcond0_0 t).mp h)
    by_cases h1 : t.val % 16 = 15
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4_C t hc0 hc1], after0_4]
      rw [outsAt0_Last m c t h0 h1]
      unfold stepLast; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_Last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [HS0 HS1 HS2 HS3 Hg]
      · isplitl [HS0 HS1 HS2 HS3]
        · isplitl [HS0]; · iexact HS0
          isplitl [HS1]
          · unfold owns; iexists _; isplitr
            swap; · iexact HS1
            ipureintro; exact View.read_writes_of_cover _ _ _ _ _ (scover_Last_1 m c t hc0 hc1 _)
          isplitl [HS2]
          · unfold owns; iexists _; isplitr
            swap; · iexact HS2
            ipureintro; exact View.read_writes_of_cover _ _ _ _ _ (scover_Last_2 m c t hc0 hc1 _)
          unfold owns; iexists _; isplitr
          swap; · iexact HS3
          ipureintro; exact View.read_writes_of_cover _ _ _ _ _ (scover_Last_3 m c t hc0 hc1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_Last_4 m c t hc0 hc1 _)
    · have hc1 : ¬cond0_1 (grid0.coords t) := fun h => h1 ((hcond0_1 t).mp h)
      rw [Dat.leavesExact_idle (dats m 0 c) 4 t (idleAt0_4_B t hc0 hc1) (noFlush0_4_B t hc0 hc1)]
      rw [outsAt0_Middle m c t h0 h1]
      unfold stepMiddle; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_Middle c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [HS0 HS1 HS2 HS3 Hg]
      · isplitl [HS0 HS1 HS2 HS3]
        · isplitl [HS0]; · iexact HS0
          isplitl [HS1]
          · unfold owns; iexists _; isplitr
            swap; · iexact HS1
            ipureintro; exact View.read_writes_of_cover _ _ _ _ _ (scover_Middle_1 m c t hc0 hc1 _)
          isplitl [HS2]
          · unfold owns; iexists _; isplitr
            swap; · iexact HS2
            ipureintro; exact View.read_writes_of_cover _ _ _ _ _ (scover_Middle_2 m c t hc0 hc1 _)
          unfold owns; iexists _; isplitr
          swap; · iexact HS3
          ipureintro; exact View.read_writes_of_cover _ _ _ _ _ (scover_Middle_3 m c t hc0 hc1 _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of the program terminates without a fault; at the end every array a window stages holds what
    the library computes from the proof data, and every other unscoped buffer what the lines after the call leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: the program runs to its end and its six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Region

end
-- ==== Proof.IdealArray.lean ====
/-
  The array the call writes. The output window's block is written back at two points only: the last codebook tile of batch
  tile 0 (point 15: rows 0 … 511) and of batch tile 1 (point 31: rows 512 … 1023). So the array ends holding, row by row,
  what the body left in the output window's buffer at the last tile of the row's batch tile.
-/
import proofs.«155410_j47107201302664_1_alg».proof.Proof.IdealFrame
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem lt15 : 15 < cfg0.N := by rw [show cfg0.N = 32 from N_0]; decide
theorem lt31 : 31 < cfg0.N := by rw [show cfg0.N = 32 from N_0]; decide
abbrev t15 : Fin cfg0.N := ⟨15, lt15⟩
abbrev t31 : Fin cfg0.N := ⟨31, lt31⟩

/-- The array after the call: rows below 512 from point 15, the others from point 31. -/
def clueArr (c : Dev nD) : Buf (Elt F) ((c : Thread nD τ).loc main_v2) := fun i =>
  if h : (i 0).val < 512 then (outsAt0 m c 15 lt15).1 (ix2 (⟨(i 0).val, h⟩ : Fin 512) (⟨(i 1).val, (i 1).isLt⟩ : Fin 768))
  else (outsAt0 m c 31 lt31).1 (ix2 (⟨(i 0).val - 512, by have h1 : (i 0).val < 1024 := (i 0).isLt; omega⟩ : Fin 512) (⟨(i 1).val, (i 1).isLt⟩ : Fin 768))

/-- The write-back points. -/
theorem flush_points (t : Fin cfg0.N) (hf : (cfg0.win 4).flush t = true) : t = t15 ∨ t = t31 := by
  have hN : cfg0.N = 32 := N_0
  have h15 : t.val % 16 = 15 := (flush0_4 t).mp hf
  have hlt := t.isLt
  rcases (show t.val = 15 ∨ t.val = 31 by omega) with h | h
  · exact Or.inl (Fin.ext h)
  · exact Or.inr (Fin.ext h)

/-- The output window's block index at a point: the batch tile, and column block 0. -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

theorem outsAt0_congr (c : Dev nD) {n n' : ℕ} (e : n = n') (h : n < cfg0.N) (h' : n' < cfg0.N) :
    outsAt0 m c n h = outsAt0 m c n' h' := by subst e; rfl

set_option maxHeartbeats 1000000 in
/-- What a write-back point writes is its block of the array above. -/
theorem flushed4_eq (c : Dev nD) (t : Fin cfg0.N) (hf : (cfg0.win 4).flush t = true) :
    (dats m 0 c).flushed 4 t = ((cfg0.win 4).blk t).view.read (Elt F) (clueArr m c) := by
  have hN : cfg0.N = 32 := N_0
  have h15 : t.val % 16 = 15 := (flush0_4 t).mp hf
  have hlt := t.isLt
  obtain ⟨q0, q1⟩ := idx4 t
  show (cfg0.win 4).cut (grid0.coords t) ((dats m 0 c).after 4 t) = _
  rw [after0_4]
  funext j
  rw [View.read_apply]
  have hj0 : (j 0).val < 512 := (j 0).isLt
  have hj1 : (j 1).val < 768 := (j 1).isLt
  have e0 : ((((cfg0.win 4).blk t).view.emb j) 0).val = win0_4.index t (0 : Fin 2) * 512 + 1 * (j 0).val := rfl
  have e1 : ((((cfg0.win 4).blk t).view.emb j) 1).val = win0_4.index t (1 : Fin 2) * 768 + 1 * (j 1).val := rfl
  rw [q0] at e0; rw [q1] at e1
  unfold clueArr
  rcases (show t.val = 15 ∨ t.val = 31 by omega) with h | h
  · rw [dif_pos (by rw [e0, h]; omega), ← outsAt0_congr m c h t.isLt lt15]
    congr 1
    funext a
    apply Fin.ext
    match a with
    | ⟨0, _⟩ => show (j 0).val = ((((cfg0.win 4).blk t).view.emb j) 0).val; rw [e0, h]; omega
    | ⟨1, _⟩ => show (j 1).val = ((((cfg0.win 4).blk t).view.emb j) 1).val; rw [e1]; omega
  · rw [dif_neg (by rw [e0, h]; omega), ← outsAt0_congr m c h t.isLt lt31]
    congr 1
    funext a
    apply Fin.ext
    match a with
    | ⟨0, _⟩ => show (j 0).val = ((((cfg0.win 4).blk t).view.emb j) 0).val - 512; rw [e0, h]; omega
    | ⟨1, _⟩ => show (j 1).val = ((((cfg0.win 4).blk t).view.emb j) 1).val; rw [e1]; omega

set_option maxHeartbeats 1000000 in
/-- The two blocks cover the array, so the array ends at the function above. -/
theorem final4 (c : Dev nD) : (dats m 0 c).arrAt 4 cfg0.N = clueArr m c :=
  (dats m 0 c).arrAt_eq_of_cover 4 (clueArr m c) (flushed4_eq m c) fun i => by
    have h0 : (i 0 : Nat) < 1024 := (i 0).isLt
    have h1 : (i 1 : Nat) < 768 := (i 1).isLt
    by_cases hlo : (i 0 : Nat) < 512
    · refine ⟨t15, (flush0_4 t15).mpr rfl, ?_⟩
      show i ∈ ((View.whole main_v2).slice (win0_4.rect t15)).set
      rw [View.set_slice_whole, Rect.mem_set_unit]
      intro a
      match a with
      | ⟨0, _⟩ => show win0_4.index t15 0 * win0_4.size 0 ≤ (i 0 : Nat) ∧ (i 0 : Nat) < win0_4.index t15 0 * win0_4.size 0 + win0_4.xsize (grid0.coords t15) 0
                  rw [show win0_4.index t15 0 * win0_4.size 0 = 0 from by decide +kernel, show win0_4.xsize (grid0.coords t15) 0 = 512 from by decide +kernel]; omega
      | ⟨1, _⟩ => show win0_4.index t15 1 * win0_4.size 1 ≤ (i 1 : Nat) ∧ (i 1 : Nat) < win0_4.index t15 1 * win0_4.size 1 + win0_4.xsize (grid0.coords t15) 1
                  rw [show win0_4.index t15 1 * win0_4.size 1 = 0 from by decide +kernel, show win0_4.xsize (grid0.coords t15) 1 = 768 from by decide +kernel]; omega
    · refine ⟨t31, (flush0_4 t31).mpr rfl, ?_⟩
      show i ∈ ((View.whole main_v2).slice (win0_4.rect t31)).set
      rw [View.set_slice_whole, Rect.mem_set_unit]
      intro a
      match a with
      | ⟨0, _⟩ => show win0_4.index t31 0 * win0_4.size 0 ≤ (i 0 : Nat) ∧ (i 0 : Nat) < win0_4.index t31 0 * win0_4.size 0 + win0_4.xsize (grid0.coords t31) 0
                  rw [show win0_4.index t31 0 * win0_4.size 0 = 512 from by decide +kernel, show win0_4.xsize (grid0.coords t31) 0 = 512 from by decide +kernel]; omega
      | ⟨1, _⟩ => show win0_4.index t31 1 * win0_4.size 1 ≤ (i 1 : Nat) ∧ (i 1 : Nat) < win0_4.index t31 1 * win0_4.size 1 + win0_4.xsize (grid0.coords t31) 1
                  rw [show win0_4.index t31 1 * win0_4.size 1 = 0 from by decide +kernel, show win0_4.xsize (grid0.coords t31) 1 = 768 from by decide +kernel]; omega

end Cert.KernelIdeal.Region

end
-- ==== Proof.IdealPieces.lean ====
/-
  What each case of the body leaves in the buffers it stores into, as values: every store covers its whole buffer, so a
  buffer ends at its last store's payload, and a load that follows a store of the same buffer reads that store's payload.
  First codebook tile: the projected rows; then, from maximum −inf, weight sum 0 and weighted sum 0, one update with this
  tile. Later tiles: one update from what the point before left. Last tile: also the quotient of the two updated sums.
-/
import proofs.«155410_j47107201302664_1_alg».proof.Proof.IdealCaseLast
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

theorem gcover_First_rows (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) (y : S512x768.Idx) :
    ∃ pc ∈ (kernelRun0_First c i a2 h2 a3 h3 a4 h4 a5 h5 a6 h6 a7 h7 a8 h8 a9 h9 a10 h10 hc0 hc1 x0 x1 x2 x3).1, y ∈ pc.1.set :=
  View.cover_of_tiledL _ S512x768.size (by sl_kernel_rfl) y

set_option maxHeartbeats 1000000 in
theorem first_rows (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) :
    VS0_0.read (Elt F) (VS0_0.writes (Elt F) VS0_0.junk (kernelRun0_First c i a2 h2 a3 h3 a4 h4 a5 h5 a6 h6 a7 h7 a8 h8 a9 h9 a10 h10 hc0 hc1 x0 x1 x2 x3).1)
      = k0_pay5 x0 x1 x2 := by
  rw [View.read_writes_eq_canon _ _ _ (gcover_First_rows c i a2 h2 a3 h3 a4 h4 a5 h5 a6 h6 a7 h7 a8 h8 a9 h9 a10 h10 hc0 hc1 x0 x1 x2 x3)]
  unfold kernelRun0_First
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_First_max (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) (y : S512x1.Idx) :
    ∃ pc ∈ (kernelRun0_First c i a2 h2 a3 h3 a4 h4 a5 h5 a6 h6 a7 h7 a8 h8 a9 h9 a10 h10 hc0 hc1 x0 x1 x2 x3).2.1, y ∈ pc.1.set :=
  View.cover_of_tiledL _ S512x1.size (by sl_kernel_rfl) y

set_option maxHeartbeats 1000000 in
theorem first_max (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) :
    VS0_1.read (Elt F) (VS0_1.writes (Elt F) VS0_1.junk (kernelRun0_First c i a2 h2 a3 h3 a4 h4 a5 h5 a6 h6 a7 h7 a8 h8 a9 h9 a10 h10 hc0 hc1 x0 x1 x2 x3).2.1)
      = k0_pay3 (k0_pay10 (k0_pay5 x0 x1 x2) x3 (k0_pay6 (F := F))) := by
  rw [View.read_writes_eq_canon _ _ _ (gcover_First_max c i a2 h2 a3 h3 a4 h4 a5 h5 a6 h6 a7 h7 a8 h8 a9 h9 a10 h10 hc0 hc1 x0 x1 x2 x3)]
  unfold kernelRun0_First
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_First_den (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) (y : S512x1.Idx) :
    ∃ pc ∈ (kernelRun0_First c i a2 h2 a3 h3 a4 h4 a5 h5 a6 h6 a7 h7 a8 h8 a9 h9 a10 h10 hc0 hc1 x0 x1 x2 x3).2.2.1, y ∈ pc.1.set :=
  View.cover_of_tiledL _ S512x1.size (by sl_kernel_rfl) y

set_option maxHeartbeats 1000000 in
theorem first_den (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) :
    VS0_2.read (Elt F) (VS0_2.writes (Elt F) VS0_2.junk (kernelRun0_First c i a2 h2 a3 h3 a4 h4 a5 h5 a6 h6 a7 h7 a8 h8 a9 h9 a10 h10 hc0 hc1 x0 x1 x2 x3).2.2.1)
      = k0_pay1 (k0_pay11 (k0_pay5 x0 x1 x2) x3 (k0_pay6 (F := F)) (k0_pay6 (F := F))) (k0_pay12 (k0_pay5 x0 x1 x2) x3 (k0_pay6 (F := F))) (k0_pay7 (F := F)) := by
  rw [View.read_writes_eq_canon _ _ _ (gcover_First_den c i a2 h2 a3 h3 a4 h4 a5 h5 a6 h6 a7 h7 a8 h8 a9 h9 a10 h10 hc0 hc1 x0 x1 x2 x3)]
  unfold kernelRun0_First
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_First_num (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) (y : S512x768.Idx) :
    ∃ pc ∈ (kernelRun0_First c i a2 h2 a3 h3 a4 h4 a5 h5 a6 h6 a7 h7 a8 h8 a9 h9 a10 h10 hc0 hc1 x0 x1 x2 x3).2.2.2.1, y ∈ pc.1.set :=
  View.cover_of_tiledL _ S512x768.size (by sl_kernel_rfl) y

set_option maxHeartbeats 1000000 in
theorem first_num (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : cond0_0 i) (hc1 : ¬cond0_1 i) (x0 : Vec F S512x1024 .f32) (x1 : Vec F S768x1024 .f32) (x2 : Vec F S1x768 .f32) (x3 : Vec F S1024x768 .f32) :
    VS0_3.read (Elt F) (VS0_3.writes (Elt F) VS0_3.junk (kernelRun0_First c i a2 h2 a3 h3 a4 h4 a5 h5 a6 h6 a7 h7 a8 h8 a9 h9 a10 h10 hc0 hc1 x0 x1 x2 x3).2.2.2.1)
      = k0_pay2 x3 (k0_pay11 (k0_pay5 x0 x1 x2) x3 (k0_pay6 (F := F)) (k0_pay6 (F := F))) (k0_pay12 (k0_pay5 x0 x1 x2) x3 (k0_pay6 (F := F))) (k0_pay8 (F := F)) := by
  rw [View.read_writes_eq_canon _ _ _ (gcover_First_num c i a2 h2 a3 h3 a4 h4 a5 h5 a6 h6 a7 h7 a8 h8 a9 h9 a10 h10 hc0 hc1 x0 x1 x2 x3)]
  unfold kernelRun0_First
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_Middle_max (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : ¬cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) (y : S512x1.Idx) :
    ∃ pc ∈ (kernelRun0_Middle c i a2 h2 a3 h3 a4 h4 a5 h5 a6 h6 a7 h7 a8 h8 a9 h9 a10 h10 hc0 hc1 x0 x1 x2 x3 xs0 xs1 xs2 xs3).1, y ∈ pc.1.set :=
  View.cover_of_tiledL _ S512x1.size (by sl_kernel_rfl) y

set_option maxHeartbeats 1000000 in
theorem middle_max (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : ¬cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    VS0_1.read (Elt F) (VS0_1.writes (Elt F) VS0_1.junk (kernelRun0_Middle c i a2 h2 a3 h3 a4 h4 a5 h5 a6 h6 a7 h7 a8 h8 a9 h9 a10 h10 hc0 hc1 x0 x1 x2 x3 xs0 xs1 xs2 xs3).1)
      = k0_pay3 (k0_pay10 xs0 x3 xs1) := by
  rw [View.read_writes_eq_canon _ _ _ (gcover_Middle_max c i a2 h2 a3 h3 a4 h4 a5 h5 a6 h6 a7 h7 a8 h8 a9 h9 a10 h10 hc0 hc1 x0 x1 x2 x3 xs0 xs1 xs2 xs3)]
  unfold kernelRun0_Middle
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_Middle_den (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : ¬cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) (y : S512x1.Idx) :
    ∃ pc ∈ (kernelRun0_Middle c i a2 h2 a3 h3 a4 h4 a5 h5 a6 h6 a7 h7 a8 h8 a9 h9 a10 h10 hc0 hc1 x0 x1 x2 x3 xs0 xs1 xs2 xs3).2.1, y ∈ pc.1.set :=
  View.cover_of_tiledL _ S512x1.size (by sl_kernel_rfl) y

set_option maxHeartbeats 1000000 in
theorem middle_den (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : ¬cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    VS0_2.read (Elt F) (VS0_2.writes (Elt F) VS0_2.junk (kernelRun0_Middle c i a2 h2 a3 h3 a4 h4 a5 h5 a6 h6 a7 h7 a8 h8 a9 h9 a10 h10 hc0 hc1 x0 x1 x2 x3 xs0 xs1 xs2 xs3).2.1)
      = k0_pay1 (k0_pay11 xs0 x3 xs1 xs1) (k0_pay12 xs0 x3 xs1) xs2 := by
  rw [View.read_writes_eq_canon _ _ _ (gcover_Middle_den c i a2 h2 a3 h3 a4 h4 a5 h5 a6 h6 a7 h7 a8 h8 a9 h9 a10 h10 hc0 hc1 x0 x1 x2 x3 xs0 xs1 xs2 xs3)]
  unfold kernelRun0_Middle
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_Middle_num (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : ¬cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) (y : S512x768.Idx) :
    ∃ pc ∈ (kernelRun0_Middle c i a2 h2 a3 h3 a4 h4 a5 h5 a6 h6 a7 h7 a8 h8 a9 h9 a10 h10 hc0 hc1 x0 x1 x2 x3 xs0 xs1 xs2 xs3).2.2.1, y ∈ pc.1.set :=
  View.cover_of_tiledL _ S512x768.size (by sl_kernel_rfl) y

set_option maxHeartbeats 1000000 in
theorem middle_num (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : ¬cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    VS0_3.read (Elt F) (VS0_3.writes (Elt F) VS0_3.junk (kernelRun0_Middle c i a2 h2 a3 h3 a4 h4 a5 h5 a6 h6 a7 h7 a8 h8 a9 h9 a10 h10 hc0 hc1 x0 x1 x2 x3 xs0 xs1 xs2 xs3).2.2.1)
      = k0_pay2 x3 (k0_pay11 xs0 x3 xs1 xs1) (k0_pay12 xs0 x3 xs1) xs3 := by
  rw [View.read_writes_eq_canon _ _ _ (gcover_Middle_num c i a2 h2 a3 h3 a4 h4 a5 h5 a6 h6 a7 h7 a8 h8 a9 h9 a10 h10 hc0 hc1 x0 x1 x2 x3 xs0 xs1 xs2 xs3)]
  unfold kernelRun0_Middle
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_Last_out (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) (y : S512x768.Idx) :
    ∃ pc ∈ (kernelRun0_Last c i a2 h2 a3 h3 a4 h4 a5 h5 a6 h6 a7 h7 a8 h8 a9 h9 a10 h10 hc0 hc1 x0 x1 x2 x3 xs0 xs1 xs2 xs3).1, y ∈ pc.1.set :=
  View.cover_of_tiledL _ S512x768.size (by sl_kernel_rfl) y

set_option maxHeartbeats 1000000 in
theorem last_out (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    VO0_4.read (Elt F) (VO0_4.writes (Elt F) VO0_4.junk (kernelRun0_Last c i a2 h2 a3 h3 a4 h4 a5 h5 a6 h6 a7 h7 a8 h8 a9 h9 a10 h10 hc0 hc1 x0 x1 x2 x3 xs0 xs1 xs2 xs3).1)
      = k0_pay4 (k0_pay2 x3 (k0_pay11 xs0 x3 xs1 xs1) (k0_pay12 xs0 x3 xs1) xs3) (k0_pay1 (k0_pay11 xs0 x3 xs1 xs1) (k0_pay12 xs0 x3 xs1) xs2) := by
  rw [View.read_writes_eq_canon _ _ _ (gcover_Last_out c i a2 h2 a3 h3 a4 h4 a5 h5 a6 h6 a7 h7 a8 h8 a9 h9 a10 h10 hc0 hc1 x0 x1 x2 x3 xs0 xs1 xs2 xs3)]
  unfold kernelRun0_Last
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_Last_max (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) (y : S512x1.Idx) :
    ∃ pc ∈ (kernelRun0_Last c i a2 h2 a3 h3 a4 h4 a5 h5 a6 h6 a7 h7 a8 h8 a9 h9 a10 h10 hc0 hc1 x0 x1 x2 x3 xs0 xs1 xs2 xs3).2.1, y ∈ pc.1.set :=
  View.cover_of_tiledL _ S512x1.size (by sl_kernel_rfl) y

set_option maxHeartbeats 1000000 in
theorem last_max (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    VS0_1.read (Elt F) (VS0_1.writes (Elt F) VS0_1.junk (kernelRun0_Last c i a2 h2 a3 h3 a4 h4 a5 h5 a6 h6 a7 h7 a8 h8 a9 h9 a10 h10 hc0 hc1 x0 x1 x2 x3 xs0 xs1 xs2 xs3).2.1)
      = k0_pay3 (k0_pay10 xs0 x3 xs1) := by
  rw [View.read_writes_eq_canon _ _ _ (gcover_Last_max c i a2 h2 a3 h3 a4 h4 a5 h5 a6 h6 a7 h7 a8 h8 a9 h9 a10 h10 hc0 hc1 x0 x1 x2 x3 xs0 xs1 xs2 xs3)]
  unfold kernelRun0_Last
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_Last_den (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) (y : S512x1.Idx) :
    ∃ pc ∈ (kernelRun0_Last c i a2 h2 a3 h3 a4 h4 a5 h5 a6 h6 a7 h7 a8 h8 a9 h9 a10 h10 hc0 hc1 x0 x1 x2 x3 xs0 xs1 xs2 xs3).2.2.1, y ∈ pc.1.set :=
  View.cover_of_tiledL _ S512x1.size (by sl_kernel_rfl) y

set_option maxHeartbeats 1000000 in
theorem last_den (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    VS0_2.read (Elt F) (VS0_2.writes (Elt F) VS0_2.junk (kernelRun0_Last c i a2 h2 a3 h3 a4 h4 a5 h5 a6 h6 a7 h7 a8 h8 a9 h9 a10 h10 hc0 hc1 x0 x1 x2 x3 xs0 xs1 xs2 xs3).2.2.1)
      = k0_pay1 (k0_pay11 xs0 x3 xs1 xs1) (k0_pay12 xs0 x3 xs1) xs2 := by
  rw [View.read_writes_eq_canon _ _ _ (gcover_Last_den c i a2 h2 a3 h3 a4 h4 a5 h5 a6 h6 a7 h7 a8 h8 a9 h9 a10 h10 hc0 hc1 x0 x1 x2 x3 xs0 xs1 xs2 xs3)]
  unfold kernelRun0_Last
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

theorem gcover_Last_num (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) (y : S512x768.Idx) :
    ∃ pc ∈ (kernelRun0_Last c i a2 h2 a3 h3 a4 h4 a5 h5 a6 h6 a7 h7 a8 h8 a9 h9 a10 h10 hc0 hc1 x0 x1 x2 x3 xs0 xs1 xs2 xs3).2.2.2.1, y ∈ pc.1.set :=
  View.cover_of_tiledL _ S512x768.size (by sl_kernel_rfl) y

set_option maxHeartbeats 1000000 in
theorem last_num (c : Dev nD) (i : grid0.Coords) (a2 : Memref sig .tc .vmem S512x1024 .f32) (h2 : a2.IsWhole) (a3 : Memref sig .tc .vmem S768x1024 .f32) (h3 : a3.IsWhole) (a4 : Memref sig .tc .vmem S1x768 .f32) (h4 : a4.IsWhole) (a5 : Memref sig .tc .vmem S1024x768 .f32) (h5 : a5.IsWhole) (a6 : Memref sig .tc .vmem S512x768 .f32) (h6 : a6.IsWhole) (a7 : Memref sig .tc .vmem S512x768 .f32) (h7 : a7.IsWhole) (a8 : Memref sig .tc .vmem S512x1 .f32) (h8 : a8.IsWhole) (a9 : Memref sig .tc .vmem S512x1 .f32) (h9 : a9.IsWhole) (a10 : Memref sig .tc .vmem S512x768 .f32) (h10 : a10.IsWhole) (hc0 : ¬cond0_0 i) (hc1 : cond0_1 i) (x0 : Vec F S512x1024 .f32) (x1 : Vec F S768x1024 .f32) (x2 : Vec F S1x768 .f32) (x3 : Vec F S1024x768 .f32) (xs0 : Vec F S512x768 .f32) (xs1 : Vec F S512x1 .f32) (xs2 : Vec F S512x1 .f32) (xs3 : Vec F S512x768 .f32) :
    VS0_3.read (Elt F) (VS0_3.writes (Elt F) VS0_3.junk (kernelRun0_Last c i a2 h2 a3 h3 a4 h4 a5 h5 a6 h6 a7 h7 a8 h8 a9 h9 a10 h10 hc0 hc1 x0 x1 x2 x3 xs0 xs1 xs2 xs3).2.2.2.1)
      = k0_pay2 x3 (k0_pay11 xs0 x3 xs1 xs1) (k0_pay12 xs0 x3 xs1) xs3 := by
  rw [View.read_writes_eq_canon _ _ _ (gcover_Last_num c i a2 h2 a3 h3 a4 h4 a5 h5 a6 h6 a7 h7 a8 h8 a9 h9 a10 h10 hc0 hc1 x0 x1 x2 x3 xs0 xs1 xs2 xs3)]
  unfold kernelRun0_Last
  dsimp only
  sl_unfold_words
  simp only [View.canon_unit_zero (S := S512x1) hz, View.canon_unit_zero (S := S512x768) hz, View.canon_cons_unit_zero (S := S512x1) hz, View.canon_cons_unit_zero (S := S512x768) hz, View.readCov_unit_zero (S := S512x768) _ hz, View.readCov_unit_zero (S := S512x1) _ hz, View.readAt_eq_ld, h2.read_unread, h3.read_unread, h4.read_unread, h5.read_unread, h7.read_unread, h8.read_unread, h9.read_unread, h10.read_unread, View.ld_unit_zero (S := S512x1024) hz, View.ld_unit_zero (S := S768x1024) hz, View.ld_unit_zero (S := S1x768) hz, View.ld_unit_zero (S := S1024x768) hz, View.ld_unit_zero (S := S512x768) hz, View.ld_unit_zero (S := S512x1) hz]

end Cert.KernelIdeal.Region

end
-- ==== Proof.IdealSteps.lean ====
/-
  One grid point as arithmetic: what each case leaves, written over the point's input blocks and what the point before
  left (projected rows, running maximum, weight sum, weighted sum).
-/
import proofs.«155410_j47107201302664_1_alg».proof.Proof.IdealFrame
import proofs.«155410_j47107201302664_1_alg».proof.Proof.IdealPieces

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem stepFirst_eq (c : Dev nD) (t : Fin cfg0.N) (hc0 : cond0_0 (grid0.coords t)) (hc1 : ¬cond0_1 (grid0.coords t)) :
    stepFirst m c t hc0 hc1 = (outIdle, (k0_pay5 (iblk m c 0 t) (iblk m c 1 t) (iblk m c 2 t)), k0_pay3 (k0_pay10 (k0_pay5 (iblk m c 0 t) (iblk m c 1 t) (iblk m c 2 t)) (iblk m c 3 t) (k0_pay6 (F := F))), k0_pay1 (k0_pay11 (k0_pay5 (iblk m c 0 t) (iblk m c 1 t) (iblk m c 2 t)) (iblk m c 3 t) (k0_pay6 (F := F)) (k0_pay6 (F := F))) (k0_pay12 (k0_pay5 (iblk m c 0 t) (iblk m c 1 t) (iblk m c 2 t)) (iblk m c 3 t) (k0_pay6 (F := F))) (k0_pay7 (F := F)), k0_pay2 (iblk m c 3 t) (k0_pay11 (k0_pay5 (iblk m c 0 t) (iblk m c 1 t) (iblk m c 2 t)) (iblk m c 3 t) (k0_pay6 (F := F)) (k0_pay6 (F := F))) (k0_pay12 (k0_pay5 (iblk m c 0 t) (iblk m c 1 t) (iblk m c 2 t)) (iblk m c 3 t) (k0_pay6 (F := F))) (k0_pay8 (F := F))) := by
  unfold stepFirst
  rw [first_rows c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t), first_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t), first_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t), first_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)]

theorem stepMiddle_eq (c : Dev nD) (t : Fin cfg0.N) (hc0 : ¬cond0_0 (grid0.coords t)) (hc1 : ¬cond0_1 (grid0.coords t)) (pv : Vec F S512x768 .f32 × Vec F S512x768 .f32 × Vec F S512x1 .f32 × Vec F S512x1 .f32 × Vec F S512x768 .f32) :
    stepMiddle m c t hc0 hc1 pv = (outIdle, pv.2.1, k0_pay3 (k0_pay10 pv.2.1 (iblk m c 3 t) pv.2.2.1), k0_pay1 (k0_pay11 pv.2.1 (iblk m c 3 t) pv.2.2.1 pv.2.2.1) (k0_pay12 pv.2.1 (iblk m c 3 t) pv.2.2.1) pv.2.2.2.1, k0_pay2 (iblk m c 3 t) (k0_pay11 pv.2.1 (iblk m c 3 t) pv.2.2.1 pv.2.2.1) (k0_pay12 pv.2.1 (iblk m c 3 t) pv.2.2.1) pv.2.2.2.2) := by
  unfold stepMiddle
  rw [middle_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2, middle_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2, middle_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2]

theorem stepLast_eq (c : Dev nD) (t : Fin cfg0.N) (hc0 : ¬cond0_0 (grid0.coords t)) (hc1 : cond0_1 (grid0.coords t)) (pv : Vec F S512x768 .f32 × Vec F S512x768 .f32 × Vec F S512x1 .f32 × Vec F S512x1 .f32 × Vec F S512x768 .f32) :
    stepLast m c t hc0 hc1 pv = (k0_pay4 (k0_pay2 (iblk m c 3 t) (k0_pay11 pv.2.1 (iblk m c 3 t) pv.2.2.1 pv.2.2.1) (k0_pay12 pv.2.1 (iblk m c 3 t) pv.2.2.1) pv.2.2.2.2) (k0_pay1 (k0_pay11 pv.2.1 (iblk m c 3 t) pv.2.2.1 pv.2.2.1) (k0_pay12 pv.2.1 (iblk m c 3 t) pv.2.2.1) pv.2.2.2.1), pv.2.1, k0_pay3 (k0_pay10 pv.2.1 (iblk m c 3 t) pv.2.2.1), k0_pay1 (k0_pay11 pv.2.1 (iblk m c 3 t) pv.2.2.1 pv.2.2.1) (k0_pay12 pv.2.1 (iblk m c 3 t) pv.2.2.1) pv.2.2.2.1, k0_pay2 (iblk m c 3 t) (k0_pay11 pv.2.1 (iblk m c 3 t) pv.2.2.1 pv.2.2.1) (k0_pay12 pv.2.1 (iblk m c 3 t) pv.2.2.1) pv.2.2.2.2) := by
  unfold stepLast
  rw [last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2, last_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2, last_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2, last_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) pv.2.1 pv.2.2.1 pv.2.2.2.1 pv.2.2.2.2]

end Cert.KernelIdeal.Region

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«155410_j47107201302664_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.TileRead.lean ====
/-
  The tile body's values read at an entry, on the extended reals.

  One grid point of the soft vector quantizer works on a tile of 512 batch rows against a tile of 1024 codebook
  rows. Its body computes, all elementwise or row-wise:
    * the projection  x (p, q) = (∑ e, inp (p, e) * pw (q, e)) + pb (0, q)  (the weight matrix is transposed, then
      multiplied into a zero accumulator);
    * the distance  d (p, n) = 1 - ∑ k, (x (p, k) / max (√(∑ j, x (p, j)²)) ε) * (w (n, k) / max (√(∑ j, w (n, j)²)) ε) ;
    * the running maximum  m' (p) = max (m (p)) (max over n of d (p, n)) ;
    * the rescaling factor  a (p) = exp (m (p) - m' (p))  and the weights  pr (p, n) = exp (d (p, n) - m' (p)) ;
    * the weight sum  l' (p) = a (p) * l (p) + ∑ n, pr (p, n)  and the weighted sum
      acc' (p, e) = a (p) * acc (p, e) + ∑ n, pr (p, n) * w (n, e) ;
    * at the last codebook tile the quotient  acc (p, e) / l (p) .
  Each lemma below reads one of these values at an entry: the index is pushed through the elementwise operations,
  a row reduction is the row's sum or maximum, a column [a, 1] is read at (p, 0), a format change is the identity,
  and a matrix product into zero is the sum over the contracted coordinate.
-/
import proofs.«155410_j47107201302664_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«155410_j47107201302664_1_alg».proof.Proof.LibRowOps
import proofs.«155410_j47107201302664_1_alg».proof.Proof.LibDotRecord

noncomputable section

namespace Cert.KernelIdeal.Tile

open Cert.KernelIdeal Cert.KernelIdeal.Gen Idealize.ShloMosaic Idealize.ShloMosaic.ValueIdx

/-- The guard against a zero norm: the f32 value nearest 1e-8. -/
abbrev eps : EReal := Ideal.ofBits .f32 0x322BCC77#32

/-- The f32 pattern of 1, as the extended real it denotes. -/
abbrev oneF : EReal := Ideal.ofBits .f32 0x3F800000#32

/-! ## Generic pieces: a row divided by its guarded norm, a row sum and a row maximum as columns -/

section Generic
variable {a b : ℕ}

/-- Entry (r, c) of a matrix whose every row is divided by the larger of its Euclidean norm and a guard e. -/
theorem unitRow_apply (x : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (e : EReal) (r : Fin a) (c : Fin b) :
    divf x (broadcastTo ⟨2, ![a, b]⟩
        (maximumf (sqrt (shapeCast ⟨2, ![a, 1]⟩ (multiReduction .add [1] ⟨1, ![a]⟩ (mulf x x) 0x00000000#32 h hφ hacc) h1))
          (broadcast (⟨2, ![a, 1]⟩ : Shape) e)) h2) (ix2 r c)
      = Ideal.div (x (ix2 r c)) (max (Ideal.sqrt (∑ j : Fin b, x (ix2 r j) * x (ix2 r j))) e) := by
  rw [divf_apply, Gcn.Lib.broadcastTo_a1_ab_apply, maximumf_apply, broadcast_apply]
  show Ideal.div _ (max (Ideal.sqrt (shapeCast _ _ h1 (ix2 r 0))) e) = _
  rw [Gcn.Lib.shapeCast_a_a1_apply, Gcn.Lib.rowSum_apply]
  rfl

/-- The row sum recast to a column, read at (r, 0). -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (r : Fin a) :
    shapeCast ⟨2, ![a, 1]⟩ (multiReduction .add [1] ⟨1, ![a]⟩ v 0x00000000#32 h hφ hacc) h1 (ix2 r (0 : Fin 1))
      = ∑ k : Fin b, v (ix2 r k) :=
  (Gcn.Lib.shapeCast_a_a1_apply _ h1 r 0).trans (Gcn.Lib.rowSum_apply v h hφ hacc r)

/-- The row maximum recast to a column, read at (r, 0). -/
theorem rowMaxCol_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ)
    (h1 : (⟨1, ![a]⟩ : Shape).ShapeCasts ⟨2, ![a, 1]⟩) (r : Fin a) :
    shapeCast ⟨2, ![a, 1]⟩ (multiReduction .maximumf [1] ⟨1, ![a]⟩ v 0xFF800000#32 h hφ hacc) h1 (ix2 r (0 : Fin 1))
      = (Finset.univ : Finset (Fin b)).fold max ⊥ (fun k => v (ix2 r k)) :=
  (Gcn.Lib.shapeCast_a_a1_apply _ h1 r 0).trans (Gcn.Lib.rowMax_apply v h hφ hacc r)

end Generic

/-! ## The stores that keep or reset a value -/

/-- The new running maximum is stored as it is. -/
theorem keep_eq (v : FVec Ideal S512x1 .f32) : k0_pay3 v = v := by
  unfold k0_pay3
  exact shapeCast_self v _

/-- The running maximum starts at -∞. -/
theorem resetMax_eq : k0_pay6 (F := Ideal) = fun _ => (⊥ : EReal) := by
  unfold k0_pay6
  simp only [shapeCast_self]
  funext i
  exact Gcn.Lib.ofBits_neg_inf_f32

/-- The weight sum starts at 0. -/
theorem resetDen_eq : k0_pay7 (F := Ideal) = fun _ => (0 : EReal) := by
  unfold k0_pay7
  simp only [shapeCast_self]
  funext i
  exact Ideal.ofBits_zero_f32

/-- The weighted sum starts at 0. -/
theorem resetNum_eq : k0_pay8 (F := Ideal) = fun _ => (0 : EReal) := by
  unfold k0_pay8
  simp only [shapeCast_self]
  funext i
  exact Ideal.ofBits_zero_f32

/-! ## The projection -/

/-- Entry (p, q) of the projected tile: row p of the input against row q of the weight matrix, plus the bias. -/
theorem proj_apply (inp : Vec Ideal S512x1024 .f32) (pw : Vec Ideal S768x1024 .f32) (pb : Vec Ideal S1x768 .f32)
    (p : Fin 512) (q : Fin 768) :
    k0_pay5 inp pw pb (ix2 p q)
      = (∑ e : Fin 1024, inp (ix2 p e) * pw (ix2 q e)) + pb (ix2 (0 : Fin 1) q) := by
  unfold k0_pay5
  simp only [shapeCast_self]
  rw [addf_apply]
  refine congrArg₂ (· + ·) ?_ ?_
  · refine (DotRecord.matmul_zero_apply dot_S512x1024_S1024x768_S512x768_1_0_0_1_n_n rfl rfl rfl rfl rfl rfl
      inp _ none p q).trans ?_
    exact Finset.sum_congr rfl fun e _ =>
      congrArg (inp (ix2 p e) * ·) (transpose_ix2_apply pw transposes_S768x1024_p1_0_S1024x768 e q)
  · exact DotRecord.broadcastTo_1b_ab_apply pb broadcasts_S1x768_S512x768 p q

/-! ## The distances -/

/-- Entry (p, n) of the distance tile: 1 minus the cosine of row p of x and row n of the codebook tile, each row
    divided by the larger of its norm and the guard. -/
theorem dist_apply (x : Vec Ideal S512x768 .f32) (w : Vec Ideal S1024x768 .f32) (p : Fin 512) (n : Fin 1024) :
    k0_pay9 x w (ix2 p n)
      = oneF - ∑ k : Fin 768,
          Ideal.div (x (ix2 p k)) (max (Ideal.sqrt (∑ j : Fin 768, x (ix2 p j) * x (ix2 p j))) eps)
            * Ideal.div (w (ix2 n k)) (max (Ideal.sqrt (∑ j : Fin 768, w (ix2 n j) * w (ix2 n j))) eps) := by
  unfold k0_pay9
  simp only []
  rw [subf_apply, broadcast_apply]
  refine congrArg (oneF - ·) ?_
  refine (DotRecord.matmul_zero_apply dot_S512x768_S768x1024_S512x1024_1_0_0_1_n_n rfl rfl rfl rfl rfl rfl
    _ _ none p n).trans ?_
  refine Finset.sum_congr rfl fun k _ => congrArg₂ (· * ·) ?_ ?_
  · exact unitRow_apply x reduces_S512x768_S512 (.inl rfl) rfl shapeCasts_S512_S512x1 broadcasts_S512x1_S512x768 eps p k
  · refine (transpose_ix2_apply _ transposes_S1024x768_p1_0_S768x1024 k n).trans ?_
    exact unitRow_apply w reduces_S1024x768_S1024 (.inl rfl) rfl shapeCasts_S1024_S1024x1 broadcasts_S1024x1_S1024x768 eps n k

/-! ## The running maximum, the rescaling factor and the weights -/

/-- The new running maximum of row p: the old one against the largest distance of the row in this tile. -/
theorem newmax_apply (x : Vec Ideal S512x768 .f32) (w : Vec Ideal S1024x768 .f32) (m : Vec Ideal S512x1 .f32)
    (p : Fin 512) :
    k0_pay10 x w m (ix2 p (0 : Fin 1))
      = max (m (ix2 p (0 : Fin 1)))
          ((Finset.univ : Finset (Fin 1024)).fold max ⊥ (fun n => k0_pay9 x w (ix2 p n))) := by
  unfold k0_pay10
  simp only []
  rw [maximumf_apply]
  exact congrArg (max (m (ix2 p (0 : Fin 1))))
    (rowMaxCol_apply (k0_pay9 x w) reduces_S512x1024_S512 (.inl rfl) rfl shapeCasts_S512_S512x1 p)

/-- The rescaling factor of row p: exp (old maximum - new maximum). -/
theorem alpha_apply (x : Vec Ideal S512x768 .f32) (w : Vec Ideal S1024x768 .f32) (m m' : Vec Ideal S512x1 .f32)
    (p : Fin 512) :
    k0_pay11 x w m m' (ix2 p (0 : Fin 1))
      = Ideal.exp (m' (ix2 p (0 : Fin 1)) - k0_pay10 x w m (ix2 p (0 : Fin 1))) := rfl

/-- The weight of entry (p, n): exp (distance - new maximum of the row). -/
theorem weight_apply (x : Vec Ideal S512x768 .f32) (w : Vec Ideal S1024x768 .f32) (m : Vec Ideal S512x1 .f32)
    (p : Fin 512) (n : Fin 1024) :
    k0_pay12 x w m (ix2 p n)
      = Ideal.exp (k0_pay9 x w (ix2 p n) - k0_pay10 x w m (ix2 p (0 : Fin 1))) := by
  unfold k0_pay12
  show Ideal.exp (k0_pay9 x w (ix2 p n) - broadcastTo S512x1024 (k0_pay10 x w m) broadcasts_S512x1_S512x1024 (ix2 p n)) = _
  rw [Gcn.Lib.broadcastTo_a1_ab_apply]

/-! ## The weight sum, the weighted sum and the quotient -/

/-- The new weight sum of row p. -/
theorem den_apply (a : FVec Ideal S512x1 .f32) (pr : FVec Ideal S512x1024 .f32) (l : Vec Ideal S512x1 .f32)
    (p : Fin 512) :
    k0_pay1 a pr l (ix2 p (0 : Fin 1))
      = a (ix2 p (0 : Fin 1)) * l (ix2 p (0 : Fin 1)) + ∑ n : Fin 1024, pr (ix2 p n) := by
  unfold k0_pay1
  simp only [shapeCast_self]
  rw [addf_apply, mulf_apply]
  exact congrArg (a (ix2 p (0 : Fin 1)) * l (ix2 p (0 : Fin 1)) + ·)
    (rowSumCol_apply pr reduces_S512x1024_S512 (.inl rfl) rfl shapeCasts_S512_S512x1 p)

/-- The new weighted sum at (p, d): the old one rescaled plus the weights of row p against column d of the codebook
    tile. -/
theorem num_apply (w : Vec Ideal S1024x768 .f32) (a : FVec Ideal S512x1 .f32) (pr : FVec Ideal S512x1024 .f32)
    (acc : Vec Ideal S512x768 .f32) (p : Fin 512) (d : Fin 768) :
    k0_pay2 w a pr acc (ix2 p d)
      = a (ix2 p (0 : Fin 1)) * acc (ix2 p d) + ∑ n : Fin 1024, pr (ix2 p n) * w (ix2 n d) := by
  unfold k0_pay2
  simp only [shapeCast_self]
  rw [addf_apply, mulf_apply]
  refine congrArg₂ (· + ·) (congrArg (· * acc (ix2 p d)) ?_) ?_
  · exact Gcn.Lib.broadcastTo_a1_ab_apply a broadcasts_S512x1_S512x768 p d
  · exact DotRecord.matmul_zero_apply dot_S512x1024_S1024x768_S512x768_1_0_0_1_n_n rfl rfl rfl rfl rfl rfl
      (truncf .bf16 pr bitsLt_bf16_f32) (truncf .bf16 w bitsLt_bf16_f32) none p d

/-- The output at (p, d): the weighted sum over the weight sum of the row. -/
theorem out_apply (acc : Vec Ideal S512x768 .f32) (l : Vec Ideal S512x1 .f32) (p : Fin 512) (d : Fin 768) :
    k0_pay4 acc l (ix2 p d) = Ideal.div (acc (ix2 p d)) (l (ix2 p (0 : Fin 1))) := by
  unfold k0_pay4
  show Ideal.div (acc (ix2 p d)) (broadcastTo S512x768 l broadcasts_S512x1_S512x768 (ix2 p d)) = _
  rw [Gcn.Lib.broadcastTo_a1_ab_apply]

end Cert.KernelIdeal.Tile

end
-- ==== Proof.LibSoftmaxLaw.lean ====
/-
  Softmax-weighted sums on the extended reals: dividing late or early.

  For a row of scores s and a row of values v, write m for the row's maximum (the fold of max from ⊥),
  p j = exp (s j - m) for the weights and l = ∑ j, p j for their sum. One program forms (∑ j, p j * v j) / l, the
  other ∑ j, (p j / l) * v j. On the extended reals these agree as soon as every score and every value is a real
  number: then m is a real, every weight is a positive real, l is a positive real, and the identity is the real one
  (a sum times a constant is the sum of the products). Without that hypothesis it can fail (an infinite score makes
  a weight infinite and the quotient junk).

  Also here: the coercion of a finite real sum, that a finite sum of products of reals is a real, and the three float
  patterns the two programs spell for the score scale, with 1024 ^ (-1/2) = 1/32.
-/
import Idealize.ShloMosaic.PureOps.Ideal

noncomputable section

namespace Attn

open Idealize.ShloMosaic

/-! ## Real sums and real maxima inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose F hF using hf
  choose G hG using hg
  refine ⟨∑ i, F i * G i, ?_⟩
  rw [coe_sum]
  exact Finset.sum_congr rfl fun i _ => by rw [hF, hG, EReal.coe_mul]

/-- The fold of max from ⊥ over finitely many reals is ⊥ or a real. -/
theorem fold_max_bot_or_real {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; rfl
  | insert a s ha ih =>
    right
    rw [Finset.fold_insert ha]
    rcases ih with h | ⟨r, h⟩
    · exact ⟨f a, by rw [h, max_eq_left bot_le]⟩
    · exact ⟨max (f a) r, by rw [h]; exact (EReal.coe_strictMono.monotone.map_max).symm⟩

variable {T : ℕ}

/-- The row maximum: the fold of max from ⊥ over the row. -/
def rowMax (s : Fin T → EReal) : EReal := (Finset.univ : Finset (Fin T)).fold max ⊥ s

/-- The maximum of a nonempty row of reals is a real. -/
theorem rowMax_real (S : Fin T → ℝ) (j0 : Fin T) : ∃ M : ℝ, rowMax (fun j => (S j : EReal)) = M := by
  rcases fold_max_bot_or_real Finset.univ S with h | h
  · exfalso
    have hle : ((S j0 : ℝ) : EReal) ≤ (Finset.univ : Finset (Fin T)).fold max (⊥ : EReal) (fun i => (S i : EReal)) :=
      (_root_.Finset.le_fold_max (c := ((S j0 : ℝ) : EReal))).2 (Or.inr ⟨j0, Finset.mem_univ _, le_rfl⟩)
    rw [h] at hle
    exact EReal.coe_ne_bot _ (le_bot_iff.mp hle)
  · exact h

/-- The weight of entry j: exp of the score minus the row maximum. -/
def weight (s : Fin T → EReal) (j : Fin T) : EReal := Ideal.exp (s j - rowMax s)

/-- The sum of the row's weights. -/
def denom (s : Fin T → EReal) : EReal := ∑ j, weight s j

/-- Divide late: the weighted sum of the values, divided by the sum of the weights. -/
def outLate (s v : Fin T → EReal) : EReal := Ideal.div (∑ j, weight s j * v j) (denom s)

/-- Divide early: every weight divided by the sum of the weights, then the weighted sum of the values. -/
def outEarly (s v : Fin T → EReal) : EReal := ∑ j, Ideal.div (weight s j) (denom s) * v j

/-- For a nonempty row of real scores and real values the two forms agree. -/
theorem outEarly_eq_outLate (s v : Fin T → EReal) (j0 : Fin T) (hs : ∀ j, ∃ r : ℝ, s j = r) (hv : ∀ j, ∃ r : ℝ, v j = r) :
    outEarly s v = outLate s v := by
  choose S hS using hs
  choose V hV using hv
  have hs' : s = fun j => (S j : EReal) := funext hS
  obtain ⟨M, hM⟩ := rowMax_real S j0
  have hw : ∀ j, weight s j = ((Real.exp (S j - M) : ℝ) : EReal) := fun j => by
    unfold weight
    rw [hs', hM, ← EReal.coe_sub, Ideal.exp_coe]
  have hL : denom s = ((∑ j, Real.exp (S j - M) : ℝ) : EReal) := by
    unfold denom
    rw [coe_sum]
    exact Finset.sum_congr rfl fun j _ => hw j
  have hpos : (0 : ℝ) < ∑ j, Real.exp (S j - M) :=
    Finset.sum_pos (fun j _ => Real.exp_pos _) ⟨j0, Finset.mem_univ _⟩
  unfold outEarly outLate
  rw [hL, Ideal.div_coe hpos.ne']
  have e1 : ∀ j, Ideal.div (weight s j) ((∑ j, Real.exp (S j - M) : ℝ) : EReal) * v j
      = ((Real.exp (S j - M) * (1 / ∑ j, Real.exp (S j - M)) * V j : ℝ) : EReal) := fun j => by
    rw [Ideal.div_coe hpos.ne', hw, hV, ← EReal.coe_mul, ← EReal.coe_mul]
  have e2 : ∀ j, weight s j * v j = ((Real.exp (S j - M) * V j : ℝ) : EReal) := fun j => by
    rw [hw, hV, ← EReal.coe_mul]
  rw [Finset.sum_congr rfl fun j _ => e1 j, Finset.sum_congr rfl fun j _ => e2 j, ← coe_sum, ← coe_sum, ← EReal.coe_mul]
  congr 1
  rw [Finset.sum_mul]
  exact Finset.sum_congr rfl fun j _ => by ring

/-! ## The float patterns of the score scale -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern of -∞ denotes ⊥. -/
theorem ofBits_neg_inf : Ideal.ofBits .f32 0xFF800000#32 = ⊥ := by simp [Ideal.ofBits, Ideal.ieee]

/-- 1024 to the power -1/2 is 1/32: 1024 is the square of 32. -/
theorem rpow_1024 : Real.rpow 1024 (-(1 / 2)) = 1 / 32 := by
  rw [show (1024 : ℝ) = 32 ^ (2 : ℝ) by norm_num, Real.rpow_eq_pow, ← Real.rpow_mul (by norm_num)]
  norm_num [Real.rpow_neg_one]

/-- The reference's scale, the power of the two patterns, is the kernel's literal. -/
theorem scale_eq : Ideal.pow (Ideal.ofBits .f32 0x44800000#32) (Ideal.ofBits .f32 0xBF000000#32)
    = Ideal.ofBits .f32 0x3D000000#32 := by
  rw [ofBits_1024, ofBits_neg_half, ofBits_inv32, Ideal.pow_coe_coe, rpow_1024]

end Attn

end
-- ==== Proof.LibOnlineSoftmax.lean ====
/-
  The block-by-block (running-maximum) softmax accumulation on the extended reals.

  A row of real scores arrives in blocks of B columns; block j has scores S j k and, for each output coordinate e,
  real values V j k e. A running maximum m, a running weight sum l and a running weighted sum acc e are updated by

      m' = max m (max over the block) ,  a = exp (m - m') ,
      l' = a * l + ∑ k, exp (s k - m') * 1 ,   acc' e = a * acc e + ∑ k, exp (s k - m') * v k e ,

  starting from m = ⊥, l = 0, acc = 0. After n ≥ 1 blocks there is a REAL shift μ (the maximum so far) with
  m = μ, l = ∑ over the first n blocks of exp (S - μ) and acc e = ∑ of exp (S - μ) * V: the rescaling factor
  a = exp (μ - μ') turns every old weight exp (S - μ) into exp (S - μ'), and on the first block a = exp ⊥ = 0
  multiplies zeros. The quotient acc e / l does not depend on the shift (a common positive factor cancels), so it is
  the softmax-weighted mean of the values for ANY real shift, in particular for the row's true maximum.
  Every score and value being a real is what makes the rescaling and the cancellation valid.
-/
import proofs.«155410_j47107201302664_1_alg».proof.Proof.LibSoftmaxLaw

noncomputable section

namespace OnlineSoftmax

open Idealize.ShloMosaic

variable {B : ℕ} {ι : Type}

/-- The sum of the weights exp (S - μ) over the first n blocks. -/
def den (S : ℕ → Fin B → ℝ) (n : ℕ) (μ : ℝ) : ℝ :=
  ∑ j ∈ Finset.range n, ∑ k : Fin B, Real.exp (S j k - μ)

/-- The weighted sum of the values of coordinate e over the first n blocks. -/
def num (S : ℕ → Fin B → ℝ) (V : ℕ → Fin B → ι → ℝ) (n : ℕ) (μ : ℝ) (e : ι) : ℝ :=
  ∑ j ∈ Finset.range n, ∑ k : Fin B, Real.exp (S j k - μ) * V j k e

/-- Changing the shift from μ to μ' multiplies every weight by exp (μ - μ'). -/
theorem den_shift (S : ℕ → Fin B → ℝ) (n : ℕ) (μ μ' : ℝ) : Real.exp (μ - μ') * den S n μ = den S n μ' := by
  unfold den
  rw [Finset.mul_sum]
  refine Finset.sum_congr rfl fun j _ => ?_
  rw [Finset.mul_sum]
  refine Finset.sum_congr rfl fun k _ => ?_
  rw [← Real.exp_add]
  congr 1; ring

theorem num_shift (S : ℕ → Fin B → ℝ) (V : ℕ → Fin B → ι → ℝ) (n : ℕ) (μ μ' : ℝ) (e : ι) :
    Real.exp (μ - μ') * num S V n μ e = num S V n μ' e := by
  unfold num
  rw [Finset.mul_sum]
  refine Finset.sum_congr rfl fun j _ => ?_
  rw [Finset.mul_sum]
  refine Finset.sum_congr rfl fun k _ => ?_
  rw [← mul_assoc, ← Real.exp_add]
  congr 2; ring

theorem den_succ (S : ℕ → Fin B → ℝ) (n : ℕ) (μ : ℝ) :
    den S (n + 1) μ = den S n μ + ∑ k : Fin B, Real.exp (S n k - μ) := Finset.sum_range_succ _ _

theorem num_succ (S : ℕ → Fin B → ℝ) (V : ℕ → Fin B → ι → ℝ) (n : ℕ) (μ : ℝ) (e : ι) :
    num S V (n + 1) μ e = num S V n μ e + ∑ k : Fin B, Real.exp (S n k - μ) * V n k e := Finset.sum_range_succ _ _

/-- With at least one block of at least one column the weight sum is positive. -/
theorem den_pos (S : ℕ → Fin B → ℝ) (n : ℕ) (μ : ℝ) (hn : 0 < n) (hB : 0 < B) : 0 < den S n μ :=
  Finset.sum_pos (fun j _ => Finset.sum_pos (fun k _ => Real.exp_pos _) ⟨⟨0, hB⟩, Finset.mem_univ _⟩)
    ⟨0, Finset.mem_range.mpr hn⟩

/-- The state after n blocks: the maximum so far is a real μ, and l, acc are the weight sum and the weighted sums
    at the shift μ. -/
def Inv (S : ℕ → Fin B → ℝ) (V : ℕ → Fin B → ι → ℝ) (n : ℕ) (m l : EReal) (acc : ι → EReal) : Prop :=
  ∃ μ : ℝ, m = (μ : EReal) ∧ l = ((den S n μ : ℝ) : EReal) ∧ ∀ e, acc e = ((num S V n μ e : ℝ) : EReal)

/-- The first block, from m = ⊥, l = 0, acc = 0: the factor exp (⊥ - m') is 0. -/
theorem first_block (S : ℕ → Fin B → ℝ) (V : ℕ → Fin B → ι → ℝ) (hB : 0 < B)
    (s : Fin B → EReal) (hs : ∀ k, s k = (S 0 k : EReal))
    (one : Fin B → EReal) (hone : ∀ k, one k = 1)
    (w : Fin B → ι → EReal) (hw : ∀ k e, w k e = (V 0 k e : EReal))
    (mn : EReal) (hmn : mn = max ⊥ ((Finset.univ : Finset (Fin B)).fold max ⊥ s)) :
    Inv S V 1 mn (Ideal.exp (⊥ - mn) * 0 + ∑ k, Ideal.exp (s k - mn) * one k)
      (fun e => Ideal.exp (⊥ - mn) * 0 + ∑ k, Ideal.exp (s k - mn) * w k e) := by
  obtain ⟨Mb, hMb⟩ := Attn.rowMax_real (S 0) ⟨0, hB⟩
  have hs' : s = fun k => (S 0 k : EReal) := funext hs
  have hmn' : mn = (Mb : EReal) := by
    rw [hmn, hs']; unfold Attn.rowMax at hMb; rw [hMb]; exact max_eq_right bot_le
  refine ⟨Mb, hmn', ?_, fun e => ?_⟩
  · rw [hmn', EReal.bot_sub, Ideal.exp_bot, mul_zero, zero_add, den_succ]
    unfold den
    rw [Finset.range_zero, Finset.sum_empty, zero_add, Attn.coe_sum]
    refine Finset.sum_congr rfl fun k _ => ?_
    rw [hs k, hone k, mul_one, ← EReal.coe_sub, Ideal.exp_coe]
  · show Ideal.exp (⊥ - mn) * 0 + ∑ k, Ideal.exp (s k - mn) * w k e = _
    rw [hmn', EReal.bot_sub, Ideal.exp_bot, mul_zero, zero_add, num_succ]
    unfold num
    rw [Finset.range_zero, Finset.sum_empty, zero_add, Attn.coe_sum]
    refine Finset.sum_congr rfl fun k _ => ?_
    rw [hs k, hw k e, ← EReal.coe_sub, Ideal.exp_coe, ← EReal.coe_mul]

/-- A later block: the old weights are rescaled to the new maximum and the block's are added. -/
theorem next_block (S : ℕ → Fin B → ℝ) (V : ℕ → Fin B → ι → ℝ) (hB : 0 < B) (n : ℕ)
    (s : Fin B → EReal) (hs : ∀ k, s k = (S n k : EReal))
    (one : Fin B → EReal) (hone : ∀ k, one k = 1)
    (w : Fin B → ι → EReal) (hw : ∀ k e, w k e = (V n k e : EReal))
    (m l : EReal) (acc : ι → EReal) (hinv : Inv S V n m l acc)
    (mn : EReal) (hmn : mn = max m ((Finset.univ : Finset (Fin B)).fold max ⊥ s)) :
    Inv S V (n + 1) mn (Ideal.exp (m - mn) * l + ∑ k, Ideal.exp (s k - mn) * one k)
      (fun e => Ideal.exp (m - mn) * acc e + ∑ k, Ideal.exp (s k - mn) * w k e) := by
  obtain ⟨μ, hm, hl, hacc⟩ := hinv
  obtain ⟨Mb, hMb⟩ := Attn.rowMax_real (S n) ⟨0, hB⟩
  have hs' : s = fun k => (S n k : EReal) := funext hs
  have hmn' : mn = ((max μ Mb : ℝ) : EReal) := by
    rw [hmn, hs', hm]; unfold Attn.rowMax at hMb; rw [hMb]
    exact (EReal.coe_strictMono.monotone.map_max).symm
  refine ⟨max μ Mb, hmn', ?_, fun e => ?_⟩
  · rw [hm, hmn', hl, den_succ, ← den_shift S n μ (max μ Mb), EReal.coe_add, EReal.coe_mul, Attn.coe_sum,
      ← EReal.coe_sub, Ideal.exp_coe]
    congr 1
    refine Finset.sum_congr rfl fun k _ => ?_
    rw [hs k, hone k, mul_one, ← EReal.coe_sub, Ideal.exp_coe]
  · show Ideal.exp (m - mn) * acc e + ∑ k, Ideal.exp (s k - mn) * w k e = _
    rw [hm, hmn', hacc e, num_succ, ← num_shift S V n μ (max μ Mb) e, EReal.coe_add, EReal.coe_mul, Attn.coe_sum,
      ← EReal.coe_sub, Ideal.exp_coe]
    congr 1
    refine Finset.sum_congr rfl fun k _ => ?_
    rw [hs k, hw k e, ← EReal.coe_sub, Ideal.exp_coe, ← EReal.coe_mul]

/-- The final quotient is the weighted mean of the values at ANY real shift M. -/
theorem quotient (S : ℕ → Fin B → ℝ) (V : ℕ → Fin B → ι → ℝ) (hB : 0 < B) (n : ℕ) (hn : 0 < n)
    (m l : EReal) (acc : ι → EReal) (hinv : Inv S V n m l acc) (M : ℝ) (e : ι) :
    Ideal.div (acc e) l = ((num S V n M e / den S n M : ℝ) : EReal) := by
  obtain ⟨μ, _, hl, hacc⟩ := hinv
  have hpos := den_pos S n μ hn hB
  rw [hl, hacc e, Ideal.div_coe hpos.ne', ← EReal.coe_mul]
  congr 1
  rw [← den_shift S n μ M, ← num_shift S V n μ M e, mul_div_mul_left _ _ (Real.exp_pos _).ne']
  ring

end OnlineSoftmax

end
-- ==== Proof.TileStep.lean ====
/-
  One codebook tile's step of the running-maximum softmax, for one batch row, on real data.

  Row p of a batch tile meets the 16 codebook tiles one after another. At tile j the row's 1024 distances are reals
  S j n and the tile's codebook entries are reals V j n d. The body replaces the row's triple (running maximum m,
  weight sum l, weighted sums acc d) by

      m' = max m (max over n of the distances) ,   a = exp (m - m') ,
      l' = a * l + ∑ n, exp (S j n - m') ,          acc' d = a * acc d + ∑ n, exp (S j n - m') * V j n d ,

  and at the last tile writes acc d / l. The block-by-block softmax law says: from (⊥, 0, 0) the triple after the
  first tile is (μ, ∑ exp (S - μ), ∑ exp (S - μ) * V) over that tile for a real shift μ; a later tile keeps that form
  over one more tile; and the final quotient is the softmax-weighted mean of the entries at any real shift. Here the
  body's stored values at row p are shown to be exactly those updates, so the law applies to them.
-/
import proofs.«155410_j47107201302664_1_alg».proof.Proof.TileRead
import proofs.«155410_j47107201302664_1_alg».proof.Proof.LibOnlineSoftmax

noncomputable section

namespace Cert.KernelIdeal.Tile

open Cert.KernelIdeal Cert.KernelIdeal.Gen Idealize.ShloMosaic Idealize.ShloMosaic.ValueIdx

/-- The new weight sum of row p in the law's form: the old sum rescaled plus the tile's weights, each times 1. -/
theorem den_step (x : Vec Ideal S512x768 .f32) (w : Vec Ideal S1024x768 .f32) (m m' l : Vec Ideal S512x1 .f32)
    (p : Fin 512) (hm' : m' (ix2 p (0 : Fin 1)) = m (ix2 p (0 : Fin 1))) :
    k0_pay1 (k0_pay11 x w m m') (k0_pay12 x w m) l (ix2 p (0 : Fin 1))
      = Ideal.exp (m (ix2 p (0 : Fin 1)) - k0_pay10 x w m (ix2 p (0 : Fin 1))) * l (ix2 p (0 : Fin 1))
        + ∑ n : Fin 1024, Ideal.exp (k0_pay9 x w (ix2 p n) - k0_pay10 x w m (ix2 p (0 : Fin 1))) * (1 : EReal) := by
  rw [den_apply, alpha_apply, hm']
  refine congrArg _ (Finset.sum_congr rfl fun n _ => ?_)
  rw [weight_apply, mul_one]

/-- The new weighted sum of row p at coordinate d in the law's form. -/
theorem num_step (x : Vec Ideal S512x768 .f32) (w : Vec Ideal S1024x768 .f32) (m m' : Vec Ideal S512x1 .f32)
    (acc : Vec Ideal S512x768 .f32) (p : Fin 512) (d : Fin 768)
    (hm' : m' (ix2 p (0 : Fin 1)) = m (ix2 p (0 : Fin 1))) :
    k0_pay2 w (k0_pay11 x w m m') (k0_pay12 x w m) acc (ix2 p d)
      = Ideal.exp (m (ix2 p (0 : Fin 1)) - k0_pay10 x w m (ix2 p (0 : Fin 1))) * acc (ix2 p d)
        + ∑ n : Fin 1024, Ideal.exp (k0_pay9 x w (ix2 p n) - k0_pay10 x w m (ix2 p (0 : Fin 1))) * w (ix2 n d) := by
  rw [num_apply, alpha_apply, hm']
  refine congrArg _ (Finset.sum_congr rfl fun n _ => ?_)
  rw [weight_apply]

/-- The first codebook tile, from the reset triple (-∞, 0, 0): the row's new triple is the law's state after one
    tile. -/
theorem first_step (S : ℕ → Fin 1024 → ℝ) (V : ℕ → Fin 1024 → Fin 768 → ℝ)
    (x : Vec Ideal S512x768 .f32) (w : Vec Ideal S1024x768 .f32) (m m' l : Vec Ideal S512x1 .f32)
    (acc : Vec Ideal S512x768 .f32) (p : Fin 512)
    (hS : ∀ n : Fin 1024, k0_pay9 x w (ix2 p n) = (S 0 n : EReal))
    (hV : ∀ (n : Fin 1024) (d : Fin 768), w (ix2 n d) = (V 0 n d : EReal))
    (hm : m (ix2 p (0 : Fin 1)) = ⊥) (hm' : m' (ix2 p (0 : Fin 1)) = m (ix2 p (0 : Fin 1)))
    (hl : l (ix2 p (0 : Fin 1)) = 0) (hacc : ∀ d : Fin 768, acc (ix2 p d) = 0) :
    OnlineSoftmax.Inv S V 1 (k0_pay10 x w m (ix2 p (0 : Fin 1)))
      (k0_pay1 (k0_pay11 x w m m') (k0_pay12 x w m) l (ix2 p (0 : Fin 1)))
      (fun d : Fin 768 => k0_pay2 w (k0_pay11 x w m m') (k0_pay12 x w m) acc (ix2 p d)) := by
  have hmn := newmax_apply x w m p
  rw [hm] at hmn
  have h := OnlineSoftmax.first_block S V (by norm_num) (fun n : Fin 1024 => k0_pay9 x w (ix2 p n)) hS
    (fun _ => (1 : EReal)) (fun _ => rfl) (fun (n : Fin 1024) (d : Fin 768) => w (ix2 n d)) hV
    (k0_pay10 x w m (ix2 p (0 : Fin 1))) hmn
  rw [den_step x w m m' l p hm', hm, hl]
  have hfun : (fun d : Fin 768 => k0_pay2 w (k0_pay11 x w m m') (k0_pay12 x w m) acc (ix2 p d))
      = fun d : Fin 768 => Ideal.exp (⊥ - k0_pay10 x w m (ix2 p (0 : Fin 1))) * 0
        + ∑ n : Fin 1024, Ideal.exp (k0_pay9 x w (ix2 p n) - k0_pay10 x w m (ix2 p (0 : Fin 1))) * w (ix2 n d) := by
    funext d
    rw [num_step x w m m' acc p d hm', hm, hacc d]
  rw [hfun]
  exact h

/-- A later codebook tile: from the law's state after j tiles the row's new triple is its state after j + 1. -/
theorem next_step (S : ℕ → Fin 1024 → ℝ) (V : ℕ → Fin 1024 → Fin 768 → ℝ) (j : ℕ)
    (x : Vec Ideal S512x768 .f32) (w : Vec Ideal S1024x768 .f32) (m m' l : Vec Ideal S512x1 .f32)
    (acc : Vec Ideal S512x768 .f32) (p : Fin 512)
    (hS : ∀ n : Fin 1024, k0_pay9 x w (ix2 p n) = (S j n : EReal))
    (hV : ∀ (n : Fin 1024) (d : Fin 768), w (ix2 n d) = (V j n d : EReal))
    (hm' : m' (ix2 p (0 : Fin 1)) = m (ix2 p (0 : Fin 1)))
    (hinv : OnlineSoftmax.Inv S V j (m (ix2 p (0 : Fin 1))) (l (ix2 p (0 : Fin 1)))
      (fun d : Fin 768 => acc (ix2 p d))) :
    OnlineSoftmax.Inv S V (j + 1) (k0_pay10 x w m (ix2 p (0 : Fin 1)))
      (k0_pay1 (k0_pay11 x w m m') (k0_pay12 x w m) l (ix2 p (0 : Fin 1)))
      (fun d : Fin 768 => k0_pay2 w (k0_pay11 x w m m') (k0_pay12 x w m) acc (ix2 p d)) := by
  have h := OnlineSoftmax.next_block S V (by norm_num) j (fun n : Fin 1024 => k0_pay9 x w (ix2 p n)) hS
    (fun _ => (1 : EReal)) (fun _ => rfl) (fun (n : Fin 1024) (d : Fin 768) => w (ix2 n d)) hV
    (m (ix2 p (0 : Fin 1))) (l (ix2 p (0 : Fin 1))) (fun d : Fin 768 => acc (ix2 p d)) hinv
    (k0_pay10 x w m (ix2 p (0 : Fin 1))) (newmax_apply x w m p)
  rw [den_step x w m m' l p hm']
  have hfun : (fun d : Fin 768 => k0_pay2 w (k0_pay11 x w m m') (k0_pay12 x w m) acc (ix2 p d))
      = fun d : Fin 768 => Ideal.exp (m (ix2 p (0 : Fin 1)) - k0_pay10 x w m (ix2 p (0 : Fin 1))) * acc (ix2 p d)
        + ∑ n : Fin 1024, Ideal.exp (k0_pay9 x w (ix2 p n) - k0_pay10 x w m (ix2 p (0 : Fin 1))) * w (ix2 n d) :=
    funext fun d => num_step x w m m' acc p d hm'
  rw [hfun]
  exact h

/-- The output of row p at coordinate d, from the law's state after j ≥ 1 tiles: the softmax-weighted mean of the
    codebook entries over those tiles, at any real shift M. -/
theorem out_step (S : ℕ → Fin 1024 → ℝ) (V : ℕ → Fin 1024 → Fin 768 → ℝ) (j : ℕ) (hj : 0 < j)
    (mv : EReal) (l : Vec Ideal S512x1 .f32) (acc : Vec Ideal S512x768 .f32) (p : Fin 512) (d : Fin 768)
    (hinv : OnlineSoftmax.Inv S V j mv (l (ix2 p (0 : Fin 1))) (fun d : Fin 768 => acc (ix2 p d))) (M : ℝ) :
    k0_pay4 acc l (ix2 p d) = ((OnlineSoftmax.num S V j M d / OnlineSoftmax.den S j M : ℝ) : EReal) := by
  rw [out_apply]
  exact OnlineSoftmax.quotient S V (by norm_num) j hj mv (l (ix2 p (0 : Fin 1))) (fun d : Fin 768 => acc (ix2 p d))
    hinv M d

end Cert.KernelIdeal.Tile

end
-- ==== Proof.TileConst.lean ====
/-
  The two float constants of the tile body as extended reals: the pattern 0x3F800000 is 1, and the guard
  0x322BCC77 is the positive real 11258999 / 2^50 (about 1e-8).
-/
import proofs.«155410_j47107201302664_1_alg».proof.Proof.TileRead

namespace Cert.KernelIdeal.Tile

open Idealize.ShloMosaic

/-- The f32 pattern of 1 denotes 1. -/
theorem oneF_eq : oneF = 1 := by
  show Ideal.ofBits .f32 0x3F800000#32 = 1
  simp [Ideal.ofBits, Ideal.ieee]
  rw [← EReal.coe_mul]
  norm_num

/-- The guard denotes a positive real. -/
theorem eps_real : ∃ r : ℝ, 0 < r ∧ eps = (r : EReal) := by
  show ∃ r : ℝ, 0 < r ∧ Ideal.ofBits .f32 0x322BCC77#32 = (r : EReal)
  simp [Ideal.ofBits, Ideal.ieee]
  refine ⟨(11258999 : ℝ) * ((2 : ℝ) ^ 50)⁻¹, by positivity, ?_⟩
  rw [EReal.coe_mul]

end Cert.KernelIdeal.Tile
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibBlockedSoftmax.lean ====
/-
  A plain softmax-weighted mean over T = J * B columns, read block by block.

  One program computes, for a row of real scores Sc over T columns and real values Vc,

      ∑ c, (exp (s c - mx) / (0 + ∑ c', exp (s c' - mx))) * v c     with mx = max ⊥ (the largest score),

  dividing every weight by the weight sum before the weighted sum is taken. On the extended reals, for real data,
  this is the real number (∑ c, exp (Sc c - M) * Vc c) / (∑ c, exp (Sc c - M)) with M the real maximum; grouping the
  T columns into J blocks of B (column kk of block j is column j * B + kk) and cancelling the common factor
  exp (M - 0) of numerator and denominator, it is the quotient of the blocked sums at shift 0 — the form the
  block-by-block accumulation ends with (whose own shift cancels the same way).
-/
import proofs.«155410_j47107201302664_1_alg».proof.Proof.LibOnlineSoftmax
import proofs.«155410_j47107201302664_1_alg».proof.Proof.LibGroupedSum

noncomputable section

namespace BlockedSoftmax

open Idealize.ShloMosaic

variable {ι : Type}

/-- Column kk of block j among T columns (wrapped below T, which changes nothing while j * B + kk < T). -/
def col (B T : ℕ) (hT : 0 < T) (j : ℕ) (kk : Fin B) : Fin T := ⟨(j * B + kk.val) % T, Nat.mod_lt _ hT⟩

theorem col_of_lt {J B T : ℕ} (h : J * B = T) (hT : 0 < T) (j : Fin J) (kk : Fin B) :
    col B T hT j.val kk = ⟨j.val * B + kk.val, GroupedSum.group_lt h j kk⟩ :=
  Fin.ext (Nat.mod_eq_of_lt (GroupedSum.group_lt h j kk))

theorem col_val {B T : ℕ} (hT : 0 < T) (j : ℕ) (kk : Fin B) (hlt : j * B + kk.val < T) :
    (col B T hT j kk).val = j * B + kk.val := Nat.mod_eq_of_lt hlt

/-- A real sum over all T columns is the sum over the J blocks of the block sums. -/
theorem sum_cols {J B T : ℕ} (h : J * B = T) (hT : 0 < T) (f : Fin T → ℝ) :
    ∑ c : Fin T, f c = ∑ j ∈ Finset.range J, ∑ kk : Fin B, f (col B T hT j kk) := by
  rw [GroupedSum.sum_groups h f, ← Fin.sum_univ_eq_sum_range (fun j => ∑ kk : Fin B, f (col B T hT j kk)) J]
  refine Finset.sum_congr rfl fun j _ => Finset.sum_congr rfl fun kk _ => ?_
  rw [col_of_lt h hT j kk]

/-- The divide-early softmax-weighted mean of real data is the blocked quotient at shift 0. -/
theorem plain_eq_blocked {J B T : ℕ} (h : J * B = T) (hT : 0 < T)
    (Sc : Fin T → ℝ) (Vc : Fin T → ι → ℝ) (e : ι)
    (s : Fin T → EReal) (hs : ∀ c, s c = (Sc c : EReal))
    (v : Fin T → EReal) (hv : ∀ c, v c = (Vc c e : EReal))
    (mx : EReal) (hmx : mx = max ⊥ ((Finset.univ : Finset (Fin T)).fold max ⊥ s))
    (z : EReal) (hz : z = 0) :
    ∑ c, Ideal.div (Ideal.exp (s c - mx)) (z + ∑ c', Ideal.exp (s c' - mx)) * v c
      = ((OnlineSoftmax.num (fun j kk => Sc (col B T hT j kk)) (fun j kk e => Vc (col B T hT j kk) e) J 0 e
          / OnlineSoftmax.den (fun j kk => Sc (col B T hT j kk)) J 0 : ℝ) : EReal) := by
  obtain ⟨M, hM⟩ := Attn.rowMax_real Sc ⟨0, hT⟩
  have hs' : s = fun c => (Sc c : EReal) := funext hs
  have hmx' : mx = (M : EReal) := by
    rw [hmx, hs']; unfold Attn.rowMax at hM; rw [hM]; exact max_eq_right bot_le
  have hw : ∀ c, Ideal.exp (s c - mx) = ((Real.exp (Sc c - M) : ℝ) : EReal) := fun c => by
    rw [hs c, hmx', ← EReal.coe_sub, Ideal.exp_coe]
  obtain ⟨D, hD⟩ : ∃ D : ℝ, D = ∑ c, Real.exp (Sc c - M) := ⟨_, rfl⟩
  have hDpos : 0 < D := by
    rw [hD]; exact Finset.sum_pos (fun c _ => Real.exp_pos _) ⟨⟨0, hT⟩, Finset.mem_univ _⟩
  have hden : z + ∑ c', Ideal.exp (s c' - mx) = (D : EReal) := by
    rw [hz, zero_add, hD, Attn.coe_sum]; exact Finset.sum_congr rfl fun c _ => hw c
  rw [hden]
  have hterm : ∀ c, Ideal.div (Ideal.exp (s c - mx)) (D : EReal) * v c
      = ((Real.exp (Sc c - M) * (1 / D) * Vc c e : ℝ) : EReal) := fun c => by
    rw [Ideal.div_coe hDpos.ne', hw c, hv c, ← EReal.coe_mul, ← EReal.coe_mul]
  rw [Finset.sum_congr rfl fun c _ => hterm c, ← Attn.coe_sum]
  congr 1
  have hN : ∑ c, Real.exp (Sc c - M) * (1 / D) * Vc c e = (∑ c, Real.exp (Sc c - M) * Vc c e) / D := by
    rw [Finset.sum_div]; exact Finset.sum_congr rfl fun c _ => by ring
  rw [hN, hD, sum_cols h hT (fun c => Real.exp (Sc c - M) * Vc c e), sum_cols h hT (fun c => Real.exp (Sc c - M))]
  show OnlineSoftmax.num (fun j kk => Sc (col B T hT j kk)) (fun j kk e => Vc (col B T hT j kk) e) J M e
      / OnlineSoftmax.den (fun j kk => Sc (col B T hT j kk)) J M = _
  rw [← OnlineSoftmax.den_shift _ J M 0, ← OnlineSoftmax.num_shift _ _ J M 0 e,
    mul_div_mul_left _ _ (Real.exp_pos _).ne']

end BlockedSoftmax

end
-- ==== Proof.TileChain.lean ====
/-
  The sixteen codebook tiles of one batch tile, chained, and the output as a softmax-weighted sum over all rows.

  For projected rows X and the codebook cut into 16 tiles of 1024 rows, the body leaves after tile j a triple
  (running maximum, weight sum, weighted sum), each computed from the previous triple and tile j; the triple
  before tile 0 is (-∞, 0, 0). For real data the distance of row p of X to codebook row n,

      D n = 1 - ∑ k, (X (p, k) / max ‖X p‖ ε) * (cb n k / max ‖cb n‖ ε) ,

  is a real: a sum of squares of reals is a nonnegative real, its square root is a real, the larger of that and the
  positive guard ε is a positive real, and a real divided by a nonzero real is a real. The distances of tile j are
  the D of rows j * 1024 + n. So the block-by-block softmax law applies tile after tile: after all 16 tiles the
  triple is (μ, ∑ exp (D - μ), ∑ exp (D - μ) * cb) for a real μ, the final quotient is the softmax-weighted mean
  of the codebook rows, and that mean is also what dividing every weight by the weight sum first and summing over
  all 16384 rows gives.
-/
import proofs.«155410_j47107201302664_1_alg».proof.Proof.TileStep
import proofs.«155410_j47107201302664_1_alg».proof.Proof.TileConst
import proofs.«155410_j47107201302664_1_alg».proof.Proof.LibBlockedSoftmax

noncomputable section

namespace Cert.KernelIdeal.Tile

open Cert.KernelIdeal Cert.KernelIdeal.Gen Idealize.ShloMosaic Idealize.ShloMosaic.ValueIdx

/-- Sixteen tiles of 1024 rows are the 16384 codebook rows. -/
theorem tiles_eq : 16 * 1024 = 16384 := by norm_num

theorem rows_pos : 0 < 16384 := by norm_num

/-! ## The chain of triples -/

/-- The triple (running maximum, weight sum, weighted sum) the body leaves after codebook tile j, from the reset
    triple before tile 0. -/
def tileState (X : Vec Ideal S512x768 .f32) (w : ℕ → Vec Ideal S1024x768 .f32) :
    ℕ → FVec Ideal S512x1 .f32 × FVec Ideal S512x1 .f32 × FVec Ideal S512x768 .f32
  | 0 =>
    (k0_pay3 (k0_pay10 X (w 0) (k0_pay6 (F := Ideal))),
     k0_pay1 (k0_pay11 X (w 0) (k0_pay6 (F := Ideal)) (k0_pay6 (F := Ideal))) (k0_pay12 X (w 0) (k0_pay6 (F := Ideal)))
       (k0_pay7 (F := Ideal)),
     k0_pay2 (w 0) (k0_pay11 X (w 0) (k0_pay6 (F := Ideal)) (k0_pay6 (F := Ideal)))
       (k0_pay12 X (w 0) (k0_pay6 (F := Ideal))) (k0_pay8 (F := Ideal)))
  | j + 1 =>
    (k0_pay3 (k0_pay10 X (w (j + 1)) (tileState X w j).1),
     k0_pay1 (k0_pay11 X (w (j + 1)) (tileState X w j).1 (tileState X w j).1)
       (k0_pay12 X (w (j + 1)) (tileState X w j).1) (tileState X w j).2.1,
     k0_pay2 (w (j + 1)) (k0_pay11 X (w (j + 1)) (tileState X w j).1 (tileState X w j).1)
       (k0_pay12 X (w (j + 1)) (tileState X w j).1) (tileState X w j).2.2)

theorem tileState_zero (X : Vec Ideal S512x768 .f32) (w : ℕ → Vec Ideal S1024x768 .f32) :
    tileState X w 0
      = (k0_pay3 (k0_pay10 X (w 0) (k0_pay6 (F := Ideal))),
         k0_pay1 (k0_pay11 X (w 0) (k0_pay6 (F := Ideal)) (k0_pay6 (F := Ideal)))
           (k0_pay12 X (w 0) (k0_pay6 (F := Ideal))) (k0_pay7 (F := Ideal)),
         k0_pay2 (w 0) (k0_pay11 X (w 0) (k0_pay6 (F := Ideal)) (k0_pay6 (F := Ideal)))
           (k0_pay12 X (w 0) (k0_pay6 (F := Ideal))) (k0_pay8 (F := Ideal))) := rfl

theorem tileState_succ (X : Vec Ideal S512x768 .f32) (w : ℕ → Vec Ideal S1024x768 .f32) (j : ℕ) :
    tileState X w (j + 1)
      = (k0_pay3 (k0_pay10 X (w (j + 1)) (tileState X w j).1),
         k0_pay1 (k0_pay11 X (w (j + 1)) (tileState X w j).1 (tileState X w j).1)
           (k0_pay12 X (w (j + 1)) (tileState X w j).1) (tileState X w j).2.1,
         k0_pay2 (w (j + 1)) (k0_pay11 X (w (j + 1)) (tileState X w j).1 (tileState X w j).1)
           (k0_pay12 X (w (j + 1)) (tileState X w j).1) (tileState X w j).2.2) := rfl

/-! ## Real entries stay real -/

/-- An entry of a real row divided by the larger of the row's norm and the guard is a real. -/
theorem unit_real {b : ℕ} (f : Fin b → EReal) (hf : ∀ j, ∃ r : ℝ, f j = (r : EReal)) (k : Fin b) :
    ∃ r : ℝ, Ideal.div (f k) (max (Ideal.sqrt (∑ j, f j * f j)) eps) = (r : EReal) := by
  choose F hF using hf
  obtain ⟨e, he, hee⟩ := eps_real
  have hsum : ∑ j, f j * f j = ((∑ j, F j * F j : ℝ) : EReal) := by
    rw [Attn.coe_sum]
    exact Finset.sum_congr rfl fun j _ => by rw [hF, EReal.coe_mul]
  have hnn : ¬ (∑ j, F j * F j) < 0 := not_lt.mpr (Finset.sum_nonneg fun j _ => mul_self_nonneg _)
  have hmax : max (Ideal.sqrt (∑ j, f j * f j)) eps = ((max (Real.sqrt (∑ j, F j * F j)) e : ℝ) : EReal) := by
    rw [hsum, Ideal.sqrt_coe, if_neg hnn, hee]
    exact (EReal.coe_strictMono.monotone.map_max).symm
  have hpos : 0 < max (Real.sqrt (∑ j, F j * F j)) e := lt_max_of_lt_right he
  refine ⟨F k * (1 / max (Real.sqrt (∑ j, F j * F j)) e), ?_⟩
  rw [hmax, Ideal.div_coe hpos.ne', hF, EReal.coe_mul]

/-- The distance of row p of X to codebook row n: 1 minus the cosine of the two rows, each divided by the larger of
    its norm and the guard. -/
def rowDist (X : Vec Ideal S512x768 .f32) (cb : Fin 16384 → Fin 768 → EReal) (p : Fin 512) (n : Fin 16384) : EReal :=
  oneF - ∑ k : Fin 768,
    Ideal.div (X (ix2 p k)) (max (Ideal.sqrt (∑ j : Fin 768, X (ix2 p j) * X (ix2 p j))) eps)
      * Ideal.div (cb n k) (max (Ideal.sqrt (∑ j : Fin 768, cb n j * cb n j)) eps)

/-- For real rows the distance is a real. -/
theorem rowDist_real (X : Vec Ideal S512x768 .f32) (cb : Fin 16384 → Fin 768 → EReal)
    (hX : ∀ (p : Fin 512) (k : Fin 768), ∃ r : ℝ, X (ix2 p k) = (r : EReal))
    (hcb : ∀ (n : Fin 16384) (k : Fin 768), ∃ r : ℝ, cb n k = (r : EReal)) (p : Fin 512) (n : Fin 16384) :
    ∃ r : ℝ, rowDist X cb p n = (r : EReal) := by
  obtain ⟨r, hr⟩ : ∃ r : ℝ, ∑ k : Fin 768,
      Ideal.div (X (ix2 p k)) (max (Ideal.sqrt (∑ j : Fin 768, X (ix2 p j) * X (ix2 p j))) eps)
        * Ideal.div (cb n k) (max (Ideal.sqrt (∑ j : Fin 768, cb n j * cb n j)) eps) = (r : EReal) :=
    Attn.sum_mul_real
      (fun k : Fin 768 => Ideal.div (X (ix2 p k)) (max (Ideal.sqrt (∑ j : Fin 768, X (ix2 p j) * X (ix2 p j))) eps))
      (fun k : Fin 768 => Ideal.div (cb n k) (max (Ideal.sqrt (∑ j : Fin 768, cb n j * cb n j)) eps))
      (fun k => unit_real (fun j : Fin 768 => X (ix2 p j)) (hX p) k) (fun k => unit_real (cb n) (hcb n) k)
  refine ⟨1 - r, ?_⟩
  unfold rowDist
  rw [hr, oneF_eq, EReal.coe_sub, EReal.coe_one]

/-- The distances of codebook tile j are the distances to rows j * 1024 + n. -/
theorem tile_dist (X : Vec Ideal S512x768 .f32) (w : ℕ → Vec Ideal S1024x768 .f32)
    (cb : Fin 16384 → Fin 768 → EReal)
    (hw : ∀ (j : Fin 16) (n : Fin 1024) (k : Fin 768),
      w j.val (ix2 n k) = cb ⟨j.val * 1024 + n.val, GroupedSum.group_lt tiles_eq j n⟩ k)
    (j : Fin 16) (p : Fin 512) (n : Fin 1024) :
    k0_pay9 X (w j.val) (ix2 p n) = rowDist X cb p ⟨j.val * 1024 + n.val, GroupedSum.group_lt tiles_eq j n⟩ := by
  rw [dist_apply]
  unfold rowDist
  simp only [hw j n]

/-! ## The law along the chain -/

/-- After codebook tile j the triple of row p is the block-by-block law's state after j + 1 blocks. -/
theorem chain_inv (X : Vec Ideal S512x768 .f32) (w : ℕ → Vec Ideal S1024x768 .f32)
    (cb : Fin 16384 → Fin 768 → EReal)
    (hw : ∀ (j : Fin 16) (n : Fin 1024) (k : Fin 768),
      w j.val (ix2 n k) = cb ⟨j.val * 1024 + n.val, GroupedSum.group_lt tiles_eq j n⟩ k)
    (p : Fin 512) (Sc : Fin 16384 → ℝ) (Vc : Fin 16384 → Fin 768 → ℝ)
    (hSc : ∀ n, rowDist X cb p n = (Sc n : EReal)) (hVc : ∀ n d, cb n d = (Vc n d : EReal)) :
    ∀ j : ℕ, j < 16 →
      OnlineSoftmax.Inv (fun j kk => Sc (BlockedSoftmax.col 1024 16384 rows_pos j kk))
        (fun j kk e => Vc (BlockedSoftmax.col 1024 16384 rows_pos j kk) e) (j + 1)
        ((tileState X w j).1 (ix2 p (0 : Fin 1))) ((tileState X w j).2.1 (ix2 p (0 : Fin 1)))
        (fun d : Fin 768 => (tileState X w j).2.2 (ix2 p d)) := by
  have hcol : ∀ (j : ℕ) (hj : j < 16) (n : Fin 1024), BlockedSoftmax.col 1024 16384 rows_pos j n
      = ⟨j * 1024 + n.val, GroupedSum.group_lt tiles_eq ⟨j, hj⟩ n⟩ :=
    fun j hj n => BlockedSoftmax.col_of_lt tiles_eq rows_pos ⟨j, hj⟩ n
  have hS : ∀ (j : ℕ) (hj : j < 16) (n : Fin 1024),
      k0_pay9 X (w j) (ix2 p n) = ((Sc (BlockedSoftmax.col 1024 16384 rows_pos j n) : ℝ) : EReal) := fun j hj n => by
    rw [hcol j hj n, ← hSc]
    exact tile_dist X w cb hw ⟨j, hj⟩ p n
  have hV : ∀ (j : ℕ) (hj : j < 16) (n : Fin 1024) (d : Fin 768),
      w j (ix2 n d) = ((Vc (BlockedSoftmax.col 1024 16384 rows_pos j n) d : ℝ) : EReal) := fun j hj n d => by
    rw [hcol j hj n, ← hVc]
    exact hw ⟨j, hj⟩ n d
  intro j
  induction j with
  | zero =>
    intro h0
    rw [tileState_zero]
    dsimp only
    rw [keep_eq]
    exact first_step _ _ X (w 0) (k0_pay6 (F := Ideal)) (k0_pay6 (F := Ideal)) (k0_pay7 (F := Ideal))
      (k0_pay8 (F := Ideal)) p (hS 0 h0) (hV 0 h0) (congrFun resetMax_eq _) rfl (congrFun resetDen_eq _)
      (fun d => congrFun resetNum_eq _)
  | succ j ih =>
    intro hj
    rw [tileState_succ]
    dsimp only
    rw [keep_eq]
    exact next_step _ _ (j + 1) X (w (j + 1)) (tileState X w j).1 (tileState X w j).1 (tileState X w j).2.1
      (tileState X w j).2.2 p (hS (j + 1) hj) (hV (j + 1) hj) rfl (ih (by omega))

/-- The output of row p at coordinate d after the sixteen tiles, for real data: every weight exp (D n - M), M the
    largest distance of the row, divided by the sum of all weights, against column d of the codebook, summed over
    all 16384 rows. -/
theorem chain_out (X : Vec Ideal S512x768 .f32) (w : ℕ → Vec Ideal S1024x768 .f32)
    (cb : Fin 16384 → Fin 768 → EReal)
    (hX : ∀ (p : Fin 512) (k : Fin 768), ∃ r : ℝ, X (ix2 p k) = (r : EReal))
    (hcb : ∀ (n : Fin 16384) (k : Fin 768), ∃ r : ℝ, cb n k = (r : EReal))
    (hw : ∀ (j : Fin 16) (n : Fin 1024) (k : Fin 768),
      w j.val (ix2 n k) = cb ⟨j.val * 1024 + n.val, GroupedSum.group_lt tiles_eq j n⟩ k)
    (p : Fin 512) (d : Fin 768) :
    k0_pay4 (F := Ideal) (tileState X w 15).2.2 (tileState X w 15).2.1 (ix2 p d)
      = ∑ n : Fin 16384,
          Ideal.div (Ideal.exp (rowDist X cb p n - (Finset.univ : Finset (Fin 16384)).fold max ⊥ (rowDist X cb p)))
              (∑ n' : Fin 16384,
                Ideal.exp (rowDist X cb p n' - (Finset.univ : Finset (Fin 16384)).fold max ⊥ (rowDist X cb p)))
            * cb n d := by
  choose Sc hSc using rowDist_real X cb hX hcb p
  choose Vc hVc using hcb
  have hinv := chain_inv X w cb hw p Sc Vc hSc hVc 15 (by norm_num)
  have hout := out_step (fun j kk => Sc (BlockedSoftmax.col 1024 16384 rows_pos j kk))
    (fun j kk e => Vc (BlockedSoftmax.col 1024 16384 rows_pos j kk) e) 16 (by norm_num) _
    (tileState X w 15).2.1 (tileState X w 15).2.2 p d hinv 0
  rw [hout]
  have hb := BlockedSoftmax.plain_eq_blocked tiles_eq rows_pos Sc Vc d (rowDist X cb p) hSc (fun n => cb n d)
    (fun n => hVc n d) ((Finset.univ : Finset (Fin 16384)).fold max ⊥ (rowDist X cb p))
    (max_eq_right bot_le).symm 0 rfl
  rw [zero_add] at hb
  exact hb.symm

/-! ## The projection of real data is real -/

/-- With real inputs, weights and bias every projected entry is a real. -/
theorem proj_real (inp : Vec Ideal S512x1024 .f32) (pw : Vec Ideal S768x1024 .f32) (pb : Vec Ideal S1x768 .f32)
    (hinp : ∀ i, ∃ r : ℝ, inp i = (r : EReal)) (hpw : ∀ i, ∃ r : ℝ, pw i = (r : EReal))
    (hpb : ∀ i, ∃ r : ℝ, pb i = (r : EReal)) (p : Fin 512) (q : Fin 768) :
    ∃ r : ℝ, k0_pay5 inp pw pb (ix2 p q) = (r : EReal) := by
  obtain ⟨r, hr⟩ : ∃ r : ℝ, ∑ e : Fin 1024, inp (ix2 p e) * pw (ix2 q e) = (r : EReal) :=
    Attn.sum_mul_real (fun e : Fin 1024 => inp (ix2 p e)) (fun e : Fin 1024 => pw (ix2 q e))
      (fun e => hinp _) (fun e => hpw _)
  obtain ⟨b, hb⟩ := hpb (ix2 (0 : Fin 1) q)
  exact ⟨r + b, by rw [proj_apply, hr, hb, EReal.coe_add]⟩

end Cert.KernelIdeal.Tile

end
-- ==== Proof.IdealChain.lean ====
/-
  The scratch contents after each grid point, as the chain of triples over the sixteen codebook tiles of a batch tile: at
  the first tile the projected rows of the batch tile's input block and the triple after tile 0; at every later tile the
  same rows and the next triple; at the last tile the output window holds the quotient of the last triple's sums.
-/
import proofs.«155410_j47107201302664_1_alg».proof.Proof.IdealSteps
import proofs.«155410_j47107201302664_1_alg».proof.Proof.TileChain

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.KernelIdeal.Tile

/-- One step of the recursion, away from a first tile: the rows are kept, the triple is updated with the point's codebook
    block, and at a last tile the output window's buffer holds the quotient of the updated sums. -/
theorem outsAt0_step (c : Dev nD) (n : ℕ) (hn : n + 1 < cfg0.N) (h0 : ¬(n + 1) % 16 = 0) :
    (outsAt0 m c (n + 1) hn).2.1 = (outsAt0 m c n (Nat.lt_of_succ_lt hn)).2.1
    ∧ (outsAt0 m c (n + 1) hn).2.2
        = (k0_pay3 (k0_pay10 (outsAt0 m c n (Nat.lt_of_succ_lt hn)).2.1 (iblk m c 3 ⟨n + 1, hn⟩) (outsAt0 m c n (Nat.lt_of_succ_lt hn)).2.2.1),
           k0_pay1 (k0_pay11 (outsAt0 m c n (Nat.lt_of_succ_lt hn)).2.1 (iblk m c 3 ⟨n + 1, hn⟩) (outsAt0 m c n (Nat.lt_of_succ_lt hn)).2.2.1 (outsAt0 m c n (Nat.lt_of_succ_lt hn)).2.2.1) (k0_pay12 (outsAt0 m c n (Nat.lt_of_succ_lt hn)).2.1 (iblk m c 3 ⟨n + 1, hn⟩) (outsAt0 m c n (Nat.lt_of_succ_lt hn)).2.2.1) (outsAt0 m c n (Nat.lt_of_succ_lt hn)).2.2.2.1,
           k0_pay2 (iblk m c 3 ⟨n + 1, hn⟩) (k0_pay11 (outsAt0 m c n (Nat.lt_of_succ_lt hn)).2.1 (iblk m c 3 ⟨n + 1, hn⟩) (outsAt0 m c n (Nat.lt_of_succ_lt hn)).2.2.1 (outsAt0 m c n (Nat.lt_of_succ_lt hn)).2.2.1) (k0_pay12 (outsAt0 m c n (Nat.lt_of_succ_lt hn)).2.1 (iblk m c 3 ⟨n + 1, hn⟩) (outsAt0 m c n (Nat.lt_of_succ_lt hn)).2.2.1) (outsAt0 m c n (Nat.lt_of_succ_lt hn)).2.2.2.2)
    ∧ ((n + 1) % 16 = 15 → (outsAt0 m c (n + 1) hn).1
        = k0_pay4 (k0_pay2 (iblk m c 3 ⟨n + 1, hn⟩) (k0_pay11 (outsAt0 m c n (Nat.lt_of_succ_lt hn)).2.1 (iblk m c 3 ⟨n + 1, hn⟩) (outsAt0 m c n (Nat.lt_of_succ_lt hn)).2.2.1 (outsAt0 m c n (Nat.lt_of_succ_lt hn)).2.2.1) (k0_pay12 (outsAt0 m c n (Nat.lt_of_succ_lt hn)).2.1 (iblk m c 3 ⟨n + 1, hn⟩) (outsAt0 m c n (Nat.lt_of_succ_lt hn)).2.2.1) (outsAt0 m c n (Nat.lt_of_succ_lt hn)).2.2.2.2)
            (k0_pay1 (k0_pay11 (outsAt0 m c n (Nat.lt_of_succ_lt hn)).2.1 (iblk m c 3 ⟨n + 1, hn⟩) (outsAt0 m c n (Nat.lt_of_succ_lt hn)).2.2.1 (outsAt0 m c n (Nat.lt_of_succ_lt hn)).2.2.1) (k0_pay12 (outsAt0 m c n (Nat.lt_of_succ_lt hn)).2.1 (iblk m c 3 ⟨n + 1, hn⟩) (outsAt0 m c n (Nat.lt_of_succ_lt hn)).2.2.1) (outsAt0 m c n (Nat.lt_of_succ_lt hn)).2.2.2.1)) := by
  by_cases h1 : (n + 1) % 16 = 15
  · have e : outsAt0 m c (n + 1) hn = stepLast m c ⟨n + 1, hn⟩ (fun h => h0 ((hcond0_0 ⟨n + 1, hn⟩).mp h)) ((hcond0_1 ⟨n + 1, hn⟩).mpr h1) (outsAt0 m c n (Nat.lt_of_succ_lt hn)) := by
      rw [outsAt0]; exact (dif_neg h0).trans (dif_pos h1)
    rw [e, stepLast_eq]
    exact ⟨rfl, rfl, fun _ => rfl⟩
  · have e : outsAt0 m c (n + 1) hn = stepMiddle m c ⟨n + 1, hn⟩ (fun h => h0 ((hcond0_0 ⟨n + 1, hn⟩).mp h)) (fun h => h1 ((hcond0_1 ⟨n + 1, hn⟩).mp h)) (outsAt0 m c n (Nat.lt_of_succ_lt hn)) := by
      rw [outsAt0]; exact (dif_neg h0).trans (dif_neg h1)
    rw [e, stepMiddle_eq]
    exact ⟨rfl, rfl, fun h => absurd h h1⟩

/-- At a first tile: the rows are projected from the point's input blocks and the triple is the one after tile 0. -/
theorem outsAt0_first (c : Dev nD) (n : ℕ) (hn : n < cfg0.N) (h0 : n % 16 = 0) :
    (outsAt0 m c n hn).2.1 = k0_pay5 (iblk m c 0 ⟨n, hn⟩) (iblk m c 1 ⟨n, hn⟩) (iblk m c 2 ⟨n, hn⟩)
    ∧ (outsAt0 m c n hn).2.2
        = (k0_pay3 (k0_pay10 (k0_pay5 (iblk m c 0 ⟨n, hn⟩) (iblk m c 1 ⟨n, hn⟩) (iblk m c 2 ⟨n, hn⟩)) (iblk m c 3 ⟨n, hn⟩) (k0_pay6 (F := Ideal))),
           k0_pay1 (k0_pay11 (k0_pay5 (iblk m c 0 ⟨n, hn⟩) (iblk m c 1 ⟨n, hn⟩) (iblk m c 2 ⟨n, hn⟩)) (iblk m c 3 ⟨n, hn⟩) (k0_pay6 (F := Ideal)) (k0_pay6 (F := Ideal))) (k0_pay12 (k0_pay5 (iblk m c 0 ⟨n, hn⟩) (iblk m c 1 ⟨n, hn⟩) (iblk m c 2 ⟨n, hn⟩)) (iblk m c 3 ⟨n, hn⟩) (k0_pay6 (F := Ideal))) (k0_pay7 (F := Ideal)),
           k0_pay2 (iblk m c 3 ⟨n, hn⟩) (k0_pay11 (k0_pay5 (iblk m c 0 ⟨n, hn⟩) (iblk m c 1 ⟨n, hn⟩) (iblk m c 2 ⟨n, hn⟩)) (iblk m c 3 ⟨n, hn⟩) (k0_pay6 (F := Ideal)) (k0_pay6 (F := Ideal))) (k0_pay12 (k0_pay5 (iblk m c 0 ⟨n, hn⟩) (iblk m c 1 ⟨n, hn⟩) (iblk m c 2 ⟨n, hn⟩)) (iblk m c 3 ⟨n, hn⟩) (k0_pay6 (F := Ideal))) (k0_pay8 (F := Ideal))) := by
  have e := outsAt0_First m c ⟨n, hn⟩ h0 (by show ¬n % 16 = 15; omega)
  rw [stepFirst_eq] at e
  have e' : outsAt0 m c n hn = _ := e
  rw [e']
  exact ⟨rfl, rfl⟩

/-- The projected rows of batch tile i0 and its codebook tiles, as the windows' blocks. -/
def tileRows (c : Dev nD) (i0 : ℕ) (h : 16 * i0 < cfg0.N) : Vec Ideal S512x768 .f32 :=
  k0_pay5 (iblk m c 0 ⟨16 * i0, h⟩) (iblk m c 1 ⟨16 * i0, h⟩) (iblk m c 2 ⟨16 * i0, h⟩)

def tileCb (c : Dev nD) (i0 : ℕ) : ℕ → Vec Ideal S1024x768 .f32 := fun j =>
  if h : 16 * i0 + j < cfg0.N then iblk m c 3 ⟨16 * i0 + j, h⟩ else fun _ => 0

theorem tileCb_at (c : Dev nD) (i0 j : ℕ) (h : 16 * i0 + j < cfg0.N) : tileCb m c i0 j = iblk m c 3 ⟨16 * i0 + j, h⟩ := dif_pos h

/-- After tile j of batch tile i0 the scratch holds the batch tile's rows and the chain's triple after tile j. -/
theorem chain_link (c : Dev nD) (i0 : ℕ) (h0 : 16 * i0 < cfg0.N) : ∀ (j : ℕ) (_ : j < 16) (h : 16 * i0 + j < cfg0.N),
    (outsAt0 m c (16 * i0 + j) h).2.1 = tileRows m c i0 h0
    ∧ (outsAt0 m c (16 * i0 + j) h).2.2 = tileState (tileRows m c i0 h0) (tileCb m c i0) j
  | 0, _, h => by
    obtain ⟨e1, e2⟩ := outsAt0_first m c (16 * i0 + 0) h (by omega)
    refine ⟨e1, e2.trans ?_⟩
    rw [tileState_zero, tileCb_at m c i0 0 h]
    rfl
  | j + 1, hj, h => by
    have hp : 16 * i0 + j < cfg0.N := by omega
    obtain ⟨ix, is⟩ := chain_link c i0 h0 j (by omega) hp
    obtain ⟨s1, s2, -⟩ := outsAt0_step m c (16 * i0 + j) h (by omega)
    refine ⟨s1.trans ix, s2.trans ?_⟩
    rw [tileState_succ, tileCb_at m c i0 (j + 1) h, ix,
      show (outsAt0 m c (16 * i0 + j) (Nat.lt_of_succ_lt h)).2.2.1 = (tileState (tileRows m c i0 h0) (tileCb m c i0) j).1 from congrArg (·.1) is,
      show (outsAt0 m c (16 * i0 + j) (Nat.lt_of_succ_lt h)).2.2.2.1 = (tileState (tileRows m c i0 h0) (tileCb m c i0) j).2.1 from congrArg (·.2.1) is,
      show (outsAt0 m c (16 * i0 + j) (Nat.lt_of_succ_lt h)).2.2.2.2 = (tileState (tileRows m c i0 h0) (tileCb m c i0) j).2.2 from congrArg (·.2.2) is]
    rfl

/-- At the last tile of batch tile i0 the output window's buffer holds the quotient of the last triple's sums. -/
theorem chain_last (c : Dev nD) (i0 : ℕ) (h0 : 16 * i0 < cfg0.N) (h : 16 * i0 + 15 < cfg0.N) :
    (outsAt0 m c (16 * i0 + 15) h).1
      = k0_pay4 (F := Ideal) (tileState (tileRows m c i0 h0) (tileCb m c i0) 15).2.2 (tileState (tileRows m c i0 h0) (tileCb m c i0) 15).2.1 := by
  have hp : 16 * i0 + 14 < cfg0.N := by omega
  obtain ⟨ix, is⟩ := chain_link m c i0 h0 14 (by omega) hp
  obtain ⟨-, -, s3⟩ := outsAt0_step m c (16 * i0 + 14) h (by omega)
  refine (s3 (by omega)).trans ?_
  rw [tileState_succ, tileCb_at m c i0 (14 + 1) h, ix,
    show (outsAt0 m c (16 * i0 + 14) (Nat.lt_of_succ_lt h)).2.2.1 = (tileState (tileRows m c i0 h0) (tileCb m c i0) 14).1 from congrArg (·.1) is,
    show (outsAt0 m c (16 * i0 + 14) (Nat.lt_of_succ_lt h)).2.2.2.1 = (tileState (tileRows m c i0 h0) (tileCb m c i0) 14).2.1 from congrArg (·.2.1) is,
    show (outsAt0 m c (16 * i0 + 14) (Nat.lt_of_succ_lt h)).2.2.2.2 = (tileState (tileRows m c i0 h0) (tileCb m c i0) 14).2.2 from congrArg (·.2.2) is]

end Cert.KernelIdeal.Region

end
-- ==== Proof.SoftMatchSpec.lean ====
/-
  The soft vector quantizer's result, as plain functions on the extended reals.

  An input row is projected,  x (b, k) = (∑ e, inp (b, 0, e) * pw (k, e)) + pb (k).  Row b of x and row n of the
  codebook cb are each divided by the larger of their Euclidean norm and a guard ε; one minus the inner product of the
  two is the distance  d (b, n).  The weights of row b are the softmax of its distances: with  m (b)  the largest
  distance of the row,  exp (d (b, n) - m (b))  over the sum of these over the whole codebook. The result at (b, e)
  is the weighted sum  ∑ n, weight (b, n) * cb (n, e),  each weight divided before it is multiplied.

  Every operation is the exact one on the extended reals; the sums are finite sums, the maximum is the fold of max
  from -∞. Nothing here is specific to a size: B rows, E input columns, K projected columns, N codebook rows.
-/
import Idealize.ShloMosaic.PureOps.Ideal
import Idealize.ShloMosaic.Lib.ValueIdx

noncomputable section

namespace SoftMatch

open Idealize.ShloMosaic Idealize.ShloMosaic.ValueIdx

/-- The guard against a zero norm: the f32 value nearest 1e-8. -/
abbrev eps : EReal := Ideal.ofBits .f32 0x322BCC77#32

/-- The f32 pattern of 1, as the extended real it denotes. -/
abbrev oneF : EReal := Ideal.ofBits .f32 0x3F800000#32

variable {B E K N : ℕ}

/-- The projection: row b of the input against row k of the weight matrix, plus the bias. -/
def X (inp : (⟨3, ![B, 1, E]⟩ : Shape).Idx → EReal) (pw : (⟨2, ![K, E]⟩ : Shape).Idx → EReal)
    (pb : (⟨1, ![K]⟩ : Shape).Idx → EReal) (b : Fin B) (k : Fin K) : EReal :=
  (∑ e : Fin E, inp (ix3 b (0 : Fin 1) e) * pw (ix2 k e)) + pb (ix1 k)

/-- The distance of a row x b from row n of the codebook: one minus the inner product of the two rows, each divided
    by the larger of its norm and the guard. -/
def dist (x : Fin B → Fin K → EReal) (cb : (⟨2, ![N, K]⟩ : Shape).Idx → EReal) (b : Fin B) (n : Fin N) : EReal :=
  oneF - ∑ k : Fin K,
    Ideal.div (x b k) (max (Ideal.sqrt (∑ j : Fin K, x b j * x b j)) eps)
      * Ideal.div (cb (ix2 n k)) (max (Ideal.sqrt (∑ j : Fin K, cb (ix2 n j) * cb (ix2 n j))) eps)

/-- The largest entry of row b of a table of distances: the fold of max from -∞. -/
def rowMax (dd : Fin B → Fin N → EReal) (b : Fin B) : EReal :=
  (Finset.univ : Finset (Fin N)).fold max ⊥ (fun n => dd b n)

/-- The softmax-weighted sum of the codebook's column e with the distances of row b, each weight divided by the
    weights' sum before it is multiplied. -/
def soft (dd : Fin B → Fin N → EReal) (cb : (⟨2, ![N, K]⟩ : Shape).Idx → EReal) (b : Fin B) (e : Fin K) : EReal :=
  ∑ n : Fin N, Ideal.div (Ideal.exp (dd b n - rowMax dd b)) (∑ n' : Fin N, Ideal.exp (dd b n' - rowMax dd b))
    * cb (ix2 n e)

/-- The distance of the projected row b from row n of the codebook. -/
def D (inp : (⟨3, ![B, 1, E]⟩ : Shape).Idx → EReal) (pw : (⟨2, ![K, E]⟩ : Shape).Idx → EReal)
    (pb : (⟨1, ![K]⟩ : Shape).Idx → EReal) (cb : (⟨2, ![N, K]⟩ : Shape).Idx → EReal) (b : Fin B) (n : Fin N) : EReal :=
  dist (X inp pw pb) cb b n

/-- The largest distance of the projected row b. -/
def M (inp : (⟨3, ![B, 1, E]⟩ : Shape).Idx → EReal) (pw : (⟨2, ![K, E]⟩ : Shape).Idx → EReal)
    (pb : (⟨1, ![K]⟩ : Shape).Idx → EReal) (cb : (⟨2, ![N, K]⟩ : Shape).Idx → EReal) (b : Fin B) : EReal :=
  rowMax (D inp pw pb cb) b

/-- The soft match of the projected row b, at column e. -/
def clueSpec (inp : (⟨3, ![B, 1, E]⟩ : Shape).Idx → EReal) (pw : (⟨2, ![K, E]⟩ : Shape).Idx → EReal)
    (pb : (⟨1, ![K]⟩ : Shape).Idx → EReal) (cb : (⟨2, ![N, K]⟩ : Shape).Idx → EReal) (b : Fin B) (e : Fin K) : EReal :=
  soft (D inp pw pb cb) cb b e

/-- The distance, written out. -/
theorem D_eq (inp : (⟨3, ![B, 1, E]⟩ : Shape).Idx → EReal) (pw : (⟨2, ![K, E]⟩ : Shape).Idx → EReal)
    (pb : (⟨1, ![K]⟩ : Shape).Idx → EReal) (cb : (⟨2, ![N, K]⟩ : Shape).Idx → EReal) (b : Fin B) (n : Fin N) :
    D inp pw pb cb b n
      = oneF - ∑ k : Fin K,
          Ideal.div (X inp pw pb b k) (max (Ideal.sqrt (∑ j : Fin K, X inp pw pb b j * X inp pw pb b j)) eps)
            * Ideal.div (cb (ix2 n k)) (max (Ideal.sqrt (∑ j : Fin K, cb (ix2 n j) * cb (ix2 n j))) eps) := rfl

/-- The largest distance, written out. -/
theorem M_eq (inp : (⟨3, ![B, 1, E]⟩ : Shape).Idx → EReal) (pw : (⟨2, ![K, E]⟩ : Shape).Idx → EReal)
    (pb : (⟨1, ![K]⟩ : Shape).Idx → EReal) (cb : (⟨2, ![N, K]⟩ : Shape).Idx → EReal) (b : Fin B) :
    M inp pw pb cb b = (Finset.univ : Finset (Fin N)).fold max ⊥ (fun n => D inp pw pb cb b n) := rfl

/-- The soft match, written out. -/
theorem clueSpec_eq (inp : (⟨3, ![B, 1, E]⟩ : Shape).Idx → EReal) (pw : (⟨2, ![K, E]⟩ : Shape).Idx → EReal)
    (pb : (⟨1, ![K]⟩ : Shape).Idx → EReal) (cb : (⟨2, ![N, K]⟩ : Shape).Idx → EReal) (b : Fin B) (e : Fin K) :
    clueSpec inp pw pb cb b e
      = ∑ n : Fin N, Ideal.div (Ideal.exp (D inp pw pb cb b n - M inp pw pb cb b))
            (∑ n' : Fin N, Ideal.exp (D inp pw pb cb b n' - M inp pw pb cb b))
          * cb (ix2 n e) := rfl

end SoftMatch

end
-- ==== Proof.LibTileForms.lean ====
/-
  A tile body's layout forms, read at an entry; every extent is generic.

  A body that works on an [a, b] tile meets these again and again: one row of an [m, b] block cut out as [1, b] and
  repeated down the tile's rows; a [1, b] row repeated the same way; a [b] vector recast to the row [1, b] first; a
  [1, a, b] slab viewed as the matrix [a, b], and the matrix stored back as a slab; a band of columns of a wide matrix
  loaded through its rectangle; an [a, b] array given a unit middle axis. Each lemma reads one form at an entry as the
  operand at the evident index.
-/
import Idealize.ShloMosaic.PureOps.Ideal.Laws
import Idealize.ShloMosaic.Lib.ValueIdx
import Idealize.ShloMosaic.Lib.ValueLayout
import Idealize.ShloMosaic.Lib.Pipeline.Value

namespace TileForms

open Idealize.ShloMosaic Idealize.ShloMosaic.ValueIdx

variable {a b m : ℕ} {α : Type}

/-- Row `k` of an [m, b] block, cut out at the literal offset `o = k` and repeated down an [a, b] tile, reads at
    (p, c) the block at (k, c). -/
theorem blockRow_apply (B : (⟨2, ![m, b]⟩ : Shape).Idx → α) (o : ℕ) (k : Fin m) (hk : k.val = o)
    (hs : (⟨2, ![m, b]⟩ : Shape).Slices ![o, 0] ⟨2, ![1, b]⟩)
    (hb : (⟨2, ![1, b]⟩ : Shape).Broadcasts ⟨2, ![a, b]⟩) (p : Fin a) (c : Fin b) :
    broadcastTo ⟨2, ![a, b]⟩ (extractStridedSlice ⟨2, ![1, b]⟩ ![o, 0] B hs) hb (ix2 p c) = B (ix2 k c) :=
  (broadcastTo_1b_ab_apply _ hb p c).trans (slice2_axis0_apply o B hs (0 : Fin 1) c k (by simpa using hk))

/-- A [b] vector recast to the row [1, b] reads, at (0, c), the vector at c. -/
theorem rowCast_apply (x : (⟨1, ![b]⟩ : Shape).Idx → α) (h1 : (⟨1, ![b]⟩ : Shape).ShapeCasts ⟨2, ![1, b]⟩) (c : Fin b) :
    shapeCast ⟨2, ![1, b]⟩ x h1 (ix2 (0 : Fin 1) c) = x (ix1 c) :=
  shapeCast_a_1a_apply x h1 0 c

/-- A [b] vector recast to the row [1, b] and repeated down an [a, b] tile reads, at (p, c), the vector at c. -/
theorem biasRow_apply (x : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x h1) hb (ix2 p c) = x (ix1 c) :=
  (broadcastTo_1b_ab_apply _ hb p c).trans (rowCast_apply x h1 c)

/-- A [1, a, b] slab viewed as the matrix [a, b] reads, at (p, c), the slab at (0, p, c). -/
theorem slabAsMatrix_apply (x : (⟨3, ![1, a, b]⟩ : Shape).Idx → α) (h : (⟨3, ![1, a, b]⟩ : Shape).ShapeCasts ⟨2, ![a, b]⟩)
    (p : Fin a) (c : Fin b) : shapeCast ⟨2, ![a, b]⟩ x h (ix2 p c) = x (ix3 (0 : Fin 1) p c) := by
  refine (shapeCast_dropUnit_apply ![a, b] x h (ix2 p c)).trans (congrArg x ?_)
  funext d
  match d with
  | ⟨0, _⟩ => rfl
  | ⟨1, _⟩ => rfl
  | ⟨2, _⟩ => rfl

/-- A matrix [a, b] stored as the slab [1, a, b] reads, at (0, p, c), the matrix at (p, c). -/
theorem matrixAsSlab_apply (x : (⟨2, ![a, b]⟩ : Shape).Idx → α) (h : (⟨2, ![a, b]⟩ : Shape).ShapeCasts ⟨3, ![1, a, b]⟩)
    (u : Fin 1) (p : Fin a) (c : Fin b) : shapeCast ⟨3, ![1, a, b]⟩ x h (ix3 u p c) = x (ix2 p c) := by
  refine (shapeCast_addUnit_apply ![a, b] x h (ix3 u p c)).trans (congrArg x ?_)
  funext d
  match d with
  | ⟨0, _⟩ => rfl
  | ⟨1, _⟩ => rfl

/-- A band of `n` columns of an [r, w] matrix starting at column `o`, loaded through its rectangle, reads at (u, d) the
    matrix at (u, o + d). -/
theorem ld_band {Val : EltTy → Type} {e : EltTy} {r w n : ℕ} (x : (⟨2, ![r, w]⟩ : Shape).Idx → Val e) (o : ℕ)
    (inb : ∀ ax, (![0, o] : Fin 2 → ℕ) ax + (⟨2, ![r, n]⟩ : Shape).size ax ≤ (⟨2, ![r, w]⟩ : Shape).size ax)
    (u : Fin r) (d : Fin n) (k : Fin w) (hk : k.val = o + d.val) :
    View.ld (Val := Val) x (Rect.unit (s := ⟨2, ![r, w]⟩) ![0, o] (⟨2, ![r, n]⟩ : Shape).size inb) (ix2 u d) = x (ix2 u k) := by
  show x ((Rect.unit (s := ⟨2, ![r, w]⟩) ![0, o] (⟨2, ![r, n]⟩ : Shape).size inb).emb (ix2 u d)) = _
  refine congrArg x (funext fun ax => Fin.ext ?_)
  match ax with
  | ⟨0, _⟩ => show 0 + 1 * u.val = u.val; omega
  | ⟨1, _⟩ => show o + 1 * d.val = k.val; omega

/-- An [a, b] array given a unit middle axis reads, at (s, u, e), the array at (s, e). -/
theorem midUnit_apply {a b : ℕ} {α : Type} (x : (⟨2, ![a, b]⟩ : Shape).Idx → α)
    (h : (⟨2, ![a, b]⟩ : Shape).ShapeCasts ⟨3, ![a, 1, b]⟩) (s : Fin a) (u : Fin 1) (e : Fin b) :
    shapeCast ⟨3, ![a, 1, b]⟩ x h (ix3 s u e) = x (ix2 s e) :=
  shapeCast_apply x h _ _ (by
    have hu : u.val = 0 := by omega
    rw [Shape.rowMajor_val_two, Shape.rowMajor_val_three]
    show s.val * b + e.val = (s.val * 1 + u.val) * b + e.val
    rw [hu, Nat.mul_one, Nat.add_zero])

/-- The f32 word of +0 as a scalar constant denotes zero. -/
theorem scalar_zero : Scalar.ofBits (F := Ideal) .f32 0x00000000#32 = (0 : EReal) := Ideal.ofBits_zero_f32

end TileForms
-- ==== Proof.IdealClue.lean ====
/-
  The array the call writes, entry by entry: row r of batch tile r / 512 is the divide-early softmax-weighted sum of the
  specification, for finite inputs. The batch tile's projected rows are the specification's projection of the input rows
  512 (r / 512) … (the input window's block of the reshaped input, the whole weight matrix, the bias row); codebook tile j
  is rows 1024 j … of the codebook; the sixteen-tile chain is then the divide-early form.
-/
import proofs.«155410_j47107201302664_1_alg».proof.Proof.IdealArray
import proofs.«155410_j47107201302664_1_alg».proof.Proof.IdealChain
import proofs.«155410_j47107201302664_1_alg».proof.Proof.SoftMatchSpec
import proofs.«155410_j47107201302664_1_alg».proof.Proof.LibTileForms
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.KernelIdeal.Tile Idealize.ShloMosaic.ValueIdx Idealize.ShloMosaic.StableHlo

/-- An [a, 1, b] array viewed as the matrix [a, b] reads, at (s, e), the array at (s, 0, e). -/
theorem dropMid_apply {a b : ℕ} {α : Type} (x : (⟨3, ![a, 1, b]⟩ : Shape).Idx → α)
    (h : (⟨3, ![a, 1, b]⟩ : Shape).ShapeCasts ⟨2, ![a, b]⟩) (s : Fin a) (e : Fin b) :
    shapeCast ⟨2, ![a, b]⟩ x h (ix2 s e) = x (ix3 s (0 : Fin 1) e) :=
  shapeCast_apply x h _ _ (by
    rw [Shape.rowMajor_val_three, Shape.rowMajor_val_two]
    show (s.val * 1 + 0) * b + e.val = s.val * b + e.val
    rw [Nat.mul_one, Nat.add_zero])

/-- The call finds the input without its unit axis, -/
theorem V_v0 (c : Dev nD) : (V m c main_v0 : S1024x1024.Idx → EReal)
    = shapeCast S1024x1024 (m ((c : Thread nD τ).loc main_arg0)) shapeCasts_S1024x1x1024_S1024x1024 := by
  show StableHlo.after (List.flatten [hostOps0]) (fun b => m (c, b)) (Proc.devRef .tc main_v0) = _
  simp only [hostOps0, List.flatten_cons, List.flatten_nil, List.append_nil]
  after_results
  rfl

/-- and the bias as a row. -/
theorem V_v1 (c : Dev nD) : (V m c main_v1 : S1x768.Idx → EReal)
    = shapeCast S1x768 (m ((c : Thread nD τ).loc main_arg4)) shapeCasts_S768_S1x768 := by
  show StableHlo.after (List.flatten [hostOps0]) (fun b => m (c, b)) (Proc.devRef .tc main_v1) = _
  simp only [hostOps0, List.flatten_cons, List.flatten_nil, List.append_nil]
  after_results
  rfl

/-- The input windows' block indices at a point: the batch tile for the input rows, the codebook tile for the codebook. -/
theorem idx_in : ∀ t : Fin cfg0.N, win0_0.index t (0 : Fin 2) = t.val / 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 16 ∧ win0_3.index t (1 : Fin 2) = 0 :=
  (by decide +kernel : ∀ t : Fin grid0.N, _)

set_option maxHeartbeats 1000000 in
theorem blk0 (c : Dev nD) (t : Fin cfg0.N) (p : Fin 512) (e : Fin 1024) (r : Fin 1024) (hr : r.val = 512 * (t.val / 16) + p.val) :
    (iblk m c 0 t : Vec Ideal S512x1024 .f32) (ix2 p e) = (m ((c : Thread nD τ).loc main_arg0)) (ix3 r (0 : Fin 1) e) := by
  obtain ⟨q0, q1, -⟩ := idx_in t
  unfold iblk
  rw [View.read_apply]
  show V m c main_v0 _ = _
  rw [V_v0]
  have he : ((cfg0.win 0).blk t).view.emb (ix2 p e) = ix2 r e := by
    funext a; apply Fin.ext
    match a with
    | ⟨0, _⟩ => show win0_0.index t (0 : Fin 2) * 512 + 1 * p.val = r.val; rw [q0, hr]; omega
    | ⟨1, _⟩ => show win0_0.index t (1 : Fin 2) * 1024 + 1 * e.val = e.val; rw [q1]; omega
  rw [he]
  exact dropMid_apply _ _ _ _

set_option maxHeartbeats 1000000 in
theorem blk1 (c : Dev nD) (t : Fin cfg0.N) (k : Fin 768) (e : Fin 1024) :
    (iblk m c 1 t : Vec Ideal S768x1024 .f32) (ix2 k e) = (m ((c : Thread nD τ).loc main_arg3)) (ix2 k e) := by
  obtain ⟨-, -, q0, q1, -⟩ := idx_in t
  unfold iblk
  rw [View.read_apply]
  show V m c main_arg3 _ = _
  rw [V_main_arg3]
  congr 1
  funext a; apply Fin.ext
  match a with
  | ⟨0, _⟩ => show win0_1.index t (0 : Fin 2) * 768 + 1 * k.val = k.val; rw [q0]; omega
  | ⟨1, _⟩ => show win0_1.index t (1 : Fin 2) * 1024 + 1 * e.val = e.val; rw [q1]; omega

set_option maxHeartbeats 1000000 in
theorem blk2 (c : Dev nD) (t : Fin cfg0.N) (q : Fin 768) :
    (iblk m c 2 t : Vec Ideal S1x768 .f32) (ix2 (0 : Fin 1) q) = (m ((c : Thread nD τ).loc main_arg4)) (ix1 q) := by
  obtain ⟨-, -, -, -, q0, q1, -⟩ := idx_in t
  unfold iblk
  rw [View.read_apply]
  show V m c main_v1 _ = _
  rw [V_v1]
  have he : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [q0]
    | ⟨1, _⟩ => show win0_2.index t (1 : Fin 2) * 768 + 1 * q.val = q.val; rw [q1]; omega
  rw [he]
  exact TileForms.rowCast_apply _ _ _

set_option maxHeartbeats 1000000 in
theorem blk3 (c : Dev nD) (t : Fin cfg0.N) (n : Fin 1024) (k : Fin 768) (r : Fin 16384) (hr : r.val = 1024 * (t.val % 16) + n.val) :
    (iblk m c 3 t : Vec Ideal S1024x768 .f32) (ix2 n k) = (m ((c : Thread nD τ).loc main_arg5)) (ix2 r k) := by
  obtain ⟨-, -, -, -, -, -, q0, q1⟩ := idx_in t
  unfold iblk
  rw [View.read_apply]
  show V m c main_arg5 _ = _
  rw [V_main_arg5]
  congr 1
  funext a; apply Fin.ext
  match a with
  | ⟨0, _⟩ => show win0_3.index t (0 : Fin 2) * 1024 + 1 * n.val = r.val; rw [q0, hr]; omega
  | ⟨1, _⟩ => show win0_3.index t (1 : Fin 2) * 768 + 1 * k.val = k.val; rw [q1]; omega

/-! ## Real entries -/

theorem iblk0_real (c : Dev nD) (ha0 : ∀ i, ∃ r : ℝ, (m ((c : Thread nD τ).loc main_arg0)) i = (r : EReal)) (t : Fin cfg0.N) (i : S512x1024.Idx) :
    ∃ r : ℝ, (iblk m c 0 t : Vec Ideal S512x1024 .f32) i = (r : EReal) := by
  unfold iblk
  rw [View.read_apply]
  show ∃ r : ℝ, V m c main_v0 _ = _
  rw [V_v0]
  unfold shapeCast
  exact ha0 _

theorem iblk1_real (c : Dev nD) (ha3 : ∀ i, ∃ r : ℝ, (m ((c : Thread nD τ).loc main_arg3)) i = (r : EReal)) (t : Fin cfg0.N) (i : S768x1024.Idx) :
    ∃ r : ℝ, (iblk m c 1 t : Vec Ideal S768x1024 .f32) i = (r : EReal) := by
  unfold iblk
  rw [View.read_apply]
  show ∃ r : ℝ, V m c main_arg3 _ = _
  rw [V_main_arg3]
  exact ha3 _

theorem iblk2_real (c : Dev nD) (ha4 : ∀ i, ∃ r : ℝ, (m ((c : Thread nD τ).loc main_arg4)) i = (r : EReal)) (t : Fin cfg0.N) (i : S1x768.Idx) :
    ∃ r : ℝ, (iblk m c 2 t : Vec Ideal S1x768 .f32) i = (r : EReal) := by
  unfold iblk
  rw [View.read_apply]
  show ∃ r : ℝ, V m c main_v1 _ = _
  rw [V_v1]
  unfold shapeCast
  exact ha4 _

/-! ## The batch tile's rows and codebook tiles -/

/-- The projected rows of batch tile i0 are the specification's projection of input rows 512 i0 …. -/
theorem rows_eq (c : Dev nD) (i0 : ℕ) (h0 : 16 * i0 < cfg0.N) (p : Fin 512) (r : Fin 1024) (hr : r.val = 512 * i0 + p.val) (k : Fin 768) :
    tileRows m c i0 h0 (ix2 p k) = SoftMatch.X (m ((c : Thread nD τ).loc main_arg0)) (m ((c : Thread nD τ).loc main_arg3)) (m ((c : Thread nD τ).loc main_arg4)) r k := by
  unfold tileRows
  rw [proj_apply]
  unfold SoftMatch.X
  rw [blk2]
  refine congrArg (· + (m ((c : Thread nD τ).loc main_arg4)) (ix1 k)) (Finset.sum_congr rfl fun e _ => ?_)
  rw [blk0 m c ⟨16 * i0, h0⟩ p e r (by show r.val = 512 * (16 * i0 / 16) + p.val; rw [hr, Nat.mul_div_cancel_left _ (by decide : 0 < 16)]), blk1]

/-- The codebook as rows and columns. -/
def cbOf (c : Dev nD) : Fin 16384 → Fin 768 → EReal := fun n k => (m ((c : Thread nD τ).loc main_arg5)) (ix2 n k)

/-- Codebook tile j of any batch tile is rows 1024 j … of the codebook. -/
theorem tiles_eq_cb (c : Dev nD) (i0 : ℕ) (h15 : 16 * i0 + 15 < cfg0.N) (j : Fin 16) (n : Fin 1024) (k : Fin 768) :
    tileCb m c i0 j.val (ix2 n k) = cbOf m c ⟨j.val * 1024 + n.val, GroupedSum.group_lt tiles_eq j n⟩ k := by
  have hj := j.isLt
  rw [tileCb_at m c i0 j.val (by omega)]
  exact blk3 m c ⟨16 * i0 + j.val, by omega⟩ n k _ (by show j.val * 1024 + n.val = 1024 * ((16 * i0 + j.val) % 16) + n.val; omega)

/-- Row p of batch tile i0, after its last codebook tile: the specification's soft match of input row 512 i0 + p. -/
theorem tile_clue (c : Dev nD) (ha0 : ∀ i, ∃ r : ℝ, (m ((c : Thread nD τ).loc main_arg0)) i = (r : EReal)) (ha3 : ∀ i, ∃ r : ℝ, (m ((c : Thread nD τ).loc main_arg3)) i = (r : EReal))
    (ha4 : ∀ i, ∃ r : ℝ, (m ((c : Thread nD τ).loc main_arg4)) i = (r : EReal)) (ha5 : ∀ i, ∃ r : ℝ, (m ((c : Thread nD τ).loc main_arg5)) i = (r : EReal))
    (i0 : ℕ) (h0 : 16 * i0 < cfg0.N) (h15 : 16 * i0 + 15 < cfg0.N) (p : Fin 512) (d : Fin 768) (r : Fin 1024) (hr : r.val = 512 * i0 + p.val) :
    (outsAt0 m c (16 * i0 + 15) h15).1 (ix2 p d) = SoftMatch.clueSpec (m ((c : Thread nD τ).loc main_arg0)) (m ((c : Thread nD τ).loc main_arg3)) (m ((c : Thread nD τ).loc main_arg4)) (m ((c : Thread nD τ).loc main_arg5)) r d := by
  rw [chain_last m c i0 h0 h15]
  have hX : ∀ (p : Fin 512) (k : Fin 768), ∃ r : ℝ, tileRows m c i0 h0 (ix2 p k) = (r : EReal) :=
    proj_real _ _ _ (iblk0_real m c ha0 _) (iblk1_real m c ha3 _) (iblk2_real m c ha4 _)
  have hcb : ∀ (n : Fin 16384) (k : Fin 768), ∃ r : ℝ, cbOf m c n k = (r : EReal) := fun n k => ha5 _
  rw [chain_out (tileRows m c i0 h0) (tileCb m c i0) (cbOf m c) hX hcb (tiles_eq_cb m c i0 h15) p d]
  have hD : rowDist (tileRows m c i0 h0) (cbOf m c) p = fun n => SoftMatch.D (m ((c : Thread nD τ).loc main_arg0)) (m ((c : Thread nD τ).loc main_arg3)) (m ((c : Thread nD τ).loc main_arg4)) (m ((c : Thread nD τ).loc main_arg5)) r n := by
    funext n
    unfold rowDist
    rw [SoftMatch.D_eq]
    simp only [fun k => rows_eq m c i0 h0 p r hr k]
    rfl
  simp only [hD]
  rw [SoftMatch.clueSpec_eq, SoftMatch.M_eq]
  rfl

/-- The array the call writes is the specification's soft match, entry by entry. -/
theorem clueArr_eq (c : Dev nD) (ha0 : ∀ i, ∃ r : ℝ, (m ((c : Thread nD τ).loc main_arg0)) i = (r : EReal)) (ha3 : ∀ i, ∃ r : ℝ, (m ((c : Thread nD τ).loc main_arg3)) i = (r : EReal))
    (ha4 : ∀ i, ∃ r : ℝ, (m ((c : Thread nD τ).loc main_arg4)) i = (r : EReal)) (ha5 : ∀ i, ∃ r : ℝ, (m ((c : Thread nD τ).loc main_arg5)) i = (r : EReal)) (b : Fin 1024) (e : Fin 768) :
    clueArr m c (ix2 b e) = SoftMatch.clueSpec (m ((c : Thread nD τ).loc main_arg0)) (m ((c : Thread nD τ).loc main_arg3)) (m ((c : Thread nD τ).loc main_arg4)) (m ((c : Thread nD τ).loc main_arg5)) b e := by
  have hN : cfg0.N = 32 := N_0
  unfold clueArr
  split
  · rename_i h
    exact tile_clue m c ha0 ha3 ha4 ha5 0 (by omega) lt15 ⟨b.val, h⟩ e b (by show b.val = 512 * 0 + b.val; omega)
  · rename_i h
    have hb : b.val < 1024 := b.isLt
    have hge : ¬b.val < 512 := h
    exact tile_clue m c ha0 ha3 ha4 ha5 1 (by omega) lt31 ⟨b.val - 512, by omega⟩ e b (by show b.val = 512 * 1 + (b.val - 512); omega)

end Cert.KernelIdeal.Region

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.RefValue.lean ====
/-
  The reference program's first result, read on the extended reals.

  The reference projects each input row, x (b, k) = (∑ e, inp (b, 0, e) * pw (k, e)) + pb (k), divides the row and each
  codebook row by the larger of its Euclidean norm and a guard, takes one minus their inner product as the distance
  d (b, n), and weighs the codebook rows by the softmax of the distances of the row: exp (d (b, n) - m (b)) over the
  sum of these, m (b) the largest distance of the row. The soft match is the weighted sum of the codebook's rows.
  The rest of the program only places that row, and the row before it, into the text embedding at the positions the
  mask's valid length names.

  Part one reads the soft match at an entry (b, 0, e): the index is pushed through the elementwise operations, a
  repeated value is read where it came from, a sum along the last axis from the zero word is the finite sum, the
  maximum along the last axis from -∞ is the fold of max from ⊥, and a product of two arrays along one axis is the sum
  over the contracted coordinate. Each stage is one lemma at the coordinates (b, 0, ·), (b, 0) or (n, ·).
-/
import proofs.«155410_j47107201302664_1_alg».proof.Proof.RefReadPatched
import proofs.«155410_j47107201302664_1_alg».proof.Proof.SoftMatchSpec
import proofs.«155410_j47107201302664_1_alg».proof.Proof.LibRowOps
import proofs.«155410_j47107201302664_1_alg».proof.Proof.LibHostRead

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-! ## A maximum along the last axis of a three-axis array -/

/-- The host's one-axis reduction with a maximum body along the last axis of an [a, b, c] array: at (p, q) the fold
    of max from the initial value over the last coordinate. -/
theorem hostMax_abc_axis2_apply {a b c : ℕ} {u : Shape} (x : (⟨3, ![a, b, c]⟩ : Shape).Idx → EReal) (init : u.Idx → EReal)
    (h' : Shape.ReducesTo ⟨3, ![a, b, c]⟩ [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun j => x (ix3 p q j)) := by
  have h : Shape.Reduces ⟨3, ![a, b, c]⟩ [2] ⟨2, ![a, b]⟩ := ⟨h'.1, Nat.two_pos, h'.2⟩
  refine (Host.reduce_eq_fold_single (FloatOps.maximumf (F := Ideal) (φ := .f32)) x init h' h hu (ix2 p q)).trans ?_
  show (Finset.univ : Finset (Fin c)).fold max (init (Shape.Idx.first hu)) (x ∘ h.lift (ix2 p q)) = _
  exact congrArg (fun f => (Finset.univ : Finset (Fin c)).fold max (init (Shape.Idx.first hu)) f)
    (funext fun j => congrArg x (Hmu.Lib.lift_abc_axis2 h p q j))

/-! ## The indices the stages read, at coordinates -/

local macro "idx1" : tactic => `(tactic| (funext a; apply Fin.ext; match a with | ⟨0, _⟩ => rfl))
local macro "idx2" : tactic => `(tactic| (funext a; apply Fin.ext; match a with | ⟨0, _⟩ => rfl | ⟨1, _⟩ => rfl))
local macro "idx3" : tactic =>
  `(tactic| (funext a; apply Fin.ext; match a with | ⟨0, _⟩ => rfl | ⟨1, _⟩ => rfl | ⟨2, _⟩ => rfl))

theorem i_v0_l (b : Fin 1024) (k : Fin 768) (e : Fin 1024) :
    lidx_main_v0 (ix3 b (0 : Fin 1) k) e = ix3 b (0 : Fin 1) e := by idx3
theorem i_v0_r (b : Fin 1024) (k : Fin 768) (e : Fin 1024) :
    ridx_main_v0 (ix3 b (0 : Fin 1) k) e = ix2 k e := by idx2
theorem i_v2 (b : Fin 1024) (k : Fin 768) :
    idx_main_v1 (idx_main_v2 (ix3 b (0 : Fin 1) k)) = ix1 k := by idx1
theorem i_c0v1 (b : Fin 1024) (j : Fin 768) :
    idx_main_call0_v1 (ix2 b (0 : Fin 1)) j = ix3 b (0 : Fin 1) j := by idx3
theorem i_v7 (b : Fin 1024) (k : Fin 768) :
    idx_main_call0_v2 (idx_main_v7 (ix3 b (0 : Fin 1) k)) = ix2 b (0 : Fin 1) := by idx2
theorem i_c1v1 (n : Fin 16384) (j : Fin 768) :
    idx_main_call1_v1 (ix1 n) j = ix2 n j := by idx2
theorem i_v12 (n : Fin 16384) (k : Fin 768) :
    idx_main_call1_v2 (idx_main_v12 (ix2 n k)) = ix1 n := by idx1
theorem i_v14_l (b : Fin 1024) (n : Fin 16384) (k : Fin 768) :
    lidx_main_v14 (ix3 b (0 : Fin 1) n) k = ix3 b (0 : Fin 1) k := by idx3
theorem i_v14_r (b : Fin 1024) (n : Fin 16384) (k : Fin 768) :
    ridx_main_v14 (ix3 b (0 : Fin 1) n) k = ix2 n k := by idx2
theorem i_v21 (b : Fin 1024) (n : Fin 16384) :
    idx_main_v20 (idx_main_v21 (ix3 b (0 : Fin 1) n)) = ix2 b (0 : Fin 1) := by idx2
theorem i_v24 (b : Fin 1024) (n : Fin 16384) :
    idx_main_v24 (ix2 b (0 : Fin 1)) n = ix3 b (0 : Fin 1) n := by idx3
theorem i_v26 (b : Fin 1024) (n : Fin 16384) :
    idx_main_v25 (idx_main_v26 (ix3 b (0 : Fin 1) n)) = ix2 b (0 : Fin 1) := by idx2
theorem i_v28_l (b : Fin 1024) (e : Fin 768) (n : Fin 16384) :
    lidx_main_v28 (ix3 b (0 : Fin 1) e) n = ix3 b (0 : Fin 1) n := by idx3
theorem i_v28_r (b : Fin 1024) (e : Fin 768) (n : Fin 16384) :
    ridx_main_v28 (ix3 b (0 : Fin 1) e) n = ix2 n e := by idx2

/-! ## The soft match, stage by stage -/

/-- The projection at (b, 0, k). -/
theorem proj_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (b : Fin 1024) (k : Fin 768) :
    val_main_v3 (F := Ideal) x0 x3 x4 (ix3 b (0 : Fin 1) k) = SoftMatch.X x0 x3 x4 b k := by
  rw [val_main_v3_apply, val_main_v0_apply, val_main_v2_apply, val_main_v1_apply, i_v2 b k, Ideal.addf_def]
  unfold SoftMatch.X
  refine congrArg (· + x4 (ix1 k)) (Finset.sum_congr rfl fun e _ => ?_)
  rw [i_v0_l b k e, i_v0_r b k e]

/-- The squared norm of the projected row b. -/
theorem sq_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (b : Fin 1024) :
    val_main_call0_v1 (F := Ideal) x0 x3 x4 (ix2 b (0 : Fin 1))
      = ∑ j : Fin 768, SoftMatch.X x0 x3 x4 b j * SoftMatch.X x0 x3 x4 b j := by
  rw [val_main_call0_v1_apply, val_main_call0_cst_apply, Ideal.ofBits_def, Ideal.ofBits_zero_f32, zero_add]
  refine Finset.sum_congr rfl fun j _ => ?_
  rw [i_c0v1 b j, val_main_call0_v0_apply, proj_at, Ideal.mulf_def]

/-- The guarded norm of the projected row b, repeated along the row. -/
theorem nx_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (b : Fin 1024) (k : Fin 768) :
    val_main_v7 (F := Ideal) x0 x3 x4 (ix3 b (0 : Fin 1) k)
      = max (Ideal.sqrt (∑ j : Fin 768, SoftMatch.X x0 x3 x4 b j * SoftMatch.X x0 x3 x4 b j)) SoftMatch.eps := by
  rw [val_main_v7_apply, val_main_v6_apply, val_main_v4_apply, val_main_call0_v2_apply, i_v7 b k, sq_at,
    val_main_v5_apply, val_main_cst_apply, Ideal.maximumf_def, Ideal.hostUnary_sqrt_def, Ideal.ofBits_def]

/-- The projected row b divided by its guarded norm, at (b, 0, k). -/
theorem xn_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (b : Fin 1024) (k : Fin 768) :
    val_main_v8 (F := Ideal) x0 x3 x4 (ix3 b (0 : Fin 1) k)
      = Ideal.div (SoftMatch.X x0 x3 x4 b k)
          (max (Ideal.sqrt (∑ j : Fin 768, SoftMatch.X x0 x3 x4 b j * SoftMatch.X x0 x3 x4 b j)) SoftMatch.eps) := by
  rw [val_main_v8_apply, proj_at, nx_at, Ideal.hostDivf_def]

/-- The squared norm of the codebook's row n. -/
theorem wsq_at (x5 : (⟨S16384x768, .f32⟩ : BufTy).Contents (Elt Ideal)) (n : Fin 16384) :
    val_main_call1_v1 (F := Ideal) x5 (ix1 n) = ∑ j : Fin 768, x5 (ix2 n j) * x5 (ix2 n j) := by
  rw [val_main_call1_v1_apply, val_main_call1_cst_apply, Ideal.ofBits_def, Ideal.ofBits_zero_f32, zero_add]
  refine Finset.sum_congr rfl fun j _ => ?_
  rw [i_c1v1 n j, val_main_call1_v0_apply, Ideal.mulf_def]

/-- The guarded norm of the codebook's row n, repeated along the row. -/
theorem nw_at (x5 : (⟨S16384x768, .f32⟩ : BufTy).Contents (Elt Ideal)) (n : Fin 16384) (k : Fin 768) :
    val_main_v12 (F := Ideal) x5 (ix2 n k)
      = max (Ideal.sqrt (∑ j : Fin 768, x5 (ix2 n j) * x5 (ix2 n j))) SoftMatch.eps := by
  rw [val_main_v12_apply, val_main_v11_apply, val_main_v9_apply, val_main_call1_v2_apply, i_v12 n k, wsq_at,
    val_main_v10_apply, val_main_cst_0_apply, Ideal.maximumf_def, Ideal.hostUnary_sqrt_def, Ideal.ofBits_def]

/-- The codebook's row n divided by its guarded norm, at (n, k). -/
theorem wn_at (x5 : (⟨S16384x768, .f32⟩ : BufTy).Contents (Elt Ideal)) (n : Fin 16384) (k : Fin 768) :
    val_main_v13 (F := Ideal) x5 (ix2 n k)
      = Ideal.div (x5 (ix2 n k)) (max (Ideal.sqrt (∑ j : Fin 768, x5 (ix2 n j) * x5 (ix2 n j))) SoftMatch.eps) := by
  rw [val_main_v13_apply, nw_at, Ideal.hostDivf_def]

/-- The distance at (b, 0, n). -/
theorem dist_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) (b : Fin 1024) (n : Fin 16384) :
    val_main_v16 (F := Ideal) x0 x3 x4 x5 (ix3 b (0 : Fin 1) n) = SoftMatch.D x0 x3 x4 x5 b n := by
  rw [val_main_v16_apply, val_main_v15_apply, val_main_cst_1_apply, val_main_v14_apply, Ideal.subf_def, Ideal.ofBits_def,
    SoftMatch.D_eq]
  refine congrArg (SoftMatch.oneF - ·) (Finset.sum_congr rfl fun k _ => ?_)
  rw [i_v14_l b n k, i_v14_r b n k, xn_at, wn_at]

/-- The largest distance of row b, as the reduction computes it: the fold of max from -∞. -/
theorem rowmax_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) (b : Fin 1024) :
    val_main_v17 (F := Ideal) x0 x3 x4 x5 (ix2 b (0 : Fin 1))
      = (Finset.univ : Finset (Fin 16384)).fold max ⊥ (fun n => SoftMatch.D x0 x3 x4 x5 b n) := by
  unfold val_main_v17
  refine (hostMax_abc_axis2_apply (a := 1024) (b := 1) (c := 16384) (val_main_v16 (F := Ideal) x0 x3 x4 x5)
    (val_main_cst_2 (F := Ideal)) reducesTo_S1024x1x16384_S1024x1_d2 h_S_ b (0 : Fin 1)).trans ?_
  rw [val_main_cst_2_apply, Ideal.ofBits_def, Gcn.Lib.ofBits_neg_inf_f32]
  exact congrArg (fun f => (Finset.univ : Finset (Fin 16384)).fold max ⊥ f)
    (funext fun n => dist_at x0 x3 x4 x5 b n)

/-- The maximum the softmax subtracts: the larger of -∞ and the row's largest distance, which is the latter. -/
theorem max_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) (b : Fin 1024) :
    val_main_v19 (F := Ideal) x0 x3 x4 x5 (ix2 b (0 : Fin 1)) = SoftMatch.M x0 x3 x4 x5 b := by
  rw [val_main_v19_apply, val_main_v18_apply, val_main_cst_3_apply, rowmax_at, Ideal.ofBits_def,
    Gcn.Lib.ofBits_neg_inf_f32, Ideal.maximumf_def, SoftMatch.M_eq]
  exact max_eq_right bot_le

/-- The unnormalized weight at (b, 0, n). -/
theorem exp_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) (b : Fin 1024) (n : Fin 16384) :
    val_main_v23 (F := Ideal) x0 x3 x4 x5 (ix3 b (0 : Fin 1) n)
      = Ideal.exp (SoftMatch.D x0 x3 x4 x5 b n - SoftMatch.M x0 x3 x4 x5 b) := by
  rw [val_main_v23_apply, val_main_v22_apply, dist_at, val_main_v21_apply, val_main_v20_apply, i_v21 b n, max_at,
    Ideal.hostUnary_exp_def, Ideal.subf_def]

/-- The sum of the unnormalized weights of row b. -/
theorem den_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) (b : Fin 1024) :
    val_main_v24 (F := Ideal) x0 x3 x4 x5 (ix2 b (0 : Fin 1))
      = ∑ n : Fin 16384, Ideal.exp (SoftMatch.D x0 x3 x4 x5 b n - SoftMatch.M x0 x3 x4 x5 b) := by
  rw [val_main_v24_apply, val_main_cst_4_apply, Ideal.ofBits_def, Ideal.ofBits_zero_f32, zero_add]
  refine Finset.sum_congr rfl fun n _ => ?_
  rw [i_v24 b n, exp_at]

/-- The softmax weight at (b, 0, n). -/
theorem weight_at (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) (b : Fin 1024) (n : Fin 16384) :
    val_main_v27 (F := Ideal) x0 x3 x4 x5 (ix3 b (0 : Fin 1) n)
      = Ideal.div (Ideal.exp (SoftMatch.D x0 x3 x4 x5 b n - SoftMatch.M x0 x3 x4 x5 b))
          (∑ n' : Fin 16384, Ideal.exp (SoftMatch.D x0 x3 x4 x5 b n' - SoftMatch.M x0 x3 x4 x5 b)) := by
  rw [val_main_v27_apply, exp_at, val_main_v26_apply, val_main_v25_apply, i_v26 b n, den_at, Ideal.hostDivf_def]

/-- The reference's soft match: the array of shape [1024, 1, 768] the last selection reads. -/
abbrev clue (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) :
    (⟨S1024x1x768, .f32⟩ : BufTy).Contents (Elt Ideal) :=
  val_main_v28 (F := Ideal) x0 x3 x4 x5

/-- The soft match at (b, 0, e) is the divide-early softmax-weighted sum of the codebook's column e. -/
theorem clue_apply (x0 : (⟨S1024x1x1024, .f32⟩ : BufTy).Contents (Elt Ideal)) (x3 : (⟨S768x1024, .f32⟩ : BufTy).Contents (Elt Ideal))
    (x4 : (⟨S768, .f32⟩ : BufTy).Contents (Elt Ideal)) (x5 : (⟨S16384x768, .f32⟩ : BufTy).Contents (Elt Ideal)) (b : Fin 1024) (e : Fin 768) :
    clue x0 x3 x4 x5 (ix3 b (0 : Fin 1) e) = SoftMatch.clueSpec x0 x3 x4 x5 b e := by
  show val_main_v28 (F := Ideal) x0 x3 x4 x5 (ix3 b (0 : Fin 1) e) = _
  rw [val_main_v28_apply, SoftMatch.clueSpec_eq]
  refine Finset.sum_congr rfl fun n _ => ?_
  rw [i_v28_l b e n, i_v28_r b e n, weight_at]

/-! ## The program's first 43 operations

The operations up to the soft match (the 43rd writes it) leave the text embedding and the mask as they were, and
write the soft match as the composed stages read above. What the remaining 76 operations compute is a function of
those three buffers alone. -/

section Prefix

variable {F : FTy → Type} [FloatOps F]

/-- Running two lines of operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The whole program is its first 43 operations followed by the other 76. -/
theorem after_split (W0 : Valuation τ sig (Elt F)) :
    StableHlo.after (ValueP.ops (F := F)) W0
      = StableHlo.after ((ValueP.ops (F := F)).drop 43) (StableHlo.after ((ValueP.ops (F := F)).take 43) W0) := by
  rw [← after_append, List.take_append_drop]

/-- The first 43 operations do not write the text embedding. -/
theorem prefix_arg1 (W0 : Valuation τ sig (Elt F)) :
    StableHlo.after ((ValueP.ops (F := F)).take 43) W0 (Proc.devRef .tc main_arg1) = W0 (Proc.devRef .tc main_arg1) := by
  simp only [ValueP.ops, List.take_succ_cons, List.take_zero]
  after_results_simp

/-- The first 43 operations do not write the mask. -/
theorem prefix_arg2 (W0 : Valuation τ sig (Elt F)) :
    StableHlo.after ((ValueP.ops (F := F)).take 43) W0 (Proc.devRef .tc main_arg2) = W0 (Proc.devRef .tc main_arg2) := by
  simp only [ValueP.ops, List.take_succ_cons, List.take_zero]
  after_results_simp

set_option maxRecDepth 8192 in
/-- After the first 43 operations the soft match's buffer holds the composed stages of the four arguments it
    depends on. -/
theorem prefix_v28 (W0 : Valuation τ sig (Elt F)) :
    StableHlo.after ((ValueP.ops (F := F)).take 43) W0 (Proc.devRef .tc main_v28)
      = val_main_v28 (F := F) (W0 (Proc.devRef .tc main_arg0)) (W0 (Proc.devRef .tc main_arg3))
          (W0 (Proc.devRef .tc main_arg4)) (W0 (Proc.devRef .tc main_arg5)) := by
  simp only [ValueP.ops, List.take_succ_cons, List.take_zero]
  after_results_simp
  rfl

end Prefix

/-- After the first 43 operations, the soft match's buffer at (b, 0, e) is the divide-early softmax-weighted sum of
    the codebook's column e, a function of the input, the projection's weights and bias, and the codebook as the
    memory held them at the start. -/
theorem prefix_clue_apply (m : (ℓ : Loc nD τ sig) → Buf (Elt Ideal) ℓ) (c : Dev nD) (b : Fin 1024) (e : Fin 768) :
    (StableHlo.after ((ValueP.ops (F := Ideal)).take 43) (fun r => m (c, r)) (Proc.devRef .tc main_v28) :
        (⟨S1024x1x768, .f32⟩ : BufTy).Contents (Elt Ideal)) (ix3 b (0 : Fin 1) e)
      = SoftMatch.clueSpec (m ((c.tc : Thread nD τ).loc main_arg0)) (m ((c.tc : Thread nD τ).loc main_arg3))
          (m ((c.tc : Thread nD τ).loc main_arg4)) (m ((c.tc : Thread nD τ).loc main_arg5)) b e := by
  rw [prefix_v28]
  exact clue_apply _ _ _ _ b e

end Cert.ReferenceIdeal.RefValue

end
-- ==== Proof.FiniteInputs.lean ====
/-
  From the printed precondition to "every entry is a real".

  The precondition is the conjunction, over the five float arguments, of "all (|x| < +∞)": each argument's absolute
  value is compared with the f32 pattern of +∞ elementwise, the bits are reduced by "and" from 1 into a scalar, and
  the five scalars are joined by "and". If the result is 1 then each reduction is 1, so each comparison bit is 1, so
  each entry x has max x (-x) < ⊤ on the extended reals, which excludes both infinities: x is a real.
-/
import proofs.«155410_j47107201302664_1_alg».proof.Proof.Gen.Pre_finite_inputs
import Idealize.ShloMosaic.Lib.ReduceAll
import Idealize.ShloMosaic.Lib.ValueIdx
import Idealize.ShloMosaic.PureOps.Ideal.Laws

namespace Cert.KernelIdeal.Finite

open Idealize.ShloMosaic Cert.Pre_finite_inputs

/-- The scalar shape has one index. -/
instance : Subsingleton S_.Idx := ⟨fun a b => funext fun d => d.elim0⟩

/-- The f32 pattern of +∞ denotes ⊤. -/
theorem ofBits_pos_inf_f32 : Ideal.ofBits .f32 0x7F800000#32 = ⊤ := by simp [Ideal.ofBits, Ideal.ieee]

/-- An extended real whose absolute value compares below +∞ is a real. -/
theorem real_of_abs_lt (x : EReal)
    (h : Ideal.cmp .olt (max x (-x)) (Ideal.ofBits .f32 0x7F800000#32) = 1#1) : ∃ r : ℝ, x = (r : EReal) := by
  rw [ofBits_pos_inf_f32] at h
  have hb : ∀ b : Bool, BitVec.ofBool b = 1#1 → b = true := fun b => by cases b <;> decide
  have hlt : max x (-x) < ⊤ := of_decide_eq_true (hb _ h)
  induction x using EReal.rec with
  | bot => simp at hlt
  | coe r => exact ⟨r, rfl⟩
  | top => simp at hlt

/-- One "all (|a| < +∞)" that came out 1: every entry of a is a real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf a) (broadcastInDim s ![] hb (constant (F := Ideal) S_ .f32 0x7F800000#32))) init hr hu
        ValueIdx.ix0 = 1#1)
    (i : s.Idx) : ∃ r : ℝ, a i = (r : EReal) :=
  real_of_abs_lt (a i) (Host.reduce_andi_all _ init hr hu ValueIdx.ix0 e i)

/-- Under the printed precondition every entry of the five float arguments is a real. -/
theorem reals_of_finite (a0 : (⟨S1024x1x1024, .f32⟩ : BufTy).Contents (Elt Ideal))
    (a1 : (⟨S1024x64x768, .f32⟩ : BufTy).Contents (Elt Ideal))
    (a2 : (⟨S1024x64, .i1⟩ : BufTy).Contents (Elt Ideal))
    (a3 : (⟨S768x1024, .f32⟩ : BufTy).Contents (Elt Ideal))
    (a4 : (⟨S768, .f32⟩ : BufTy).Contents (Elt Ideal))
    (a5 : (⟨S16384x768, .f32⟩ : BufTy).Contents (Elt Ideal))
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  obtain ⟨h0123, h5⟩ := IntOp.andi_eq_one.1 h0
  obtain ⟨h013, h4⟩ := IntOp.andi_eq_one.1 h0123
  obtain ⟨h01, h3⟩ := IntOp.andi_eq_one.1 h013
  obtain ⟨h0', h1⟩ := IntOp.andi_eq_one.1 h01
  exact ⟨all_real a0 _ _ _ _ h0', all_real a1 _ _ _ _ h1, all_real a3 _ _ _ _ h3, all_real a4 _ _ _ _ h4,
    all_real a5 _ _ _ _ h5⟩

end Cert.KernelIdeal.Finite
-- ==== Proof.TailJoin.lean ====
/-
  The host lines after the soft match. The reference's last 76 operations and the kernel program's 75 lines after its call
  are the same arithmetic on the text embedding, the mask and the soft-match result: the valid length of each row from the
  mask, the positions to overwrite, the previous row gathered, two selects, and the new mask. Each list is cut before its
  concatenate: the five intermediate arrays the rest reads (and the arguments) are compared first, then the rest is
  compared from valuations that agree on those.
-/
import proofs.«155410_j47107201302664_1_alg».proof.Proof.IdealFrame
import proofs.«155410_j47107201302664_1_alg».proof.Proof.RefRunPatched
import Idealize.ShloMosaic.Lib.StableHlo.Run
import Idealize.ShloMosaic.PureOps.Ideal

set_option maxRecDepth 65536

noncomputable section

namespace Cert.Proof.Tails

open Idealize.ShloMosaic Idealize.ShloMosaic.TcCoe Idealize.SL.Sem Idealize.ShloMosaic.StableHlo

/-- Running a list of operations in two stretches. -/
theorem after_two {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, after_cons, after_cons, ih]

/-- The kernel program's lines before its concatenate, and from it on. -/
abbrev preK : List (HloOp Cert.KernelIdeal.τ Cert.KernelIdeal.sig (Elt Ideal)) := (List.flatten (Cert.KernelIdeal.Region.tailOps (F := Ideal))).take 51
abbrev postK : List (HloOp Cert.KernelIdeal.τ Cert.KernelIdeal.sig (Elt Ideal)) := (List.flatten (Cert.KernelIdeal.Region.tailOps (F := Ideal))).drop 51
/-- The reference's operations after the soft match before its concatenate, and from it on. -/
abbrev preR : List (HloOp Cert.ReferenceIdeal.τ Cert.ReferenceIdeal.sig (Elt Ideal)) := ((Cert.ReferenceIdeal.ValueP.ops (F := Ideal)).drop 43).take 51
abbrev postR : List (HloOp Cert.ReferenceIdeal.τ Cert.ReferenceIdeal.sig (Elt Ideal)) := ((Cert.ReferenceIdeal.ValueP.ops (F := Ideal)).drop 43).drop 51

theorem splitK (WK : Valuation Cert.KernelIdeal.τ Cert.KernelIdeal.sig (Elt Ideal)) : StableHlo.after (List.flatten (Cert.KernelIdeal.Region.tailOps (F := Ideal))) WK = StableHlo.after postK (StableHlo.after preK WK) := by
  rw [← after_two, List.take_append_drop]
theorem splitR (WR : Valuation Cert.ReferenceIdeal.τ Cert.ReferenceIdeal.sig (Elt Ideal)) : StableHlo.after ((Cert.ReferenceIdeal.ValueP.ops (F := Ideal)).drop 43) WR = StableHlo.after postR (StableHlo.after preR WR) := by
  rw [← after_two, List.take_append_drop]

/-! ## Before the concatenate -/

set_option maxHeartbeats 40000000 in
theorem pre_main_v8 (WK : Valuation Cert.KernelIdeal.τ Cert.KernelIdeal.sig (Elt Ideal)) (WR : Valuation Cert.ReferenceIdeal.τ Cert.ReferenceIdeal.sig (Elt Ideal))
    (h2 : WR (Proc.devRef .tc Cert.ReferenceIdeal.main_arg2) = WK (Proc.devRef .tc Cert.KernelIdeal.main_arg2)) :
    StableHlo.after preR WR (Proc.devRef .tc Cert.ReferenceIdeal.main_v34) = StableHlo.after preK WK (Proc.devRef .tc Cert.KernelIdeal.main_v8) := by
  simp only [preK, preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp
  rw [h2]

set_option maxHeartbeats 40000000 in
theorem pre_main_v14 (WK : Valuation Cert.KernelIdeal.τ Cert.KernelIdeal.sig (Elt Ideal)) (WR : Valuation Cert.ReferenceIdeal.τ Cert.ReferenceIdeal.sig (Elt Ideal))
    (h2 : WR (Proc.devRef .tc Cert.ReferenceIdeal.main_arg2) = WK (Proc.devRef .tc Cert.KernelIdeal.main_arg2)) :
    StableHlo.after preR WR (Proc.devRef .tc Cert.ReferenceIdeal.main_v40) = StableHlo.after preK WK (Proc.devRef .tc Cert.KernelIdeal.main_v14) := by
  simp only [preK, preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp
  rw [h2]

set_option maxHeartbeats 40000000 in
theorem pre_main_v21 (WK : Valuation Cert.KernelIdeal.τ Cert.KernelIdeal.sig (Elt Ideal)) (WR : Valuation Cert.ReferenceIdeal.τ Cert.ReferenceIdeal.sig (Elt Ideal))
    (h2 : WR (Proc.devRef .tc Cert.ReferenceIdeal.main_arg2) = WK (Proc.devRef .tc Cert.KernelIdeal.main_arg2)) :
    StableHlo.after preR WR (Proc.devRef .tc Cert.ReferenceIdeal.main_v47) = StableHlo.after preK WK (Proc.devRef .tc Cert.KernelIdeal.main_v21) := by
  simp only [preK, preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp
  rw [h2]

set_option maxHeartbeats 40000000 in
theorem pre_main_v36 (WK : Valuation Cert.KernelIdeal.τ Cert.KernelIdeal.sig (Elt Ideal)) (WR : Valuation Cert.ReferenceIdeal.τ Cert.ReferenceIdeal.sig (Elt Ideal))
    (h2 : WR (Proc.devRef .tc Cert.ReferenceIdeal.main_arg2) = WK (Proc.devRef .tc Cert.KernelIdeal.main_arg2)) :
    StableHlo.after preR WR (Proc.devRef .tc Cert.ReferenceIdeal.main_v62) = StableHlo.after preK WK (Proc.devRef .tc Cert.KernelIdeal.main_v36) := by
  simp only [preK, preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

set_option maxHeartbeats 40000000 in
theorem pre_main_v37 (WK : Valuation Cert.KernelIdeal.τ Cert.KernelIdeal.sig (Elt Ideal)) (WR : Valuation Cert.ReferenceIdeal.τ Cert.ReferenceIdeal.sig (Elt Ideal))
    (h2 : WR (Proc.devRef .tc Cert.ReferenceIdeal.main_arg2) = WK (Proc.devRef .tc Cert.KernelIdeal.main_arg2)) :
    StableHlo.after preR WR (Proc.devRef .tc Cert.ReferenceIdeal.main_v63) = StableHlo.after preK WK (Proc.devRef .tc Cert.KernelIdeal.main_v37) := by
  simp only [preK, preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp
  rw [h2]

set_option maxHeartbeats 40000000 in
theorem preK_main_arg1 (WK : Valuation Cert.KernelIdeal.τ Cert.KernelIdeal.sig (Elt Ideal)) : StableHlo.after preK WK (Proc.devRef .tc Cert.KernelIdeal.main_arg1) = WK (Proc.devRef .tc Cert.KernelIdeal.main_arg1) := by
  simp only [preK, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

set_option maxHeartbeats 40000000 in
theorem preK_main_arg2 (WK : Valuation Cert.KernelIdeal.τ Cert.KernelIdeal.sig (Elt Ideal)) : StableHlo.after preK WK (Proc.devRef .tc Cert.KernelIdeal.main_arg2) = WK (Proc.devRef .tc Cert.KernelIdeal.main_arg2) := by
  simp only [preK, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

set_option maxHeartbeats 40000000 in
theorem preK_main_v2 (WK : Valuation Cert.KernelIdeal.τ Cert.KernelIdeal.sig (Elt Ideal)) : StableHlo.after preK WK (Proc.devRef .tc Cert.KernelIdeal.main_v2) = WK (Proc.devRef .tc Cert.KernelIdeal.main_v2) := by
  simp only [preK, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

set_option maxHeartbeats 40000000 in
theorem preR_main_arg1 (WR : Valuation Cert.ReferenceIdeal.τ Cert.ReferenceIdeal.sig (Elt Ideal)) : StableHlo.after preR WR (Proc.devRef .tc Cert.ReferenceIdeal.main_arg1) = WR (Proc.devRef .tc Cert.ReferenceIdeal.main_arg1) := by
  simp only [preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

set_option maxHeartbeats 40000000 in
theorem preR_main_arg2 (WR : Valuation Cert.ReferenceIdeal.τ Cert.ReferenceIdeal.sig (Elt Ideal)) : StableHlo.after preR WR (Proc.devRef .tc Cert.ReferenceIdeal.main_arg2) = WR (Proc.devRef .tc Cert.ReferenceIdeal.main_arg2) := by
  simp only [preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

set_option maxHeartbeats 40000000 in
theorem preR_main_v28 (WR : Valuation Cert.ReferenceIdeal.τ Cert.ReferenceIdeal.sig (Elt Ideal)) : StableHlo.after preR WR (Proc.devRef .tc Cert.ReferenceIdeal.main_v28) = WR (Proc.devRef .tc Cert.ReferenceIdeal.main_v28) := by
  simp only [preR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

end Cert.Proof.Tails

end
-- ==== Proof.TailJoin2.lean ====
/-
  The host lines after the soft match, from the concatenate on, and the two tails joined: from valuations that agree on the
  text embedding and the mask and whose soft-match results agree entry by entry, the reference's last 76 operations and the
  kernel program's 75 lines leave the same new text embedding, the same new mask and the same constant.
-/
import proofs.«155410_j47107201302664_1_alg».proof.Proof.TailJoin

set_option maxRecDepth 65536

noncomputable section

namespace Cert.Proof.Tails

open Idealize.ShloMosaic Idealize.ShloMosaic.TcCoe Idealize.SL.Sem Idealize.ShloMosaic.StableHlo

/-! ## From the concatenate on -/

set_option maxHeartbeats 40000000 in
theorem post_text (WK : Valuation Cert.KernelIdeal.τ Cert.KernelIdeal.sig (Elt Ideal)) (WR : Valuation Cert.ReferenceIdeal.τ Cert.ReferenceIdeal.sig (Elt Ideal))
    (e_v8 : WR (Proc.devRef .tc Cert.ReferenceIdeal.main_v34) = WK (Proc.devRef .tc Cert.KernelIdeal.main_v8)) (e_v14 : WR (Proc.devRef .tc Cert.ReferenceIdeal.main_v40) = WK (Proc.devRef .tc Cert.KernelIdeal.main_v14)) (e_v21 : WR (Proc.devRef .tc Cert.ReferenceIdeal.main_v47) = WK (Proc.devRef .tc Cert.KernelIdeal.main_v21)) (e_v36 : WR (Proc.devRef .tc Cert.ReferenceIdeal.main_v62) = WK (Proc.devRef .tc Cert.KernelIdeal.main_v36)) (e_v37 : WR (Proc.devRef .tc Cert.ReferenceIdeal.main_v63) = WK (Proc.devRef .tc Cert.KernelIdeal.main_v37))
    (h1 : WR (Proc.devRef .tc Cert.ReferenceIdeal.main_arg1) = WK (Proc.devRef .tc Cert.KernelIdeal.main_arg1))
    (hc : (fun i => shapeCast Cert.ReferenceIdeal.main_v76.ty.shape (WR (Proc.devRef .tc Cert.ReferenceIdeal.main_v28)) Cert.ReferenceIdeal.Gen.shapeCasts_S1024x1x768_S1024x768 i) = WK (Proc.devRef .tc Cert.KernelIdeal.main_v2)) :
    StableHlo.after postR WR (Proc.devRef .tc Cert.ReferenceIdeal.main_v78) = StableHlo.after postK WK (Proc.devRef .tc Cert.KernelIdeal.main_v51) := by
  simp only [postK, postR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp
  rw [e_v8, e_v14, e_v21, e_v36, e_v37, h1, hc] <;> rfl

set_option maxHeartbeats 40000000 in
theorem post_mask (WK : Valuation Cert.KernelIdeal.τ Cert.KernelIdeal.sig (Elt Ideal)) (WR : Valuation Cert.ReferenceIdeal.τ Cert.ReferenceIdeal.sig (Elt Ideal))
    (e_v8 : WR (Proc.devRef .tc Cert.ReferenceIdeal.main_v34) = WK (Proc.devRef .tc Cert.KernelIdeal.main_v8)) (e_v14 : WR (Proc.devRef .tc Cert.ReferenceIdeal.main_v40) = WK (Proc.devRef .tc Cert.KernelIdeal.main_v14))
    (h2 : WR (Proc.devRef .tc Cert.ReferenceIdeal.main_arg2) = WK (Proc.devRef .tc Cert.KernelIdeal.main_arg2)) :
    StableHlo.after postR WR (Proc.devRef .tc Cert.ReferenceIdeal.main_v83) = StableHlo.after postK WK (Proc.devRef .tc Cert.KernelIdeal.main_v56) := by
  simp only [postK, postR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp
  rw [e_v8, e_v14, h2] <;> rfl

set_option maxHeartbeats 40000000 in
theorem post_cst (WK : Valuation Cert.KernelIdeal.τ Cert.KernelIdeal.sig (Elt Ideal)) (WR : Valuation Cert.ReferenceIdeal.τ Cert.ReferenceIdeal.sig (Elt Ideal)) :
    StableHlo.after postR WR (Proc.devRef .tc Cert.ReferenceIdeal.main_cst_15) = StableHlo.after postK WK (Proc.devRef .tc Cert.KernelIdeal.main_cst) := by
  simp only [postK, postR, Cert.ReferenceIdeal.ValueP.ops, Cert.KernelIdeal.Region.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, List.flatten_cons, List.flatten_nil, List.append_nil, List.cons_append, List.nil_append, List.take_succ_cons, List.take_zero, List.drop_succ_cons, List.drop_zero]
  after_results_simp

/-! ## The two tails joined -/

theorem text_join (WK : Valuation Cert.KernelIdeal.τ Cert.KernelIdeal.sig (Elt Ideal)) (WR : Valuation Cert.ReferenceIdeal.τ Cert.ReferenceIdeal.sig (Elt Ideal))
    (h1 : WR (Proc.devRef .tc Cert.ReferenceIdeal.main_arg1) = WK (Proc.devRef .tc Cert.KernelIdeal.main_arg1)) (h2 : WR (Proc.devRef .tc Cert.ReferenceIdeal.main_arg2) = WK (Proc.devRef .tc Cert.KernelIdeal.main_arg2))
    (hc : (fun i => shapeCast Cert.ReferenceIdeal.main_v76.ty.shape (WR (Proc.devRef .tc Cert.ReferenceIdeal.main_v28)) Cert.ReferenceIdeal.Gen.shapeCasts_S1024x1x768_S1024x768 i) = WK (Proc.devRef .tc Cert.KernelIdeal.main_v2)) :
    StableHlo.after ((Cert.ReferenceIdeal.ValueP.ops (F := Ideal)).drop 43) WR (Proc.devRef .tc Cert.ReferenceIdeal.main_v78)
      = StableHlo.after (List.flatten (Cert.KernelIdeal.Region.tailOps (F := Ideal))) WK (Proc.devRef .tc Cert.KernelIdeal.main_v51) := by
  rw [splitR, splitK]
  exact post_text _ _ (pre_main_v8 WK WR h2) (pre_main_v14 WK WR h2) (pre_main_v21 WK WR h2) (pre_main_v36 WK WR h2) (pre_main_v37 WK WR h2)
    ((preR_main_arg1 WR).trans (h1.trans (preK_main_arg1 WK).symm))
    (by rw [preR_main_v28, preK_main_v2]; exact hc)

theorem mask_join (WK : Valuation Cert.KernelIdeal.τ Cert.KernelIdeal.sig (Elt Ideal)) (WR : Valuation Cert.ReferenceIdeal.τ Cert.ReferenceIdeal.sig (Elt Ideal))
    (h2 : WR (Proc.devRef .tc Cert.ReferenceIdeal.main_arg2) = WK (Proc.devRef .tc Cert.KernelIdeal.main_arg2)) :
    StableHlo.after ((Cert.ReferenceIdeal.ValueP.ops (F := Ideal)).drop 43) WR (Proc.devRef .tc Cert.ReferenceIdeal.main_v83)
      = StableHlo.after (List.flatten (Cert.KernelIdeal.Region.tailOps (F := Ideal))) WK (Proc.devRef .tc Cert.KernelIdeal.main_v56) := by
  rw [splitR, splitK]
  exact post_mask _ _ (pre_main_v8 WK WR h2) (pre_main_v14 WK WR h2)
    ((preR_main_arg2 WR).trans (h2.trans (preK_main_arg2 WK).symm))

theorem cst_join (WK : Valuation Cert.KernelIdeal.τ Cert.KernelIdeal.sig (Elt Ideal)) (WR : Valuation Cert.ReferenceIdeal.τ Cert.ReferenceIdeal.sig (Elt Ideal)) :
    StableHlo.after ((Cert.ReferenceIdeal.ValueP.ops (F := Ideal)).drop 43) WR (Proc.devRef .tc Cert.ReferenceIdeal.main_cst_15)
      = StableHlo.after (List.flatten (Cert.KernelIdeal.Region.tailOps (F := Ideal))) WK (Proc.devRef .tc Cert.KernelIdeal.main_cst) := by
  rw [splitR, splitK]
  exact post_cst _ _

end Cert.Proof.Tails

end
-- ==== Proof.Algebraic.lean ====
/-
  The algebraic conjunct. From memories that agree on the six arguments, the idealized kernel program and the idealized
  reference both run to their ends with their arguments unchanged, and their three results are equal.

  The kernel program's results are what its 75 host lines make of the arrays the call leaves; of those the only one the
  call writes is the soft-match array, which for finite inputs is the specification's soft match entry by entry. The
  reference's results are what its last 76 operations make of the valuation after its first 43, whose soft-match buffer is
  the same specification. The two tails are the same operations; they start from valuations that agree on the text
  embedding, the mask and the soft match, so they end equal.
-/
import proofs.«155410_j47107201302664_1_alg».proof.Defs
import proofs.«155410_j47107201302664_1_alg».proof.Proof.IdealClue
import proofs.«155410_j47107201302664_1_alg».proof.Proof.RefValue
import proofs.«155410_j47107201302664_1_alg».proof.Proof.FiniteInputs
import proofs.«155410_j47107201302664_1_alg».proof.Proof.TailJoin2

set_option maxRecDepth 65536

noncomputable section

namespace Cert.Proof

open Idealize.ShloMosaic Idealize.ShloMosaic.TcCoe Idealize.SL.Sem Idealize.ShloMosaic.StableHlo
open Idealize.ShloMosaic.ValueIdx
open Idealize.ShloMosaic.Pipeline (Dat)

/-! ## The kernel program's run, its results named -/

/-- The valuation the kernel program's host lines after the call start from: every buffer as the call found it, except the
    arrays its windows stage, which hold what the call left. -/
abbrev WKof (m : (ℓ : Loc Cert.KernelIdeal.nD Cert.KernelIdeal.τ Cert.KernelIdeal.sig) → Buf (Elt Ideal) ℓ) (c : Dev Cert.KernelIdeal.nD) : Valuation Cert.KernelIdeal.τ Cert.KernelIdeal.sig (Elt Ideal) :=
  Pipeline.withArrays (Cert.KernelIdeal.cfgs 0).spec c (Cert.KernelIdeal.Region.V0 m c) fun w => (Cert.KernelIdeal.Region.dats m 0 c).arrAt w (Cert.KernelIdeal.cfgs 0).N

theorem tail_at (m : (ℓ : Loc Cert.KernelIdeal.nD Cert.KernelIdeal.τ Cert.KernelIdeal.sig) → Buf (Elt Ideal) ℓ) (c : Dev Cert.KernelIdeal.nD) (b : Ref Cert.KernelIdeal.sig .tc) :
    Pipeline.afterTail₀ Cert.KernelIdeal.cfgs (Cert.KernelIdeal.Region.dats m) 0 (Cert.KernelIdeal.Region.V0 m) Cert.KernelIdeal.Region.tailOps c b
      = StableHlo.after (List.flatten (Cert.KernelIdeal.Region.tailOps (F := Ideal))) (WKof m c) (Proc.devRef .tc b) := rfl

/-- At an argument no window stages that valuation holds the launch contents; -/
theorem WK_arg1 (m : (ℓ : Loc Cert.KernelIdeal.nD Cert.KernelIdeal.τ Cert.KernelIdeal.sig) → Buf (Elt Ideal) ℓ) (c : Dev Cert.KernelIdeal.nD) :
    WKof m c (Proc.devRef .tc Cert.KernelIdeal.main_arg1) = m ((c.tc : Thread Cert.KernelIdeal.nD Cert.KernelIdeal.τ).loc Cert.KernelIdeal.main_arg1) :=
  (Pipeline.withArrays_of_ne _ c (Cert.KernelIdeal.Region.V0 m c) _ Cert.KernelIdeal.main_arg1 (by decide)).trans (Cert.KernelIdeal.Region.V_main_arg1 m c)
theorem WK_arg2 (m : (ℓ : Loc Cert.KernelIdeal.nD Cert.KernelIdeal.τ Cert.KernelIdeal.sig) → Buf (Elt Ideal) ℓ) (c : Dev Cert.KernelIdeal.nD) :
    WKof m c (Proc.devRef .tc Cert.KernelIdeal.main_arg2) = m ((c.tc : Thread Cert.KernelIdeal.nD Cert.KernelIdeal.τ).loc Cert.KernelIdeal.main_arg2) :=
  (Pipeline.withArrays_of_ne _ c (Cert.KernelIdeal.Region.V0 m c) _ Cert.KernelIdeal.main_arg2 (by decide)).trans (Cert.KernelIdeal.Region.V_main_arg2 m c)
/-- at the soft-match array, what the call wrote. -/
theorem WK_clue (m : (ℓ : Loc Cert.KernelIdeal.nD Cert.KernelIdeal.τ Cert.KernelIdeal.sig) → Buf (Elt Ideal) ℓ) (c : Dev Cert.KernelIdeal.nD) :
    WKof m c (Proc.devRef .tc Cert.KernelIdeal.main_v2) = Cert.KernelIdeal.Region.clueArr m c :=
  (Pipeline.withArrays_arr Cert.KernelIdeal.spec0 Cert.KernelIdeal.Gen.launch0.win.arr_inj c (Cert.KernelIdeal.Region.V0 m c) _ 4).trans (Cert.KernelIdeal.Region.final4 m c)

/-- From the launch library's post of the kernel program's run: the six arguments end as they began (the two a window
    stages are inputs of the call; the other four are written by no line). -/
theorem args_of_post (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Cert.KernelIdeal.Region.dats m) 0 (Pipeline.afterTail₀ Cert.KernelIdeal.cfgs (Cert.KernelIdeal.Region.dats m) 0 (Cert.KernelIdeal.Region.V0 m) Cert.KernelIdeal.Region.tailOps) r) (c : Dev Cert.KernelIdeal.nD) :
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) := by
  have rest : ∀ (b : Ref Cert.KernelIdeal.sig .tc), b ∈ ([Cert.KernelIdeal.main_arg0, Cert.KernelIdeal.main_arg1, Cert.KernelIdeal.main_arg2, Cert.KernelIdeal.main_arg4] : List (Ref Cert.KernelIdeal.sig .tc)) →
      (∀ w, Pipeline.arrRef Cert.KernelIdeal.spec0 w ≠ b) →
      Pipeline.afterTail₀ Cert.KernelIdeal.cfgs (Cert.KernelIdeal.Region.dats m) 0 (Cert.KernelIdeal.Region.V0 m) Cert.KernelIdeal.Region.tailOps c b = Cert.KernelIdeal.Region.V m c b := fun b hb hne => by
    unfold Pipeline.afterTail₀
    refine (StableHlo.after_of_forall_not_mem _ _ fun op hop => ?_).trans (Pipeline.withArrays_of_ne _ c (Cert.KernelIdeal.Region.V0 m c) _ b hne)
    obtain ⟨ops, hops, hop'⟩ := List.mem_flatten.mp hop
    exact Cert.KernelIdeal.Region.tail_args b hb ops hops op hop'
  refine ⟨?_, ?_, ?_, ?_, ?_, ?_⟩
  · exact ((h c).2 Cert.KernelIdeal.main_arg0 (Pipeline.mem_restRefs_of Cert.KernelIdeal.main_arg0 rfl (by decide))).trans ((rest Cert.KernelIdeal.main_arg0 (by simp) (by decide)).trans (Cert.KernelIdeal.Region.V_main_arg0 m c))
  · exact ((h c).2 Cert.KernelIdeal.main_arg1 (Pipeline.mem_restRefs_of Cert.KernelIdeal.main_arg1 rfl (by decide))).trans ((rest Cert.KernelIdeal.main_arg1 (by simp) (by decide)).trans (Cert.KernelIdeal.Region.V_main_arg1 m c))
  · exact ((h c).2 Cert.KernelIdeal.main_arg2 (Pipeline.mem_restRefs_of Cert.KernelIdeal.main_arg2 rfl (by decide))).trans ((rest Cert.KernelIdeal.main_arg2 (by simp) (by decide)).trans (Cert.KernelIdeal.Region.V_main_arg2 m c))
  · exact ((h c).1 1).trans (((Cert.KernelIdeal.Region.dats m 0 c).arrAt_in 1 rfl _).trans ((Cert.KernelIdeal.Region.A_eq m c 1).trans (Cert.KernelIdeal.Region.V_main_arg3 m c)))
  · exact ((h c).2 Cert.KernelIdeal.main_arg4 (Pipeline.mem_restRefs_of Cert.KernelIdeal.main_arg4 rfl (by decide))).trans ((rest Cert.KernelIdeal.main_arg4 (by simp) (by decide)).trans (Cert.KernelIdeal.Region.V_main_arg4 m c))
  · exact ((h c).1 3).trans (((Cert.KernelIdeal.Region.dats m 0 c).arrAt_in 3 rfl _).trans ((Cert.KernelIdeal.Region.A_eq m c 3).trans (Cert.KernelIdeal.Region.V_main_arg5 m c)))

/-- The kernel program's run: its three results are its host lines' results from that valuation, its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v51) = StableHlo.after (List.flatten (Cert.KernelIdeal.Region.tailOps (F := Ideal))) (WKof m c) (Proc.devRef .tc Cert.KernelIdeal.main_v51)
      ∧ r.2.mem ((c.tc : Thread Cert.KernelIdeal.nD Cert.KernelIdeal.τ).loc Cert.KernelIdeal.main_v56) = StableHlo.after (List.flatten (Cert.KernelIdeal.Region.tailOps (F := Ideal))) (WKof m c) (Proc.devRef .tc Cert.KernelIdeal.main_v56)
      ∧ r.2.mem ((c.tc : Thread Cert.KernelIdeal.nD Cert.KernelIdeal.τ).loc Cert.KernelIdeal.main_cst) = StableHlo.after (List.flatten (Cert.KernelIdeal.Region.tailOps (F := Ideal))) (WKof m c) (Proc.devRef .tc Cert.KernelIdeal.main_cst)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono (fun r h c =>
    ⟨((h c).2 Cert.KernelIdeal.main_v51 (Pipeline.mem_restRefs_of Cert.KernelIdeal.main_v51 rfl (by decide))).trans (tail_at m c _),
     ((h c).2 Cert.KernelIdeal.main_v56 (Pipeline.mem_restRefs_of Cert.KernelIdeal.main_v56 rfl (by decide))).trans (tail_at m c _),
     ((h c).2 Cert.KernelIdeal.main_cst (Pipeline.mem_restRefs_of Cert.KernelIdeal.main_cst rfl (by decide))).trans (tail_at m c _),
     args_of_post m r h c⟩)
    (Cert.KernelIdeal.Region.run_main (F := Ideal) m ρ)

/-! ## The reference's run -/

set_option maxHeartbeats 40000000 in
theorem ref_arg0 (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (launchContents m' c) (Proc.devRef .tc Cert.ReferenceIdeal.main_arg0) = m' ((c.tc : Thread Cert.ReferenceIdeal.nD Cert.ReferenceIdeal.τ).loc Cert.ReferenceIdeal.main_arg0) := by
  after_results_simp <;> rfl

set_option maxHeartbeats 40000000 in
theorem ref_arg1 (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (launchContents m' c) (Proc.devRef .tc Cert.ReferenceIdeal.main_arg1) = m' ((c.tc : Thread Cert.ReferenceIdeal.nD Cert.ReferenceIdeal.τ).loc Cert.ReferenceIdeal.main_arg1) := by
  after_results_simp <;> rfl

set_option maxHeartbeats 40000000 in
theorem ref_arg2 (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (launchContents m' c) (Proc.devRef .tc Cert.ReferenceIdeal.main_arg2) = m' ((c.tc : Thread Cert.ReferenceIdeal.nD Cert.ReferenceIdeal.τ).loc Cert.ReferenceIdeal.main_arg2) := by
  after_results_simp <;> rfl

set_option maxHeartbeats 40000000 in
theorem ref_arg3 (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (launchContents m' c) (Proc.devRef .tc Cert.ReferenceIdeal.main_arg3) = m' ((c.tc : Thread Cert.ReferenceIdeal.nD Cert.ReferenceIdeal.τ).loc Cert.ReferenceIdeal.main_arg3) := by
  after_results_simp <;> rfl

set_option maxHeartbeats 40000000 in
theorem ref_arg4 (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (launchContents m' c) (Proc.devRef .tc Cert.ReferenceIdeal.main_arg4) = m' ((c.tc : Thread Cert.ReferenceIdeal.nD Cert.ReferenceIdeal.τ).loc Cert.ReferenceIdeal.main_arg4) := by
  after_results_simp <;> rfl

set_option maxHeartbeats 40000000 in
theorem ref_arg5 (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.ValueP.ops (F := Ideal)) (launchContents m' c) (Proc.devRef .tc Cert.ReferenceIdeal.main_arg5) = m' ((c.tc : Thread Cert.ReferenceIdeal.nD Cert.ReferenceIdeal.τ).loc Cert.ReferenceIdeal.main_arg5) := by
  after_results_simp <;> rfl

/-- Every weakly fair execution of the reference terminates with every buffer at its operations' composed valuation. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r =>
      ∀ (c : Dev Cert.ReferenceIdeal.nD) (b : Ref Cert.ReferenceIdeal.sig .tc), r.2.mem ((c.tc : Thread Cert.ReferenceIdeal.nD Cert.ReferenceIdeal.τ).loc b)
        = StableHlo.after (Cert.ReferenceIdeal.ValueP.ops (F := Ideal)) (launchContents m' c) (Proc.devRef .tc b) :=
  StableHlo.run_seq Cert.ReferenceIdeal.ValueP.scopedRefs_eq Cert.ReferenceIdeal.ValueP.scopedSems_eq Cert.ReferenceIdeal.defs Cert.ReferenceIdeal.main (fun _ => Cert.ReferenceIdeal.ValueP.ops) Cert.ReferenceIdeal.ValueP.main_eq (fun _ => Cert.ReferenceIdeal.ValueP.ops_sub) m' ρ'

/-! ## The claim -/

/-- The valuation after the reference's first 43 operations (through its soft match). -/
abbrev WRof (m' : (ℓ : Loc Cert.ReferenceIdeal.nD Cert.ReferenceIdeal.τ Cert.ReferenceIdeal.sig) → Buf (Elt Ideal) ℓ) (c : Dev Cert.ReferenceIdeal.nD) : Valuation Cert.ReferenceIdeal.τ Cert.ReferenceIdeal.sig (Elt Ideal) :=
  StableHlo.after ((Cert.ReferenceIdeal.ValueP.ops (F := Ideal)).take 43) (launchContents m' c)

set_option maxHeartbeats 4000000 in
theorem algebraic : Cert.algebraic_KernelIdeal_ReferenceIdeal := by
  intro m ρ m' ρ' hpre hagree
  refine ⟨fun c => StableHlo.after (List.flatten (Cert.KernelIdeal.Region.tailOps (F := Ideal))) (WKof m c) (Proc.devRef .tc Cert.KernelIdeal.main_v51),
    fun c => StableHlo.after (List.flatten (Cert.KernelIdeal.Region.tailOps (F := Ideal))) (WKof m c) (Proc.devRef .tc Cert.KernelIdeal.main_v56),
    fun c => StableHlo.after (List.flatten (Cert.KernelIdeal.Region.tailOps (F := Ideal))) (WKof m c) (Proc.devRef .tc Cert.KernelIdeal.main_cst),
    kernel_run m ρ, ?_⟩
  refine (θ_run (Cert.ReferenceIdeal.defs (F := Ideal)) _ _).mono (fun r h c => ?_) (ref_run m' ρ')
  obtain ⟨g0, g1, g2, g3, g4, g5⟩ := hagree c
  obtain ⟨r0, -, r3, r4, r5⟩ := Cert.KernelIdeal.Finite.reals_of_finite _ _ _ _ _ _ (hpre c)
  have h1 : WRof m' c (Proc.devRef .tc Cert.ReferenceIdeal.main_arg1) = WKof m c (Proc.devRef .tc Cert.KernelIdeal.main_arg1) :=
    (Cert.ReferenceIdeal.RefValue.prefix_arg1 _).trans (g1.trans (WK_arg1 m c).symm)
  have h2 : WRof m' c (Proc.devRef .tc Cert.ReferenceIdeal.main_arg2) = WKof m c (Proc.devRef .tc Cert.KernelIdeal.main_arg2) :=
    (Cert.ReferenceIdeal.RefValue.prefix_arg2 _).trans (g2.trans (WK_arg2 m c).symm)
  have hc : (fun i => shapeCast Cert.ReferenceIdeal.main_v76.ty.shape (WRof m' c (Proc.devRef .tc Cert.ReferenceIdeal.main_v28)) Cert.ReferenceIdeal.Gen.shapeCasts_S1024x1x768_S1024x768 i)
      = WKof m c (Proc.devRef .tc Cert.KernelIdeal.main_v2) := by
    rw [WK_clue]
    funext i
    obtain ⟨b, e, rfl⟩ : ∃ (b : Fin 1024) (e : Fin 768), i = ix2 b e := ⟨i 0, i 1, eq_ix2 i⟩
    rw [Cert.KernelIdeal.Region.clueArr_eq m c r0 r3 r4 r5 b e]
    refine (Cert.KernelIdeal.Region.dropMid_apply (a := 1024) (b := 768) _ _ b e).trans ?_
    refine (Cert.ReferenceIdeal.RefValue.prefix_clue_apply m' c b e).trans ?_
    rw [g0, g3, g4, g5]
  refine ⟨(h c Cert.ReferenceIdeal.main_v78).trans ?_, (h c Cert.ReferenceIdeal.main_v83).trans ?_, (h c Cert.ReferenceIdeal.main_cst_15).trans ?_,
    (h c Cert.ReferenceIdeal.main_arg0).trans (ref_arg0 m' c), (h c Cert.ReferenceIdeal.main_arg1).trans (ref_arg1 m' c), (h c Cert.ReferenceIdeal.main_arg2).trans (ref_arg2 m' c),
    (h c Cert.ReferenceIdeal.main_arg3).trans (ref_arg3 m' c), (h c Cert.ReferenceIdeal.main_arg4).trans (ref_arg4 m' c), (h c Cert.ReferenceIdeal.main_arg5).trans (ref_arg5 m' c)⟩
  · rw [Cert.ReferenceIdeal.RefValue.after_split]
    exact Tails.text_join (WKof m c) (WRof m' c) h1 h2 hc
  · rw [Cert.ReferenceIdeal.RefValue.after_split]
    exact Tails.mask_join (WKof m c) (WRof m' c) h2
  · rw [Cert.ReferenceIdeal.RefValue.after_split]
    exact Tails.cst_join (WKof m c) (WRof m' c)

end Cert.Proof

end
-- ==== Proof.lean ====
/-
  The certificate of the soft vector quantizer: a Pallas kernel that projects 1024 rows, scores them against 16384
  codebook rows by cosine similarity, and reads the codebook out through a softmax of one minus the score, computed as an
  online softmax over sixteen codebook tiles (running maximum, weight sum and weighted sum carried in scratch), followed
  by the host's insertion of the result into the text embedding; against the plain jnp computation of the same.

  Frames. Each kernel program is: two reshapes, the call, seventy-five host lines. The call's frame is proved from the
  launch library's run of a region between host lines, with the body run once per case of its two conditionals (first
  codebook tile, last codebook tile) and the four scratch buffers tracked from point to point. The reference's frame is
  its run as a list of host operations.
  Preserves. The idealization rewrote nothing.
  Algebraic. On the extended reals, for finite inputs, the online softmax's final quotient is the divide-early
  softmax-weighted sum (the weights rescaled to a common shift cancel in the quotient), and the two host tails are the
  same operations applied to equal arrays.
-/
import proofs.«155410_j47107201302664_1_alg».proof.Defs
import proofs.«155410_j47107201302664_1_alg».proof.Proof.Gen.Kernel
import proofs.«155410_j47107201302664_1_alg».proof.Proof.Gen.KernelIdeal
import proofs.«155410_j47107201302664_1_alg».proof.Proof.Gen.ReferenceIdeal
import proofs.«155410_j47107201302664_1_alg».proof.Proof.Gen.Pre_finite_inputs
import proofs.«155410_j47107201302664_1_alg».proof.Proof.WordFrame
import proofs.«155410_j47107201302664_1_alg».proof.Proof.IdealFrame
import proofs.«155410_j47107201302664_1_alg».proof.Proof.RefRunPatched
import proofs.«155410_j47107201302664_1_alg».proof.Proof.Algebraic
import Idealize.ShloMosaic.Adequacy
import Idealize.ShloMosaic.Init

noncomputable section

namespace Cert.Proof

open Idealize.ShloMosaic Idealize.SL.Sem

theorem frame_word : Cert.frame_Kernel := fun m ρ _ => Cert.Kernel.Region.frame m ρ

theorem frame_ideal : Cert.frame_KernelIdeal := fun m ρ _ => Cert.KernelIdeal.Region.frame m ρ

theorem frame_ref : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
